-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v24_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x133 : Shape := ⟨2, ![16384, 133]⟩
abbrev S128x2 : Shape := ⟨2, ![128, 2]⟩
abbrev S128 : Shape := ⟨1, ![128]⟩
abbrev S128x128 : Shape := ⟨2, ![128, 128]⟩
abbrev S1x256 : Shape := ⟨2, ![1, 256]⟩
abbrev S1 : Shape := ⟨1, ![1]⟩
abbrev S128x133 : Shape := ⟨2, ![128, 133]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x2 : Shape := ⟨2, ![1, 2]⟩
abbrev S_ : Shape := ⟨0, ![]⟩

class Facts : Prop where
  bcast_S_S16384x133 : S_.BroadcastsInDim S16384x133 (![] : Fin 0 → Fin S16384x133.rank)
  reducesTo_S16384x133_S_d0_1 : S16384x133.ReducesTo [0, 1] S_
  h_S_ : 0 < S_.numel
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S128x133 : S_.BroadcastsInDim S128x133 (![] : Fin 0 → Fin S128x133.rank)
  reducesTo_S128x133_S_d0_1 : S128x133.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S1x2 : S_.BroadcastsInDim S1x2 (![] : Fin 0 → Fin S1x2.rank)
  reducesTo_S1x2_S_d0_1 : S1x2.ReducesTo [0, 1] S_

variable [Facts]

def fn_part5 {F : FTy → Type} [FloatOps F] (main_v83 : IVec S_ 1) (main_v84 : FVec F S1x2 .f32) (main_cst_32 : FVec F S_ .f32) : IVec S_ 1 :=
  let main_v85 : FVec F S1x2 .f32 := broadcastInDim S1x2 ![] bcast_S_S1x2 main_cst_32
  let main_v86 : IVec S1x2 1 := cmpf .olt main_v84 main_v85
  let main_c_33 : IVec S_ 1 := constantI S_ 1 1#1
  let main_v87 : IVec S_ 1 := (fun x v => Host.reduce IntOp.andi x v reducesTo_S1x2_S_d0_1 h_S_) main_v86 main_c_33
  let main_v88 : IVec S_ 1 := andi main_v83 main_v87
  main_v88

def fn_part4 {F : FTy → Type} [FloatOps F] (main_arg14 : FVec F S256 .f32) (main_arg15 : FVec F S2x256 .f32) (main_arg16 : FVec F S2 .f32) (main_arg17 : FVec F S1x2 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S2x256 .f32 := Host.absf main_arg15
  let main_cst_28 : FVec F S_ .f32 := constant S_ .f32 0x7F800000#32
  let main_v75 : FVec F S2x256 .f32 := broadcastInDim S2x256 ![] bcast_S_S2x256 main_cst_28
  let main_v76 : IVec S2x256 1 := cmpf .olt main_v74 main_v75
  let main_c_29 : IVec S_ 1 := constantI S_ 1 1#1
  let main_v77 : IVec S_ 1 := (fun x v => Host.reduce IntOp.andi x v reducesTo_S2x256_S_d0_1 h_S_) main_v76 main_c_29
  let main_v78 : IVec S_ 1 := andi main_v73 main_v77
  let main_v79 : FVec F S2 .f32 := Host.absf main_arg16
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_v84 : FVec F S1x2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1x256 .f32) (main_arg12 : FVec F S1 .f32) (main_arg13 : FVec F S256x128 .f32) (main_arg14 : FVec F S256 .f32) (main_arg15 : FVec F S2x256 .f32) (main_arg16 : FVec F S2 .f32) (main_arg17 : FVec F S1x2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1x256 .f32 := Host.absf main_arg11
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_v63 main_v67

def fn_part2 {F : FTy → Type} [FloatOps F] (main_arg7 : FVec F S128x133 .f32) (main_arg8 : FVec F S128 .f32) (main_arg9 : FVec F S256x128 .f32) (main_arg10 : FVec F S256 .f32) (main_arg11 : FVec F S1x256 .f32) (main_arg12 : FVec F S1 .f32) (main_arg13 : FVec F S256x128 .f32) (main_arg14 : FVec F S256 .f32) (main_arg15 : FVec F S2x256 .f32) (main_arg16 : FVec F S2 .f32) (main_arg17 : FVec F S1x2 .f32) (main_v33 : IVec S_ 1) : IVec S_ 1 :=
  let main_v34 : FVec F S128x133 .f32 := Host.absf main_arg7
  let main_cst_12 : FVec F S_ .f32 := constant S_ .f32 0x7F800000#32
  let main_v35 : FVec F S128x133 .f32 := broadcastInDim S128x133 ![] bcast_S_S128x133 main_cst_12
  let main_v36 : IVec S128x133 1 := cmpf .olt main_v34 main_v35
  let main_c_13 : IVec S_ 1 := constantI S_ 1 1#1
  let main_v37 : IVec S_ 1 := (fun x v => Host.reduce IntOp.andi x v reducesTo_S128x133_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_v48 main_v49 main_v50

def fn_part1 {F : FTy → Type} [FloatOps F] (main_arg4 : FVec F S128 .f32) (main_arg5 : FVec F S1x256 .f32) (main_arg6 : FVec F S1 .f32) (main_arg7 : FVec F S128x133 .f32) (main_arg8 : FVec F S128 .f32) (main_arg9 : FVec F S256x128 .f32) (main_arg10 : FVec F S256 .f32) (main_arg11 : FVec F S1x256 .f32) (main_arg12 : FVec F S1 .f32) (main_arg13 : FVec F S256x128 .f32) (main_arg14 : FVec F S256 .f32) (main_arg15 : FVec F S2x256 .f32) (main_arg16 : FVec F S2 .f32) (main_arg17 : FVec F S1x2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x133 .f32) (main_arg1 : FVec F S128x2 .f32) (main_arg2 : FVec F S128 .f32) (main_arg3 : FVec F S128x128 .f32) (main_arg4 : FVec F S128 .f32) (main_arg5 : FVec F S1x256 .f32) (main_arg6 : FVec F S1 .f32) (main_arg7 : FVec F S128x133 .f32) (main_arg8 : FVec F S128 .f32) (main_arg9 : FVec F S256x128 .f32) (main_arg10 : FVec F S256 .f32) (main_arg11 : FVec F S1x256 .f32) (main_arg12 : FVec F S1 .f32) (main_arg13 : FVec F S256x128 .f32) (main_arg14 : FVec F S256 .f32) (main_arg15 : FVec F S2x256 .f32) (main_arg16 : FVec F S2 .f32) (main_arg17 : FVec F S1x2 .f32) : IVec S_ 1 :=
  let main_v0 : FVec F S16384x133 .f32 := Host.absf main_arg0
  let main_cst : FVec F S_ .f32 := constant S_ .f32 0x7F800000#32
  let main_v1 : FVec F S16384x133 .f32 := broadcastInDim S16384x133 ![] bcast_S_S16384x133 main_cst
  let main_v2 : IVec S16384x133 1 := cmpf .olt main_v0 main_v1
  let main_c : IVec S_ 1 := constantI S_ 1 1#1
  let main_v3 : IVec S_ 1 := (fun x v => Host.reduce IntOp.andi x v reducesTo_S16384x133_S_d0_1 h_S_) main_v2 main_c
  let main_v4 : FVec F S128x2 .f32 := Host.absf main_arg1
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x133 : Shape := ⟨2, ![16384, 133]⟩
abbrev S128x2 : Shape := ⟨2, ![128, 2]⟩
abbrev S128 : Shape := ⟨1, ![128]⟩
abbrev S128x128 : Shape := ⟨2, ![128, 128]⟩
abbrev S1x256 : Shape := ⟨2, ![1, 256]⟩
abbrev S1 : Shape := ⟨1, ![1]⟩
abbrev S128x133 : Shape := ⟨2, ![128, 133]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x2 : Shape := ⟨2, ![1, 2]⟩
abbrev S16384x5 : Shape := ⟨2, ![16384, 5]⟩
abbrev S16384x128 : Shape := ⟨2, ![16384, 128]⟩
abbrev S16384x64x2 : Shape := ⟨3, ![16384, 64, 2]⟩
abbrev S16384x64x1 : Shape := ⟨3, ![16384, 64, 1]⟩
abbrev S16384x64 : Shape := ⟨2, ![16384, 64]⟩
abbrev S128x1 : Shape := ⟨2, ![128, 1]⟩
abbrev S1x128 : Shape := ⟨2, ![1, 128]⟩
abbrev S128x5 : Shape := ⟨2, ![128, 5]⟩
abbrev S5x128 : Shape := ⟨2, ![5, 128]⟩
abbrev S128x256 : Shape := ⟨2, ![128, 256]⟩
abbrev S256x1 : Shape := ⟨2, ![256, 1]⟩
abbrev S256x2 : Shape := ⟨2, ![256, 2]⟩
abbrev S16384x2 : Shape := ⟨2, ![16384, 2]⟩
abbrev S16384x1 : Shape := ⟨2, ![16384, 1]⟩
abbrev S256x5 : Shape := ⟨2, ![256, 5]⟩
abbrev S256x64 : Shape := ⟨2, ![256, 64]⟩
abbrev S256x64x1 : Shape := ⟨3, ![256, 64, 1]⟩
abbrev S1x1x128 : Shape := ⟨3, ![1, 1, 128]⟩
abbrev S256x64x128 : Shape := ⟨3, ![256, 64, 128]⟩
abbrev S256x256 : Shape := ⟨2, ![256, 256]⟩
abbrev S1x1 : Shape := ⟨2, ![1, 1]⟩

abbrev nBuf : Space → Nat
  | .hbm => 46
  | .vmem => 29
  | .smem => 0
  | _ => 0

abbrev bufTy : (tb : Table) → Fin (tcTables nBuf tb) → BufTy
  | .hbm, ⟨0, _⟩ => ⟨S16384x133, .f32⟩
  | .hbm, ⟨1, _⟩ => ⟨S128x2, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1x256, .f32⟩
  | .hbm, ⟨6, _⟩ => ⟨S1, .f32⟩
  | .hbm, ⟨7, _⟩ => ⟨S128x133, .f32⟩
  | .hbm, ⟨8, _⟩ => ⟨S128, .f32⟩
  | .hbm, ⟨9, _⟩ => ⟨S256x128, .f32⟩
  | .hbm, ⟨10, _⟩ => ⟨S256, .f32⟩
  | .hbm, ⟨11, _⟩ => ⟨S1x256, .f32⟩
  | .hbm, ⟨12, _⟩ => ⟨S1, .f32⟩
  | .hbm, ⟨13, _⟩ => ⟨S256x128, .f32⟩
  | .hbm, ⟨14, _⟩ => ⟨S256, .f32⟩
  | .hbm, ⟨15, _⟩ => ⟨S2x256, .f32⟩
  | .hbm, ⟨16, _⟩ => ⟨S2, .f32⟩
  | .hbm, ⟨17, _⟩ => ⟨S1x2, .f32⟩
  | .hbm, ⟨18, _⟩ => ⟨S16384x5, .f32⟩
  | .hbm, ⟨19, _⟩ => ⟨S16384x128, .f32⟩
  | .hbm, ⟨20, _⟩ => ⟨S16384x64x2, .f32⟩
  | .hbm, ⟨21, _⟩ => ⟨S16384x64x1, .f32⟩
  | .hbm, ⟨22, _⟩ => ⟨S16384x64, .f32⟩
  | .hbm, ⟨23, _⟩ => ⟨S16384x64x1, .f32⟩
  | .hbm, ⟨24, _⟩ => ⟨S16384x64, .f32⟩
  | .hbm, ⟨25, _⟩ => ⟨S128x1, .f32⟩
  | .hbm, ⟨26, _⟩ => ⟨S128, .f32⟩
  | .hbm, ⟨27, _⟩ => ⟨S1x128, .f32⟩
  | .hbm, ⟨28, _⟩ => ⟨S128x1, .f32⟩
  | .hbm, ⟨29, _⟩ => ⟨S128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S128x128, .f32⟩
  | .hbm, ⟨34, _⟩ => ⟨S128x5, .f32⟩
  | .hbm, ⟨35, _⟩ => ⟨S5x128, .f32⟩
  | .hbm, ⟨36, _⟩ => ⟨S128x128, .f32⟩
  | .hbm, ⟨37, _⟩ => ⟨S128x128, .f32⟩
  | .hbm, ⟨38, _⟩ => ⟨S128x256, .f32⟩
  | .hbm, ⟨39, _⟩ => ⟨S256x1, .f32⟩
  | .hbm, ⟨40, _⟩ => ⟨S128x256, .f32⟩
  | .hbm, ⟨41, _⟩ => ⟨S256x2, .f32⟩
  | .hbm, ⟨42, _⟩ => ⟨S16384x2, .f32⟩
  | .hbm, ⟨43, _⟩ => ⟨S16384x1, .f32⟩
  | .hbm, ⟨44, _⟩ => ⟨S1x2, .f32⟩
  | .hbm, ⟨45, _⟩ => ⟨S16384x2, .f32⟩
  | .local _ .vmem, ⟨0, _⟩ => ⟨S256x5, .f32⟩
  | .local _ .vmem, ⟨1, _⟩ => ⟨S256x5, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S1x128, .f32⟩
  | .local _ .vmem, ⟨7, _⟩ => ⟨S1x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S1x128, .f32⟩
  | .local _ .vmem, ⟨12, _⟩ => ⟨S1x128, .f32⟩
  | .local _ .vmem, ⟨13, _⟩ => ⟨S1, .f32⟩
  | .local _ .vmem, ⟨14, _⟩ => ⟨S5x128, .f32⟩
  | .local _ .vmem, ⟨15, _⟩ => ⟨S128x128, .f32⟩
  | .local _ .vmem, ⟨16, _⟩ => ⟨S128, .f32⟩
  | .local _ .vmem, ⟨17, _⟩ => ⟨S128x256, .f32⟩
  | .local _ .vmem, ⟨18, _⟩ => ⟨S256, .f32⟩
  | .local _ .vmem, ⟨19, _⟩ => ⟨S256x1, .f32⟩
  | .local _ .vmem, ⟨20, _⟩ => ⟨S1, .f32⟩
  | .local _ .vmem, ⟨21, _⟩ => ⟨S128x256, .f32⟩
  | .local _ .vmem, ⟨22, _⟩ => ⟨S256, .f32⟩
  | .local _ .vmem, ⟨23, _⟩ => ⟨S256x2, .f32⟩
  | .local _ .vmem, ⟨24, _⟩ => ⟨S2, .f32⟩
  | .local _ .vmem, ⟨25, _⟩ => ⟨S256x2, .f32⟩
  | .local _ .vmem, ⟨26, _⟩ => ⟨S256x2, .f32⟩
  | .local _ .vmem, ⟨27, _⟩ => ⟨S256x1, .f32⟩
  | .local _ .vmem, ⟨28, _⟩ => ⟨S256x1, .f32⟩
  | _, _ => ⟨S16384x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem22_1 : DmaSem sig := 26
abbrev cc0_sem23_0 : DmaSem sig := 27
abbrev cc0_sem23_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x2 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x2 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  slices_S16384x133_S16384x5_0_0 : S16384x133.Slices ![0, 0] S16384x5
  slices_S16384x133_S16384x128_0_5 : S16384x133.Slices ![0, 5] S16384x128
  shapeCasts_S16384x128_S16384x64x2 : S16384x128.ShapeCasts S16384x64x2
  slices_S16384x64x2_S16384x64x1_0_0_0 : S16384x64x2.Slices ![0, 0, 0] S16384x64x1
  shapeCasts_S16384x64x1_S16384x64 : S16384x64x1.ShapeCasts S16384x64
  slices_S16384x64x2_S16384x64x1_0_0_1 : S16384x64x2.Slices ![0, 0, 1] S16384x64x1
  slices_S128x2_S128x1_0_0 : S128x2.Slices ![0, 0] S128x1
  shapeCasts_S128x1_S128 : S128x1.ShapeCasts S128
  bcast_S128_S1x128_1 : S128.BroadcastsInDim S1x128 (![1] : Fin 1 → Fin S1x128.rank)
  slices_S128x2_S128x1_0_1 : S128x2.Slices ![0, 1] S128x1
  slices_S1x256_S1x128_0_0 : S1x256.Slices ![0, 0] S1x128
  slices_S1x256_S1x128_0_128 : S1x256.Slices ![0, 128] S1x128
  transposes_S128x128_S128x128_1_0 : S128x128.Transposes [1, 0] S128x128
  slices_S128x133_S128x5_0_0 : S128x133.Slices ![0, 0] S128x5
  transposes_S128x5_S5x128_1_0 : S128x5.Transposes [1, 0] S5x128
  slices_S128x133_S128x128_0_5 : S128x133.Slices ![0, 5] S128x128
  transposes_S256x128_S128x256_1_0 : S256x128.Transposes [1, 0] S128x256
  transposes_S1x256_S256x1_1_0 : S1x256.Transposes [1, 0] S256x1
  transposes_S2x256_S256x2_1_0 : S2x256.Transposes [1, 0] S256x2
  inb_S256x5_S256x5_0_0 : ∀ a, (![0, 0] : Fin 2 → Nat) a + S256x5.size a ≤ S256x5.size a
  h_S256x5 : 0 < S256x5.numel
  shapeCasts_S256x5_S256x5 : S256x5.ShapeCasts S256x5
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x128_S1x128_0_0 : ∀ a, (![0, 0] : Fin 2 → Nat) a + S1x128.size a ≤ S1x128.size a
  h_S1x128 : 0 < S1x128.numel
  shapeCasts_S1x128_S128 : S1x128.ShapeCasts S128
  inb_S128_S128_0 : ∀ a, (![0] : Fin 1 → Nat) a + S128.size a ≤ S128.size a
  h_S128 : 0 < S128.numel
  shapeCasts_S256x64_S256x64x1 : S256x64.ShapeCasts S256x64x1
  shapeCasts_S128_S1x1x128 : S128.ShapeCasts S1x1x128
  broadcasts_S256x64x1_S256x64x128 : S256x64x1.Broadcasts S256x64x128
  broadcasts_S1x1x128_S256x64x128 : S1x1x128.Broadcasts S256x64x128
  reduces_S256x64x128_S256x128 : S256x64x128.Reduces [1] S256x128
  inb_S1_S1_0 : ∀ a, (![0] : Fin 1 → Nat) a + S1.size a ≤ S1.size a
  h_S1 : 0 < S1.numel
  inpos_S1_p0 : ∀ a, (![0] : Fin 1 → Nat) a < S1.size a
  reduces_S256x64x128_S256x64 : S256x64x128.Reduces [2] S256x64
  shapeCasts_S128_S1x128 : S128.ShapeCasts S1x128
  broadcasts_S1x128_S256x128 : S1x128.Broadcasts S256x128
  reduces_S256x128_S256 : S256x128.Reduces [1] S256
  shapeCasts_S256_S256x1 : S256.ShapeCasts S256x1
  broadcasts_S256x1_S256x64 : S256x1.Broadcasts S256x64
  reduces_S256x64_S256 : S256x64.Reduces [1] S256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  shapeCasts_S256x64x128_S16384x128 : S256x64x128.ShapeCasts S16384x128
  shapeCasts_S16384x128_S256x64x128 : S16384x128.ShapeCasts S256x64x128
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256_S1x256 : S256.ShapeCasts S1x256
  broadcasts_S1x256_S256x256 : S1x256.Broadcasts S256x256
  shapeCasts_S1_S1x1 : S1.ShapeCasts S1x1
  broadcasts_S1x1_S256x1 : S1x1.Broadcasts S256x1
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  bcast_S1x2_S16384x2_0_1 : S1x2.BroadcastsInDim S16384x2 (![0, 1] : Fin 2 → Fin S16384x2.rank)
  dot_S16384x128_S128x128_S16384x128_1_0_0_1_n_n_wf : DotDims.WF S16384x128 S128x128 S16384x128 [1] [0] [0] [1] [] []
  dot_S256x5_S5x128_S256x128_1_0_0_1_n_n_wf : DotDims.WF S256x5 S5x128 S256x128 [1] [0] [0] [1] [] []
  dot_S256x128_S128x128_S256x128_1_0_0_1_n_n_wf : DotDims.WF S256x128 S128x128 S256x128 [1] [0] [0] [1] [] []
  dot_S256x128_S128x256_S256x256_1_0_0_1_n_n_wf : DotDims.WF S256x128 S128x256 S256x256 [1] [0] [0] [1] [] []
  dot_S256x256_S256x1_S256x1_1_0_0_1_n_n_wf : DotDims.WF S256x256 S256x1 S256x1 [1] [0] [0] [1] [] []
  dot_S256x256_S256x2_S256x2_1_0_0_1_n_n_wf : DotDims.WF S256x256 S256x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5.size a ≤ S16384x5.size a
  hwx0_0 : ∀ i : grid0.Coords, EltTy.bits .f32 = 32 ∨ (Rect.block (s := S16384x5) S256x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .f32 = 32 ∨ (Rect.block (s := S16384x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x128.size a ≤ S5x128.size a
  hwx0_11 : ∀ i : grid0.Coords, EltTy.bits .f32 = 32 ∨ (Rect.block (s := S5x128) S5x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x256.size a ≤ S128x256.size a
  hwx0_14 : ∀ i : grid0.Coords, EltTy.bits .f32 = 32 ∨ (Rect.block (s := S128x256) S128x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x1.size a ≤ S256x1.size a
  hwx0_16 : ∀ i : grid0.Coords, EltTy.bits .f32 = 32 ∨ (Rect.block (s := S256x1) S256x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1.size a ≤ S1.size a
  hwx0_17 : ∀ i : grid0.Coords, EltTy.bits .f32 = 32 ∨ (Rect.block (s := S1) S1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x256.size a ≤ S128x256.size a
  hwx0_18 : ∀ i : grid0.Coords, EltTy.bits .f32 = 32 ∨ (Rect.block (s := S128x256) S128x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256.size a ≤ S256.size a
  hwx0_19 : ∀ i : grid0.Coords, EltTy.bits .f32 = 32 ∨ (Rect.block (s := S256) S256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x2.size a ≤ S256x2.size a
  hwx0_20 : ∀ i : grid0.Coords, EltTy.bits .f32 = 32 ∨ (Rect.block (s := S256x2) S256x2.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S2.size a ≤ S2.size a
  hwx0_21 : ∀ i : grid0.Coords, EltTy.bits .f32 = 32 ∨ (Rect.block (s := S2) S2.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S256x2.size a ≤ S16384x2.size a
  hwx0_22 : ∀ i : grid0.Coords, EltTy.bits .f32 = 32 ∨ (Rect.block (s := S16384x2) S256x2.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S256x1.size a ≤ S16384x1.size a
  hwx0_23 : ∀ i : grid0.Coords, EltTy.bits .f32 = 32 ∨ (Rect.block (s := S16384x1) S256x1.size (cc0_transform_23 i) (hinb0_23 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S256x5_S5x128_S256x128_1_0_0_1_n_n : DotDims S256x5 S5x128 S256x128 where
  lhsContracting := [1]
  rhsContracting := [0]
  lhsNonContracting := [0]
  rhsNonContracting := [1]
  lhsBatch := []
  rhsBatch := []
  wf := dot_S256x5_S5x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

abbrev win0_0 : Pipeline.Window sig grid0 :=
  Pipeline.Window.ofSpec (Memref.whole main_v0) S256x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S5x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20) S128x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg10) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v21) S256x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg12) S1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v22) S128x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg14) S256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v23) S256x2.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg16) S2.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v24_0) S256x2.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v24_1) S256x1.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S16384x133 : Shape := ⟨2, ![16384, 133]⟩
abbrev S128x2 : Shape := ⟨2, ![128, 2]⟩
abbrev S128 : Shape := ⟨1, ![128]⟩
abbrev S128x128 : Shape := ⟨2, ![128, 128]⟩
abbrev S1x256 : Shape := ⟨2, ![1, 256]⟩
abbrev S1 : Shape := ⟨1, ![1]⟩
abbrev S128x133 : Shape := ⟨2, ![128, 133]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x2 : Shape := ⟨2, ![1, 2]⟩
abbrev S16384x5 : Shape := ⟨2, ![16384, 5]⟩
abbrev S16384x128 : Shape := ⟨2, ![16384, 128]⟩
abbrev S16384x64x2 : Shape := ⟨3, ![16384, 64, 2]⟩
abbrev S16384x64x128 : Shape := ⟨3, ![16384, 64, 128]⟩
abbrev S1x1x128 : Shape := ⟨3, ![1, 1, 128]⟩
abbrev S_ : Shape := ⟨0, ![]⟩
abbrev S16384x1x128 : Shape := ⟨3, ![16384, 1, 128]⟩
abbrev S1x128 : Shape := ⟨2, ![1, 128]⟩
abbrev S16384x64x1 : Shape := ⟨3, ![16384, 64, 1]⟩
abbrev S16384x1x1 : Shape := ⟨3, ![16384, 1, 1]⟩
abbrev S1x1x1 : Shape := ⟨3, ![1, 1, 1]⟩
abbrev S16384x1 : Shape := ⟨2, ![16384, 1]⟩
abbrev S133x128 : Shape := ⟨2, ![133, 128]⟩
abbrev S128x256 : Shape := ⟨2, ![128, 256]⟩
abbrev S16384x256 : Shape := ⟨2, ![16384, 256]⟩
abbrev S256x1 : Shape := ⟨2, ![256, 1]⟩
abbrev S1x1 : Shape := ⟨2, ![1, 1]⟩
abbrev S256x2 : Shape := ⟨2, ![256, 2]⟩
abbrev S16384x2 : Shape := ⟨2, ![16384, 2]⟩

abbrev nBuf : Space → Nat
  | .hbm => 111
  | .vmem => 0
  | .smem => 0
  | _ => 0

abbrev bufTy : (tb : Table) → Fin (tcTables nBuf tb) → BufTy
  | .hbm, ⟨0, _⟩ => ⟨S16384x133, .f32⟩
  | .hbm, ⟨1, _⟩ => ⟨S128x2, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1x256, .f32⟩
  | .hbm, ⟨6, _⟩ => ⟨S1, .f32⟩
  | .hbm, ⟨7, _⟩ => ⟨S128x133, .f32⟩
  | .hbm, ⟨8, _⟩ => ⟨S128, .f32⟩
  | .hbm, ⟨9, _⟩ => ⟨S256x128, .f32⟩
  | .hbm, ⟨10, _⟩ => ⟨S256, .f32⟩
  | .hbm, ⟨11, _⟩ => ⟨S1x256, .f32⟩
  | .hbm, ⟨12, _⟩ => ⟨S1, .f32⟩
  | .hbm, ⟨13, _⟩ => ⟨S256x128, .f32⟩
  | .hbm, ⟨14, _⟩ => ⟨S256, .f32⟩
  | .hbm, ⟨15, _⟩ => ⟨S2x256, .f32⟩
  | .hbm, ⟨16, _⟩ => ⟨S2, .f32⟩
  | .hbm, ⟨17, _⟩ => ⟨S1x2, .f32⟩
  | .hbm, ⟨18, _⟩ => ⟨S16384x5, .f32⟩
  | .hbm, ⟨19, _⟩ => ⟨S16384x128, .f32⟩
  | .hbm, ⟨20, _⟩ => ⟨S16384x64x2, .f32⟩
  | .hbm, ⟨21, _⟩ => ⟨S16384x64x128, .f32⟩
  | .hbm, ⟨22, _⟩ => ⟨S1x1x128, .f32⟩
  | .hbm, ⟨23, _⟩ => ⟨S16384x64x128, .f32⟩
  | .hbm, ⟨24, _⟩ => ⟨S16384x64x128, .f32⟩
  | .hbm, ⟨25, _⟩ => ⟨S_, .f32⟩
  | .hbm, ⟨26, _⟩ => ⟨S16384x64x128, .f32⟩
  | .hbm, ⟨27, _⟩ => ⟨S16384x64x128, .f32⟩
  | .hbm, ⟨28, _⟩ => ⟨S_, .f32⟩
  | .hbm, ⟨29, _⟩ => ⟨S16384x128, .f32⟩
  | .hbm, ⟨30, _⟩ => ⟨S16384x1x128, .f32⟩
  | .hbm, ⟨31, _⟩ => ⟨S_, .f32⟩
  | .hbm, ⟨32, _⟩ => ⟨S16384x1x128, .f32⟩
  | .hbm, ⟨33, _⟩ => ⟨S16384x1x128, .f32⟩
  | .hbm, ⟨34, _⟩ => ⟨S16384x64x128, .f32⟩
  | .hbm, ⟨35, _⟩ => ⟨S1x1x128, .f32⟩
  | .hbm, ⟨36, _⟩ => ⟨S16384x64x128, .f32⟩
  | .hbm, ⟨37, _⟩ => ⟨S16384x64x128, .f32⟩
  | .hbm, ⟨38, _⟩ => ⟨S_, .f32⟩
  | .hbm, ⟨39, _⟩ => ⟨S16384x64x128, .f32⟩
  | .hbm, ⟨40, _⟩ => ⟨S16384x64x128, .f32⟩
  | .hbm, ⟨41, _⟩ => ⟨S1x128, .f32⟩
  | .hbm, ⟨42, _⟩ => ⟨S1x128, .f32⟩
  | .hbm, ⟨43, _⟩ => ⟨S16384x64x1, .f32⟩
  | .hbm, ⟨44, _⟩ => ⟨S16384x1x1, .f32⟩
  | .hbm, ⟨45, _⟩ => ⟨S16384x64x1, .f32⟩
  | .hbm, ⟨46, _⟩ => ⟨S16384x64x1, .f32⟩
  | .hbm, ⟨47, _⟩ => ⟨S1x1x1, .f32⟩
  | .hbm, ⟨48, _⟩ => ⟨S16384x64x1, .f32⟩
  | .hbm, ⟨49, _⟩ => ⟨S16384x64x1, .f32⟩
  | .hbm, ⟨50, _⟩ => ⟨S_, .f32⟩
  | .hbm, ⟨51, _⟩ => ⟨S16384x64x1, .f32⟩
  | .hbm, ⟨52, _⟩ => ⟨S16384x64x1, .f32⟩
  | .hbm, ⟨53, _⟩ => ⟨S_, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1x1, .f32⟩
  | .hbm, ⟨59, _⟩ => ⟨S16384x64x1, .f32⟩
  | .hbm, ⟨60, _⟩ => ⟨S16384x64x1, .f32⟩
  | .hbm, ⟨61, _⟩ => ⟨S16384x64x1, .f32⟩
  | .hbm, ⟨62, _⟩ => ⟨S_, .f32⟩
  | .hbm, ⟨63, _⟩ => ⟨S16384x1, .f32⟩
  | .hbm, ⟨64, _⟩ => ⟨S16384x1x1, .f32⟩
  | .hbm, ⟨65, _⟩ => ⟨S16384x64x1, .f32⟩
  | .hbm, ⟨66, _⟩ => ⟨S16384x64x1, .f32⟩
  | .hbm, ⟨67, _⟩ => ⟨S16384x64x128, .f32⟩
  | .hbm, ⟨68, _⟩ => ⟨S16384x64x128, .f32⟩
  | .hbm, ⟨69, _⟩ => ⟨S_, .f32⟩
  | .hbm, ⟨70, _⟩ => ⟨S16384x128, .f32⟩
  | .hbm, ⟨71, _⟩ => ⟨S_, .f32⟩
  | .hbm, ⟨72, _⟩ => ⟨S16384x128, .f32⟩
  | .hbm, ⟨73, _⟩ => ⟨S16384x128, .f32⟩
  | .hbm, ⟨74, _⟩ => ⟨S16384x133, .f32⟩
  | .hbm, ⟨75, _⟩ => ⟨S133x128, .f32⟩
  | .hbm, ⟨76, _⟩ => ⟨S16384x128, .f32⟩
  | .hbm, ⟨77, _⟩ => ⟨S1x128, .f32⟩
  | .hbm, ⟨78, _⟩ => ⟨S16384x128, .f32⟩
  | .hbm, ⟨79, _⟩ => ⟨S16384x128, .f32⟩
  | .hbm, ⟨80, _⟩ => ⟨S_, .f32⟩
  | .hbm, ⟨81, _⟩ => ⟨S16384x128, .f32⟩
  | .hbm, ⟨82, _⟩ => ⟨S16384x128, .f32⟩
  | .hbm, ⟨83, _⟩ => ⟨S128x256, .f32⟩
  | .hbm, ⟨84, _⟩ => ⟨S16384x256, .f32⟩
  | .hbm, ⟨85, _⟩ => ⟨S1x256, .f32⟩
  | .hbm, ⟨86, _⟩ => ⟨S16384x256, .f32⟩
  | .hbm, ⟨87, _⟩ => ⟨S16384x256, .f32⟩
  | .hbm, ⟨88, _⟩ => ⟨S_, .f32⟩
  | .hbm, ⟨89, _⟩ => ⟨S16384x256, .f32⟩
  | .hbm, ⟨90, _⟩ => ⟨S16384x256, .f32⟩
  | .hbm, ⟨91, _⟩ => ⟨S256x1, .f32⟩
  | .hbm, ⟨92, _⟩ => ⟨S16384x1, .f32⟩
  | .hbm, ⟨93, _⟩ => ⟨S1x1, .f32⟩
  | .hbm, ⟨94, _⟩ => ⟨S16384x1, .f32⟩
  | .hbm, ⟨95, _⟩ => ⟨S16384x1, .f32⟩
  | .hbm, ⟨96, _⟩ => ⟨S128x256, .f32⟩
  | .hbm, ⟨97, _⟩ => ⟨S16384x256, .f32⟩
  | .hbm, ⟨98, _⟩ => ⟨S1x256, .f32⟩
  | .hbm, ⟨99, _⟩ => ⟨S16384x256, .f32⟩
  | .hbm, ⟨100, _⟩ => ⟨S16384x256, .f32⟩
  | .hbm, ⟨101, _⟩ => ⟨S_, .f32⟩
  | .hbm, ⟨102, _⟩ => ⟨S16384x256, .f32⟩
  | .hbm, ⟨103, _⟩ => ⟨S16384x256, .f32⟩
  | .hbm, ⟨104, _⟩ => ⟨S256x2, .f32⟩
  | .hbm, ⟨105, _⟩ => ⟨S16384x2, .f32⟩
  | .hbm, ⟨106, _⟩ => ⟨S1x2, .f32⟩
  | .hbm, ⟨107, _⟩ => ⟨S16384x2, .f32⟩
  | .hbm, ⟨108, _⟩ => ⟨S16384x2, .f32⟩
  | .hbm, ⟨109, _⟩ => ⟨S1x2, .f32⟩
  | .hbm, ⟨110, _⟩ => ⟨S16384x2, .f32⟩
  | _, _ => ⟨S16384x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call0_cst : Ref sig .tc := ⟨.hbm, 25, rfl⟩
abbrev main_call0_v0 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call1_cst : Ref sig .tc := ⟨.hbm, 38, rfl⟩
abbrev main_call1_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_cst : Ref sig .tc := ⟨.hbm, 50, rfl⟩
abbrev main_call2_v0 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call3_cst : Ref sig .tc := ⟨.hbm, 80, rfl⟩
abbrev main_call3_v0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call4_cst : Ref sig .tc := ⟨.hbm, 88, rfl⟩
abbrev main_call4_v0 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call5_cst : Ref sig .tc := ⟨.hbm, 101, rfl⟩
abbrev main_call5_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]

class Facts₀ : Prop where
  slices_S16384x133_S16384x5_0_0 : S16384x133.Slices ![0, 0] S16384x5
  slices_S16384x133_S16384x128_0_5 : S16384x133.Slices ![0, 5] S16384x128
  shapeCasts_S16384x128_S16384x64x2 : S16384x128.ShapeCasts S16384x64x2
  bcast_S128_S1x1x128_2 : S128.BroadcastsInDim S1x1x128 (![2] : Fin 1 → Fin S1x1x128.rank)
  bcast_S1x1x128_S16384x64x128_0_1_2 : S1x1x128.BroadcastsInDim S16384x64x128 (![0, 1, 2] : Fin 3 → Fin S16384x64x128.rank)
  bcast_S_S16384x64x128 : S_.BroadcastsInDim S16384x64x128 (![] : Fin 0 → Fin S16384x64x128.rank)
  reducesTo_S16384x64x128_S16384x128_d1 : S16384x64x128.ReducesTo [1] S16384x128
  h_S_ : 0 < S_.numel
  bcast_S16384x128_S16384x1x128_0_2 : S16384x128.BroadcastsInDim S16384x1x128 (![0, 2] : Fin 2 → Fin S16384x1x128.rank)
  bcast_S_S16384x1x128 : S_.BroadcastsInDim S16384x1x128 (![] : Fin 0 → Fin S16384x1x128.rank)
  slices_S1x256_S1x128_0_0 : S1x256.Slices ![0, 0] S1x128
  slices_S1x256_S1x128_0_128 : S1x256.Slices ![0, 128] S1x128
  bcast_S16384x1x1_S16384x64x1_0_1_2 : S16384x1x1.BroadcastsInDim S16384x64x1 (![0, 1, 2] : Fin 3 → Fin S16384x64x1.rank)
  bcast_S1_S1x1x1_2 : S1.BroadcastsInDim S1x1x1 (![2] : Fin 1 → Fin S1x1x1.rank)
  bcast_S1x1x1_S16384x64x1_0_1_2 : S1x1x1.BroadcastsInDim S16384x64x1 (![0, 1, 2] : Fin 3 → Fin S16384x64x1.rank)
  bcast_S_S16384x64x1 : S_.BroadcastsInDim S16384x64x1 (![] : Fin 0 → Fin S16384x64x1.rank)
  reducesTo_S16384x64x1_S16384x1_d1 : S16384x64x1.ReducesTo [1] S16384x1
  bcast_S_S16384x1 : S_.BroadcastsInDim S16384x1 (![] : Fin 0 → Fin S16384x1.rank)
  bcast_S16384x1_S16384x1x1_0_2 : S16384x1.BroadcastsInDim S16384x1x1 (![0, 2] : Fin 2 → Fin S16384x1x1.rank)
  bcast_S16384x64x1_S16384x64x128_0_1_2 : S16384x64x1.BroadcastsInDim S16384x64x128 (![0, 1, 2] : Fin 3 → Fin S16384x64x128.rank)
  bcast_S_S16384x128 : S_.BroadcastsInDim S16384x128 (![] : Fin 0 → Fin S16384x128.rank)
  concatenates_S16384x5_S16384x128_S16384x133_d1 : Shape.Concatenates [S16384x5, S16384x128] S16384x133 1
  transposes_S128x133_S133x128_1_0 : S128x133.Transposes [1, 0] S133x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S256x128_S128x256_1_0 : S256x128.Transposes [1, 0] S128x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S1x256_S256x1_1_0 : S1x256.Transposes [1, 0] S256x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  transposes_S2x256_S256x2_1_0 : S2x256.Transposes [1, 0] S256x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  dot_S16384x64x2_S128x2_S16384x64x128_2_1_01_0_n_n_wf : DotDims.WF S16384x64x2 S128x2 S16384x64x128 [2] [1] [0, 1] [0] [] []
  dot_S16384x64x128_S128x128_S16384x64x128_2_1_01_0_n_n_wf : DotDims.WF S16384x64x128 S128x128 S16384x64x128 [2] [1] [0, 1] [0] [] []
  dot_S16384x64x128_S1x128_S16384x64x1_2_1_01_0_n_n_wf : DotDims.WF S16384x64x128 S1x128 S16384x64x1 [2] [1] [0, 1] [0] [] []
  dot_S16384x1x128_S1x128_S16384x1x1_2_1_01_0_n_n_wf : DotDims.WF S16384x1x128 S1x128 S16384x1x1 [2] [1] [0, 1] [0] [] []
  dot_S16384x133_S133x128_S16384x128_1_0_0_1_n_n_wf : DotDims.WF S16384x133 S133x128 S16384x128 [1] [0] [0] [1] [] []
  dot_S16384x128_S128x256_S16384x256_1_0_0_1_n_n_wf : DotDims.WF S16384x128 S128x256 S16384x256 [1] [0] [0] [1] [] []
  dot_S16384x256_S256x1_S16384x1_1_0_0_1_n_n_wf : DotDims.WF S16384x256 S256x1 S16384x1 [1] [0] [0] [1] [] []
  dot_S16384x256_S256x2_S16384x2_1_0_0_1_n_n_wf : DotDims.WF S16384x256 S256x2 S16384x2 [1] [0] [0] [1] [] []

variable [Facts₀]

def dot_S16384x64x2_S128x2_S16384x64x128_2_1_01_0_n_n : DotDims S16384x64x2 S128x2 S16384x64x128 where
  lhsContracting := [2]
  rhsContracting := [1]
  lhsNonContracting := [0, 1]
  rhsNonContracting := [0]
  lhsBatch := []
  rhsBatch := []
  wf := dot_S16384x64x2_S128x2_S16384x64x128_2_1_01_0_n_n_wf
def dot_S16384x64x128_S128x128_S16384x64x128_2_1_01_0_n_n : DotDims S16384x64x128 S128x128 S16384x64x128 where
  lhsContracting := [2]
  rhsContracting := [1]
  lhsNonContracting := [0, 1]
  rhsNonContracting := [0]
  lhsBatch := []
  rhsBatch := []
  wf := dot_S16384x64x128_S128x128_S16384x64x128_2_1_01_0_n_n_wf
def dot_S16384x64x128_S1x128_S16384x64x1_2_1_01_0_n_n : DotDims S16384x64x128 S1x128 S16384x64x1 where
  lhsContracting := [2]
  rhsContracting := [1]
  lhsNonContracting := [0, 1]
  rhsNonContracting := [0]
  lhsBatch := []
  rhsBatch := []
  wf := dot_S16384x64x128_S1x128_S16384x64x1_2_1_01_0_n_n_wf
def dot_S16384x1x128_S1x128_S16384x1x1_2_1_01_0_n_n : DotDims S16384x1x128 S1x128 S16384x1x1 where
  lhsContracting := [2]
  rhsContracting := [1]
  lhsNonContracting := [0, 1]
  rhsNonContracting := [0]
  lhsBatch := []
  rhsBatch := []
  wf := dot_S16384x1x128_S1x128_S16384x1x1_2_1_01_0_n_n_wf
def dot_S16384x133_S133x128_S16384x128_1_0_0_1_n_n : DotDims S16384x133 S133x128 S16384x128 where
  lhsContracting := [1]
  rhsContracting := [0]
  lhsNonContracting := [0]
  rhsNonContracting := [1]
  lhsBatch := []
  rhsBatch := []
  wf := dot_S16384x133_S133x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S16384x256_S256x2_S16384x2_1_0_0_1_n_n : DotDims S16384x256 S256x2 S16384x2 where
  lhsContracting := [1]
  rhsContracting := [0]
  lhsNonContracting := [0]
  rhsNonContracting := [1]
  lhsBatch := []
  rhsBatch := []
  wf := dot_S16384x256_S256x2_S16384x2_1_0_0_1_n_n_wf

class Facts : Prop extends Facts₀ where

variable [Facts]
-- ==== Proof.Spec.lean ====
/-
  The function both programs compute, one batch row at a time, over the extended reals.

  A row of the input holds five state coordinates followed by 64 neighbours, each a pair (x, y). Every neighbour is
  embedded into 128 features by an affine map of its pair followed by a rectifier; a score per neighbour is the rectified
  sum of a linear form of its embedding, a linear form of the mean embedding over the neighbours, and a bias; the scores
  are turned into weights by a softmax over the neighbours (the maximum subtracted before the exponential); a hidden layer
  is applied to every embedding, and the weighted hidden features are averaged over the neighbours. The state coordinates
  and these 128 averaged features go through one rectified affine layer (the trunk), and two heads, each a rectified affine
  layer of width 256 followed by an affine map, give the two action means and the one value. The standard deviations are
  the exponentials of two parameters, the same for every row.

  Sums are plain finite sums, the maximum of the scores is a fold of `max` from the least extended real, and the three
  literals (zero, sixty-four, minus infinity) stay the binary words both programs print: they are never evaluated.
-/
import Idealize.ShloMosaic.PureOps.Ideal
import Idealize.ShloMosaic.Lib.ValueIdx

noncomputable section

namespace Cert.NeighbourNet

open Idealize.ShloMosaic Idealize.ShloMosaic.ValueIdx
open scoped BigOperators

/-- The word of `0.0`. -/
abbrev zeroW : EReal := Ideal.ofBits .f32 0x00000000#32
/-- The word of `64.0`, the number of neighbours. -/
abbrev nbCount : EReal := Ideal.ofBits .f32 0x42800000#32
/-- The word of minus infinity, from which a maximum is folded. -/
abbrev negInfW : EReal := Ideal.ofBits .f32 0xFF800000#32

/-- The network's parameters as functions of coordinates: for a matrix the first coordinate is the OUTPUT feature. -/
structure Weights where
  we0 : Fin 128 → EReal
  we1 : Fin 128 → EReal
  be : Fin 128 → EReal
  wh : Fin 128 → Fin 128 → EReal
  bh : Fin 128 → EReal
  wae : Fin 128 → EReal
  wam : Fin 128 → EReal
  ba : EReal
  w2a : Fin 128 → Fin 5 → EReal
  w2b : Fin 128 → Fin 128 → EReal
  b2 : Fin 128 → EReal
  wc1 : Fin 256 → Fin 128 → EReal
  bc1 : Fin 256 → EReal
  wc2 : Fin 256 → EReal
  bc2 : EReal
  wp1 : Fin 256 → Fin 128 → EReal
  bp1 : Fin 256 → EReal
  wp2 : Fin 2 → Fin 256 → EReal
  bp2 : Fin 2 → EReal

variable (W : Weights) (s : Fin 5 → EReal) (u v : Fin 64 → EReal)

/-- Feature `h` of neighbour `n`'s embedding. -/
def emb (n : Fin 64) (h : Fin 128) : EReal := max (u n * W.we0 h + v n * W.we1 h + W.be h) zeroW

/-- Feature `h` of the mean embedding over the neighbours. -/
def embMean (h : Fin 128) : EReal := Ideal.div (∑ n : Fin 64, emb W u v n h) nbCount

/-- Neighbour `n`'s score. -/
def score (n : Fin 64) : EReal :=
  max ((∑ h : Fin 128, emb W u v n h * W.wae h) + (∑ h : Fin 128, embMean W u v h * W.wam h) + W.ba) zeroW

/-- The largest score. -/
def scoreMax : EReal := (Finset.univ : Finset (Fin 64)).fold max negInfW (score W u v)

/-- The exponential of a score's distance below the largest. -/
def expScore (n : Fin 64) : EReal := Ideal.exp (score W u v n - scoreMax W u v)

/-- Neighbour `n`'s softmax weight. -/
def attn (n : Fin 64) : EReal := Ideal.div (expScore W u v n) (∑ n' : Fin 64, expScore W u v n')

/-- Feature `o` of neighbour `n`'s hidden layer. -/
def hidden (n : Fin 64) (o : Fin 128) : EReal := max ((∑ k : Fin 128, emb W u v n k * W.wh o k) + W.bh o) zeroW

/-- Feature `h` of the weighted hidden features averaged over the neighbours. -/
def feature (h : Fin 128) : EReal := Ideal.div (∑ n : Fin 64, attn W u v n * hidden W u v n h) nbCount

/-- Feature `h` of the trunk layer applied to five state coordinates and a vector `f` of 128 features: one rectified
    affine layer, the state coordinates' part of the sum first. -/
def trunkOf (f : Fin 128 → EReal) (h : Fin 128) : EReal :=
  max (((∑ k : Fin 5, s k * W.w2a h k) + (∑ k : Fin 128, f k * W.w2b h k)) + W.b2 h) zeroW

/-- Unit `j` of the value head's hidden layer on a trunk vector `r`. -/
def criticHiddenOf (r : Fin 128 → EReal) (j : Fin 256) : EReal := max ((∑ k : Fin 128, r k * W.wc1 j k) + W.bc1 j) zeroW

/-- The value head on a trunk vector `r`. -/
def valueOf (r : Fin 128 → EReal) : EReal := (∑ j : Fin 256, criticHiddenOf W r j * W.wc2 j) + W.bc2

/-- Unit `j` of the action head's hidden layer on a trunk vector `r`. -/
def actorHiddenOf (r : Fin 128 → EReal) (j : Fin 256) : EReal := max ((∑ k : Fin 128, r k * W.wp1 j k) + W.bp1 j) zeroW

/-- Action mean `a` of the action head on a trunk vector `r`. -/
def meanOf (r : Fin 128 → EReal) (a : Fin 2) : EReal := (∑ j : Fin 256, actorHiddenOf W r j * W.wp2 a j) + W.bp2 a

/-- The trunk of a row: the trunk layer on its state coordinates and its averaged features. -/
def trunk : Fin 128 → EReal := trunkOf W s (feature W u v)

/-- The value of a row. -/
def value : EReal := valueOf W (trunk W s u v)

/-- Action mean `a` of a row. -/
def mean (a : Fin 2) : EReal := meanOf W (trunk W s u v) a

/-! ## The parameters and a row's data read off the argument arrays -/

/-- The parameters as the argument arrays hold them: each linear layer's matrix is stored output feature first; the
    embedding's matrix has the pair's two coordinates as its columns, the score's one row holds the form on the embedding
    in its first 128 columns and the form on the mean embedding in the next 128, and the trunk's matrix holds the state
    coordinates' columns first. -/
def ofArrays (We : (⟨2, ![128, 2]⟩ : Shape).Idx → EReal) (be : (⟨1, ![128]⟩ : Shape).Idx → EReal)
    (Wh : (⟨2, ![128, 128]⟩ : Shape).Idx → EReal) (bh : (⟨1, ![128]⟩ : Shape).Idx → EReal)
    (Wa : (⟨2, ![1, 256]⟩ : Shape).Idx → EReal) (ba : (⟨1, ![1]⟩ : Shape).Idx → EReal)
    (W2 : (⟨2, ![128, 133]⟩ : Shape).Idx → EReal) (b2 : (⟨1, ![128]⟩ : Shape).Idx → EReal)
    (Wc1 : (⟨2, ![256, 128]⟩ : Shape).Idx → EReal) (bc1 : (⟨1, ![256]⟩ : Shape).Idx → EReal)
    (Wc2 : (⟨2, ![1, 256]⟩ : Shape).Idx → EReal) (bc2 : (⟨1, ![1]⟩ : Shape).Idx → EReal)
    (Wp1 : (⟨2, ![256, 128]⟩ : Shape).Idx → EReal) (bp1 : (⟨1, ![256]⟩ : Shape).Idx → EReal)
    (Wp2 : (⟨2, ![2, 256]⟩ : Shape).Idx → EReal) (bp2 : (⟨1, ![2]⟩ : Shape).Idx → EReal) : Weights where
  we0 h := We (ix2 h (0 : Fin 2))
  we1 h := We (ix2 h (1 : Fin 2))
  be h := be (ix1 h)
  wh o k := Wh (ix2 o k)
  bh o := bh (ix1 o)
  wae h := Wa (ix2 (0 : Fin 1) (⟨h.val, by have := h.isLt; omega⟩ : Fin 256))
  wam h := Wa (ix2 (0 : Fin 1) (⟨128 + h.val, by have := h.isLt; omega⟩ : Fin 256))
  ba := ba (ix1 (0 : Fin 1))
  w2a h k := W2 (ix2 h (⟨k.val, by have := k.isLt; omega⟩ : Fin 133))
  w2b h k := W2 (ix2 h (⟨5 + k.val, by have := k.isLt; omega⟩ : Fin 133))
  b2 h := b2 (ix1 h)
  wc1 j k := Wc1 (ix2 j k)
  bc1 j := bc1 (ix1 j)
  wc2 j := Wc2 (ix2 (0 : Fin 1) j)
  bc2 := bc2 (ix1 (0 : Fin 1))
  wp1 j k := Wp1 (ix2 j k)
  bp1 j := bp1 (ix1 j)
  wp2 a j := Wp2 (ix2 a j)
  bp2 a := bp2 (ix1 a)

variable (X : (⟨2, ![16384, 133]⟩ : Shape).Idx → EReal) (b : Fin 16384)

/-- Row `b`'s five state coordinates. -/
def stateRow : Fin 5 → EReal := fun k => X (ix2 b (⟨k.val, by have := k.isLt; omega⟩ : Fin 133))
/-- Row `b`'s neighbours' first coordinates: columns 5, 7, 9, … -/
def nbxRow : Fin 64 → EReal := fun n => X (ix2 b (⟨5 + 2 * n.val, by have := n.isLt; omega⟩ : Fin 133))
/-- Row `b`'s neighbours' second coordinates: columns 6, 8, 10, … -/
def nbyRow : Fin 64 → EReal := fun n => X (ix2 b (⟨5 + (2 * n.val + 1), by have := n.isLt; omega⟩ : Fin 133))

end Cert.NeighbourNet

end
-- ==== Proof.KernelArgs.lean ====
/-
  The kernel's argument arrays under the names the specification uses: the input array of 16384 rows of
  5 + 2·64 columns, the network's parameters read off the sixteen parameter arrays, and the two logarithms of the
  standard deviations.
-/
import proofs.«128013_j39324720562723_2_alg».proof.KernelIdeal
import proofs.«128013_j39324720562723_2_alg».proof.Proof.Spec

noncomputable section

namespace Cert.KernelIdeal.Args

open Idealize.ShloMosaic Idealize.SL.Sem Cert.KernelIdeal

variable (m : (ℓ : Loc nD τ sig) → Buf (Elt Ideal) ℓ) (c : Dev nD)

/-- The input array on core `c`. -/
abbrev X : (⟨2, ![16384, 133]⟩ : Shape).Idx → EReal := (m ((c.tc : Thread nD τ).loc main_arg0))

/-- The network's parameters on core `c`. -/
abbrev W : Cert.NeighbourNet.Weights :=
  Cert.NeighbourNet.ofArrays (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))

/-- The logarithms of the two standard deviations on core `c`. -/
abbrev logStd : (⟨2, ![1, 2]⟩ : Shape).Idx → EReal := (m ((c.tc : Thread nD τ).loc main_arg17))

end Cert.KernelIdeal.Args

end
-- ==== Proof.KernelArrays.lean ====
/-
  What the kernel program's arrays hold when its one region is entered, entry by entry, in terms of the argument arrays:
  the host operations before the region are slices, reshapes, broadcasts and transposes, so every entry of every staged
  array is ONE entry of an argument array, and the index arithmetic below says which.
-/
import proofs.«128013_j39324720562723_2_alg».proof.Proof.Gen.KernelIdeal.Frame
import proofs.«128013_j39324720562723_2_alg».proof.Proof.KernelArgs
import proofs.«128013_j39324720562723_2_alg».proof.Proof.Spec
import Idealize.ShloMosaic.Lib.Pipeline.Value
import Idealize.ShloMosaic.Lib.ValueIdx
import Idealize.ShloMosaic.Lib.StableHlo.Run
import Idealize.ShloMosaic.Lib.Pipeline.FrameSuffix
import Idealize.ShloMosaic.PureOps.Ideal

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen Cert.NeighbourNet ValueIdx

variable (m : (ℓ : Loc nD τ sig) → Buf (Elt Ideal) ℓ) (c : Dev nD)

/-! ## The layout chains read at an entry, for any array -/

/-- The neighbours' first coordinates: the 128 columns after the state, seen as 64 pairs, first members: entry (b, n) is column 5 + 2 n of row b. -/
theorem nbx_read (x : S16384x133.Idx → EReal) (b : Fin 16384) (n : Fin 64) :
    shapeCast S16384x64 (extractStridedSlice S16384x64x1 ![0, 0, 0] (shapeCast S16384x64x2 (extractStridedSlice S16384x128 ![0, 5] x slices_S16384x133_S16384x128_0_5) shapeCasts_S16384x128_S16384x64x2) slices_S16384x64x2_S16384x64x1_0_0_0) shapeCasts_S16384x64x1_S16384x64 (ix2 b n)
      = x (ix2 b (⟨5 + 2 * n.val, by have := n.isLt; omega⟩ : Fin 133)) := by
  have hb := b.isLt
  have hn := n.isLt
  -- [16384, 64, 1] → [16384, 64]: entry (b, n) is entry (b, n, 0)
  rw [shapeCast_apply _ shapeCasts_S16384x64x1_S16384x64 (ix2 b n) (ix3 b n (0 : Fin 1)) (by
    rw [Shape.rowMajor_val_two, Shape.rowMajor_val_three]
    show (b.val * 64 + n.val) * 1 + 0 = b.val * 64 + n.val
    omega)]
  -- the slice keeps coordinate 0 of the last axis
  rw [extractStridedSlice_apply ![0, 0, 0] _ slices_S16384x64x2_S16384x64x1_0_0_0 (ix3 b n (0 : Fin 1)) (ix3 b n (0 : Fin 2)) (fun a => match a with
    | ⟨0, _⟩ => by show b.val = 0 + b.val; omega
    | ⟨1, _⟩ => by show n.val = 0 + n.val; omega
    | ⟨2, _⟩ => by show 0 = 0 + 0; rfl)]
  -- [16384, 128] → [16384, 64, 2]: entry (b, n, p) is entry (b, 2 n + p)
  rw [shapeCast_apply _ shapeCasts_S16384x128_S16384x64x2 (ix3 b n (0 : Fin 2)) (ix2 b (⟨2 * n.val + 0, by omega⟩ : Fin 128)) (by
    rw [Shape.rowMajor_val_two, Shape.rowMajor_val_three]
    show b.val * 128 + (2 * n.val + 0) = (b.val * 64 + n.val) * 2 + 0
    omega)]
  -- the first slice drops the five state columns
  exact extractStridedSlice_apply ![0, 5] x slices_S16384x133_S16384x128_0_5 _ _ (fun a => match a with
    | ⟨0, _⟩ => by show b.val = 0 + b.val; omega
    | ⟨1, _⟩ => by show 5 + 2 * n.val = 5 + (2 * n.val + 0); omega)

/-- The neighbours' second coordinates: entry (b, n) is column 5 + (2 n + 1) of row b. -/
theorem nby_read (x : S16384x133.Idx → EReal) (b : Fin 16384) (n : Fin 64) :
    shapeCast S16384x64 (extractStridedSlice S16384x64x1 ![0, 0, 1] (shapeCast S16384x64x2 (extractStridedSlice S16384x128 ![0, 5] x slices_S16384x133_S16384x128_0_5) shapeCasts_S16384x128_S16384x64x2) slices_S16384x64x2_S16384x64x1_0_0_1) shapeCasts_S16384x64x1_S16384x64 (ix2 b n)
      = x (ix2 b (⟨5 + (2 * n.val + 1), by have := n.isLt; omega⟩ : Fin 133)) := by
  have hb := b.isLt
  have hn := n.isLt
  -- [16384, 64, 1] → [16384, 64]: entry (b, n) is entry (b, n, 0)
  rw [shapeCast_apply _ shapeCasts_S16384x64x1_S16384x64 (ix2 b n) (ix3 b n (0 : Fin 1)) (by
    rw [Shape.rowMajor_val_two, Shape.rowMajor_val_three]
    show (b.val * 64 + n.val) * 1 + 0 = b.val * 64 + n.val
    omega)]
  -- the slice keeps coordinate 1 of the last axis
  rw [extractStridedSlice_apply ![0, 0, 1] _ slices_S16384x64x2_S16384x64x1_0_0_1 (ix3 b n (0 : Fin 1)) (ix3 b n (1 : Fin 2)) (fun a => match a with
    | ⟨0, _⟩ => by show b.val = 0 + b.val; omega
    | ⟨1, _⟩ => by show n.val = 0 + n.val; omega
    | ⟨2, _⟩ => by show 1 = 1 + 0; rfl)]
  -- [16384, 128] → [16384, 64, 2]: entry (b, n, p) is entry (b, 2 n + p)
  rw [shapeCast_apply _ shapeCasts_S16384x128_S16384x64x2 (ix3 b n (1 : Fin 2)) (ix2 b (⟨2 * n.val + 1, by omega⟩ : Fin 128)) (by
    rw [Shape.rowMajor_val_two, Shape.rowMajor_val_three]
    show b.val * 128 + (2 * n.val + 1) = (b.val * 64 + n.val) * 2 + 1
    omega)]
  -- the first slice drops the five state columns
  exact extractStridedSlice_apply ![0, 5] x slices_S16384x133_S16384x128_0_5 _ _ (fun a => match a with
    | ⟨0, _⟩ => by show b.val = 0 + b.val; omega
    | ⟨1, _⟩ => by show 5 + (2 * n.val + 1) = 5 + (2 * n.val + 1); omega)

/-- Column 0 of a [128, 2] matrix laid out as one row of 128: entry (0, h) is entry (h, 0) of the matrix. -/
theorem col0_read (x : S128x2.Idx → EReal) (h : Fin 128) :
    broadcastInDim S1x128 ![1] bcast_S128_S1x128_1 (shapeCast S128 (extractStridedSlice S128x1 ![0, 0] x slices_S128x2_S128x1_0_0) shapeCasts_S128x1_S128) (ix2 (0 : Fin 1) h) = x (ix2 h (0 : Fin 2)) := by
  have hh := h.isLt
  rw [broadcastInDim_apply _ bcast_S128_S1x128_1 _ (ix2 (0 : Fin 1) h) (ix1 h) (fun a => match a with
    | ⟨0, _⟩ => by show h.val = if (128 : Nat) = 1 then 0 else h.val; rw [if_neg (by decide)])]
  rw [shapeCast_apply _ shapeCasts_S128x1_S128 (ix1 h) (ix2 h (0 : Fin 1)) (by
    rw [Shape.rowMajor_val_two, Shape.rowMajor_val_one]
    show h.val * 1 + 0 = h.val
    omega)]
  exact extractStridedSlice_apply ![0, 0] x slices_S128x2_S128x1_0_0 _ _ (fun a => match a with
    | ⟨0, _⟩ => by show h.val = 0 + h.val; omega
    | ⟨1, _⟩ => by show 0 = 0 + 0; rfl)

/-- Column 1 of a [128, 2] matrix laid out as one row of 128: entry (0, h) is entry (h, 1) of the matrix. -/
theorem col1_read (x : S128x2.Idx → EReal) (h : Fin 128) :
    broadcastInDim S1x128 ![1] bcast_S128_S1x128_1 (shapeCast S128 (extractStridedSlice S128x1 ![0, 1] x slices_S128x2_S128x1_0_1) shapeCasts_S128x1_S128) (ix2 (0 : Fin 1) h) = x (ix2 h (1 : Fin 2)) := by
  have hh := h.isLt
  rw [broadcastInDim_apply _ bcast_S128_S1x128_1 _ (ix2 (0 : Fin 1) h) (ix1 h) (fun a => match a with
    | ⟨0, _⟩ => by show h.val = if (128 : Nat) = 1 then 0 else h.val; rw [if_neg (by decide)])]
  rw [shapeCast_apply _ shapeCasts_S128x1_S128 (ix1 h) (ix2 h (0 : Fin 1)) (by
    rw [Shape.rowMajor_val_two, Shape.rowMajor_val_one]
    show h.val * 1 + 0 = h.val
    omega)]
  exact extractStridedSlice_apply ![0, 1] x slices_S128x2_S128x1_0_1 _ _ (fun a => match a with
    | ⟨0, _⟩ => by show h.val = 0 + h.val; omega
    | ⟨1, _⟩ => by show 1 = 1 + 0; rfl)

/-! ## The arrays the host operations before the region write -/

theorem state_term : (Gen.V m c main_v0 : S16384x5.Idx → EReal)
    = extractStridedSlice S16384x5 ![0, 0] (Args.X m c) slices_S16384x133_S16384x5_0_0 := by
  show StableHlo.after Gen.hostOps0 (fun b => m (c, b)) (Proc.devRef .tc main_v0) = _
  after_results <;> rfl

/-- The state block: the first five columns of the input. -/
theorem V_state (b : Fin 16384) (k : Fin 5) : Gen.V m c main_v0 (ix2 b k) = stateRow (Args.X m c) b k := by
  rw [state_term]
  exact extractStridedSlice_apply ![0, 0] (Args.X m c) slices_S16384x133_S16384x5_0_0 (ix2 b k) _ (fun a => match a with
    | ⟨0, _⟩ => by show b.val = 0 + b.val; omega
    | ⟨1, _⟩ => by show k.val = 0 + k.val; omega)

theorem wh_term : (Gen.V m c main_v15 : S128x128.Idx → EReal)
    = transpose S128x128 [1, 0] (m ((c.tc : Thread nD τ).loc main_arg3)) transposes_S128x128_S128x128_1_0 := by
  show StableHlo.after Gen.hostOps0 (fun b => m (c, b)) (Proc.devRef .tc main_v15) = _
  after_results <;> rfl

/-- The hidden layer's matrix transposed: entry (k, o) is the weight of input feature k in output feature o. -/
theorem V_wh (k : Fin 128) (o : Fin 128) : Gen.V m c main_v15 (ix2 k o) = (Args.W m c).wh o k := by
  rw [wh_term]
  exact transpose_apply [1, 0] (m ((c.tc : Thread nD τ).loc main_arg3)) transposes_S128x128_S128x128_1_0 (ix2 k o) (ix2 o k) (fun b => match b with
    | ⟨0, _⟩ => rfl
    | ⟨1, _⟩ => rfl)

theorem nbx_term : (Gen.V m c main_v4 : S16384x64.Idx → EReal)
    = shapeCast S16384x64 (extractStridedSlice S16384x64x1 ![0, 0, 0] (shapeCast S16384x64x2 (extractStridedSlice S16384x128 ![0, 5] (Args.X m c) slices_S16384x133_S16384x128_0_5) shapeCasts_S16384x128_S16384x64x2) slices_S16384x64x2_S16384x64x1_0_0_0) shapeCasts_S16384x64x1_S16384x64 := by
  show StableHlo.after Gen.hostOps0 (fun b => m (c, b)) (Proc.devRef .tc main_v4) = _
  after_results <;> rfl

/-- The neighbours' first coordinates, row by row. -/
theorem V_nbx (b : Fin 16384) (n : Fin 64) : Gen.V m c main_v4 (ix2 b n) = nbxRow (Args.X m c) b n := by
  rw [nbx_term]
  exact nbx_read (Args.X m c) b n

theorem nby_term : (Gen.V m c main_v6 : S16384x64.Idx → EReal)
    = shapeCast S16384x64 (extractStridedSlice S16384x64x1 ![0, 0, 1] (shapeCast S16384x64x2 (extractStridedSlice S16384x128 ![0, 5] (Args.X m c) slices_S16384x133_S16384x128_0_5) shapeCasts_S16384x128_S16384x64x2) slices_S16384x64x2_S16384x64x1_0_0_1) shapeCasts_S16384x64x1_S16384x64 := by
  show StableHlo.after Gen.hostOps0 (fun b => m (c, b)) (Proc.devRef .tc main_v6) = _
  after_results <;> rfl

/-- The neighbours' second coordinates, row by row. -/
theorem V_nby (b : Fin 16384) (n : Fin 64) : Gen.V m c main_v6 (ix2 b n) = nbyRow (Args.X m c) b n := by
  rw [nby_term]
  exact nby_read (Args.X m c) b n

theorem we0_term : (Gen.V m c main_v9 : S1x128.Idx → EReal)
    = broadcastInDim S1x128 ![1] bcast_S128_S1x128_1 (shapeCast S128 (extractStridedSlice S128x1 ![0, 0] (m ((c.tc : Thread nD τ).loc main_arg1)) slices_S128x2_S128x1_0_0) shapeCasts_S128x1_S128) := by
  show StableHlo.after Gen.hostOps0 (fun b => m (c, b)) (Proc.devRef .tc main_v9) = _
  after_results <;> rfl

/-- The embedding's weights on a neighbour's first coordinate, as one row. -/
theorem V_we0 (h : Fin 128) : Gen.V m c main_v9 (ix2 (0 : Fin 1) h) = (Args.W m c).we0 h := by
  rw [we0_term]
  exact col0_read (m ((c.tc : Thread nD τ).loc main_arg1)) h

theorem we1_term : (Gen.V m c main_v12 : S1x128.Idx → EReal)
    = broadcastInDim S1x128 ![1] bcast_S128_S1x128_1 (shapeCast S128 (extractStridedSlice S128x1 ![0, 1] (m ((c.tc : Thread nD τ).loc main_arg1)) slices_S128x2_S128x1_0_1) shapeCasts_S128x1_S128) := by
  show StableHlo.after Gen.hostOps0 (fun b => m (c, b)) (Proc.devRef .tc main_v12) = _
  after_results <;> rfl

/-- The embedding's weights on a neighbour's second coordinate, as one row. -/
theorem V_we1 (h : Fin 128) : Gen.V m c main_v12 (ix2 (0 : Fin 1) h) = (Args.W m c).we1 h := by
  rw [we1_term]
  exact col1_read (m ((c.tc : Thread nD τ).loc main_arg1)) h

theorem wae_term : (Gen.V m c main_v13 : S1x128.Idx → EReal)
    = extractStridedSlice S1x128 ![0, 0] (m ((c.tc : Thread nD τ).loc main_arg5)) slices_S1x256_S1x128_0_0 := by
  show StableHlo.after Gen.hostOps0 (fun b => m (c, b)) (Proc.devRef .tc main_v13) = _
  after_results <;> rfl

/-- The score's form on an embedding: the first 128 columns of the score's one row. -/
theorem V_wae (h : Fin 128) : Gen.V m c main_v13 (ix2 (0 : Fin 1) h) = (Args.W m c).wae h := by
  rw [wae_term]
  exact extractStridedSlice_apply ![0, 0] (m ((c.tc : Thread nD τ).loc main_arg5)) slices_S1x256_S1x128_0_0 (ix2 (0 : Fin 1) h) _ (fun a => match a with
    | ⟨0, _⟩ => by show 0 = 0 + 0; rfl
    | ⟨1, _⟩ => by show h.val = 0 + h.val; omega)

theorem wam_term : (Gen.V m c main_v14 : S1x128.Idx → EReal)
    = extractStridedSlice S1x128 ![0, 128] (m ((c.tc : Thread nD τ).loc main_arg5)) slices_S1x256_S1x128_0_128 := by
  show StableHlo.after Gen.hostOps0 (fun b => m (c, b)) (Proc.devRef .tc main_v14) = _
  after_results <;> rfl

/-- The score's form on the mean embedding: the next 128 columns of the score's one row. -/
theorem V_wam (h : Fin 128) : Gen.V m c main_v14 (ix2 (0 : Fin 1) h) = (Args.W m c).wam h := by
  rw [wam_term]
  exact extractStridedSlice_apply ![0, 128] (m ((c.tc : Thread nD τ).loc main_arg5)) slices_S1x256_S1x128_0_128 (ix2 (0 : Fin 1) h) _ (fun a => match a with
    | ⟨0, _⟩ => by show 0 = 0 + 0; rfl
    | ⟨1, _⟩ => by show 128 + h.val = 128 + h.val; rfl)

theorem w2a_term : (Gen.V m c main_v17 : S5x128.Idx → EReal)
    = transpose S5x128 [1, 0] (extractStridedSlice S128x5 ![0, 0] (m ((c.tc : Thread nD τ).loc main_arg7)) slices_S128x133_S128x5_0_0) transposes_S128x5_S5x128_1_0 := by
  show StableHlo.after Gen.hostOps0 (fun b => m (c, b)) (Proc.devRef .tc main_v17) = _
  after_results <;> rfl

/-- The trunk's weights on the state coordinates, transposed: entry (k, h) is the weight of state coordinate k in
    trunk feature h, column k of row h of the trunk's matrix. -/
theorem V_w2a (k : Fin 5) (h : Fin 128) : Gen.V m c main_v17 (ix2 k h) = (Args.W m c).w2a h k := by
  rw [w2a_term]
  rw [transpose_apply [1, 0] _ transposes_S128x5_S5x128_1_0 (ix2 k h) (ix2 h k) (fun b => match b with
    | ⟨0, _⟩ => rfl
    | ⟨1, _⟩ => rfl)]
  exact extractStridedSlice_apply ![0, 0] (m ((c.tc : Thread nD τ).loc main_arg7)) slices_S128x133_S128x5_0_0 (ix2 h k) _ (fun a => match a with
    | ⟨0, _⟩ => by show h.val = 0 + h.val; omega
    | ⟨1, _⟩ => by show k.val = 0 + k.val; omega)

theorem w2b_term : (Gen.V m c main_v19 : S128x128.Idx → EReal)
    = transpose S128x128 [1, 0] (extractStridedSlice S128x128 ![0, 5] (m ((c.tc : Thread nD τ).loc main_arg7)) slices_S128x133_S128x128_0_5) transposes_S128x128_S128x128_1_0 := by
  show StableHlo.after Gen.hostOps0 (fun b => m (c, b)) (Proc.devRef .tc main_v19) = _
  after_results <;> rfl

/-- The trunk's weights on the averaged features, transposed: entry (k, h) is column 5 + k of row h of the trunk's
    matrix. -/
theorem V_w2b (k h : Fin 128) : Gen.V m c main_v19 (ix2 k h) = (Args.W m c).w2b h k := by
  rw [w2b_term]
  rw [transpose_apply [1, 0] _ transposes_S128x128_S128x128_1_0 (ix2 k h) (ix2 h k) (fun b => match b with
    | ⟨0, _⟩ => rfl
    | ⟨1, _⟩ => rfl)]
  exact extractStridedSlice_apply ![0, 5] (m ((c.tc : Thread nD τ).loc main_arg7)) slices_S128x133_S128x128_0_5 (ix2 h k) _ (fun a => match a with
    | ⟨0, _⟩ => by show h.val = 0 + h.val; omega
    | ⟨1, _⟩ => by show 5 + k.val = 5 + k.val; rfl)

theorem wc1_term : (Gen.V m c main_v20 : S128x256.Idx → EReal)
    = transpose S128x256 [1, 0] (m ((c.tc : Thread nD τ).loc main_arg9)) transposes_S256x128_S128x256_1_0 := by
  show StableHlo.after Gen.hostOps0 (fun b => m (c, b)) (Proc.devRef .tc main_v20) = _
  after_results <;> rfl

/-- The value head's hidden matrix transposed: entry (k, j) is the weight of trunk feature k in unit j. -/
theorem V_wc1 (k : Fin 128) (j : Fin 256) : Gen.V m c main_v20 (ix2 k j) = (Args.W m c).wc1 j k := by
  rw [wc1_term]
  exact transpose_apply [1, 0] (m ((c.tc : Thread nD τ).loc main_arg9)) transposes_S256x128_S128x256_1_0 (ix2 k j) (ix2 j k) (fun b => match b with
    | ⟨0, _⟩ => rfl
    | ⟨1, _⟩ => rfl)

theorem wc2_term : (Gen.V m c main_v21 : S256x1.Idx → EReal)
    = transpose S256x1 [1, 0] (m ((c.tc : Thread nD τ).loc main_arg11)) transposes_S1x256_S256x1_1_0 := by
  show StableHlo.after Gen.hostOps0 (fun b => m (c, b)) (Proc.devRef .tc main_v21) = _
  after_results <;> rfl

/-- The value head's output row as a column: entry (j, 0) is entry (0, j). -/
theorem V_wc2 (j : Fin 256) : Gen.V m c main_v21 (ix2 j (0 : Fin 1)) = (Args.W m c).wc2 j := by
  rw [wc2_term]
  exact transpose_apply [1, 0] (m ((c.tc : Thread nD τ).loc main_arg11)) transposes_S1x256_S256x1_1_0 (ix2 j (0 : Fin 1)) (ix2 (0 : Fin 1) j) (fun b => match b with
    | ⟨0, _⟩ => rfl
    | ⟨1, _⟩ => rfl)

theorem wp1_term : (Gen.V m c main_v22 : S128x256.Idx → EReal)
    = transpose S128x256 [1, 0] (m ((c.tc : Thread nD τ).loc main_arg13)) transposes_S256x128_S128x256_1_0 := by
  show StableHlo.after Gen.hostOps0 (fun b => m (c, b)) (Proc.devRef .tc main_v22) = _
  after_results <;> rfl

/-- The action head's hidden matrix transposed. -/
theorem V_wp1 (k : Fin 128) (j : Fin 256) : Gen.V m c main_v22 (ix2 k j) = (Args.W m c).wp1 j k := by
  rw [wp1_term]
  exact transpose_apply [1, 0] (m ((c.tc : Thread nD τ).loc main_arg13)) transposes_S256x128_S128x256_1_0 (ix2 k j) (ix2 j k) (fun b => match b with
    | ⟨0, _⟩ => rfl
    | ⟨1, _⟩ => rfl)

theorem wp2_term : (Gen.V m c main_v23 : S256x2.Idx → EReal)
    = transpose S256x2 [1, 0] (m ((c.tc : Thread nD τ).loc main_arg15)) transposes_S2x256_S256x2_1_0 := by
  show StableHlo.after Gen.hostOps0 (fun b => m (c, b)) (Proc.devRef .tc main_v23) = _
  after_results <;> rfl

/-- The action head's output matrix transposed: entry (j, a) is the weight of unit j in action mean a. -/
theorem V_wp2 (j : Fin 256) (a : Fin 2) : Gen.V m c main_v23 (ix2 j a) = (Args.W m c).wp2 a j := by
  rw [wp2_term]
  exact transpose_apply [1, 0] (m ((c.tc : Thread nD τ).loc main_arg15)) transposes_S2x256_S256x2_1_0 (ix2 j a) (ix2 a j) (fun b => match b with
    | ⟨0, _⟩ => rfl
    | ⟨1, _⟩ => rfl)

/-! ## The arrays no host operation touches: the region finds them as launched -/

/-- The embedding's bias. -/
theorem V_be (h : Fin 128) : Gen.V m c main_arg2 (ix1 h) = (Args.W m c).be h := by
  rw [Gen.V_main_arg2] <;> rfl

/-- The hidden layer's bias. -/
theorem V_bh (o : Fin 128) : Gen.V m c main_arg4 (ix1 o) = (Args.W m c).bh o := by
  rw [Gen.V_main_arg4] <;> rfl

/-- The score's bias. -/
theorem V_ba : Gen.V m c main_arg6 (ix1 (0 : Fin 1)) = (Args.W m c).ba := by
  rw [Gen.V_main_arg6] <;> rfl

/-- The trunk's bias. -/
theorem V_b2 (h : Fin 128) : Gen.V m c main_arg8 (ix1 h) = (Args.W m c).b2 h := by
  rw [Gen.V_main_arg8] <;> rfl

/-- The value head's hidden bias. -/
theorem V_bc1 (j : Fin 256) : Gen.V m c main_arg10 (ix1 j) = (Args.W m c).bc1 j := by
  rw [Gen.V_main_arg10] <;> rfl

/-- The value head's output bias. -/
theorem V_bc2 : Gen.V m c main_arg12 (ix1 (0 : Fin 1)) = (Args.W m c).bc2 := by
  rw [Gen.V_main_arg12] <;> rfl

/-- The action head's hidden bias. -/
theorem V_bp1 (j : Fin 256) : Gen.V m c main_arg14 (ix1 j) = (Args.W m c).bp1 j := by
  rw [Gen.V_main_arg14] <;> rfl

/-- The action head's output bias. -/
theorem V_bp2 (a : Fin 2) : Gen.V m c main_arg16 (ix1 a) = (Args.W m c).bp2 a := by
  rw [Gen.V_main_arg16] <;> rfl

/-! ## The host operations after the region -/

/-- The third result: the exponential of the two logarithms, the same pair in every row. Neither operation after the
    region reads an array the region writes, so the pair is read off the argument as launched. -/
theorem tail_std (b : Fin 16384) (a : Fin 2) :
    Pipeline.afterTail₀ cfgs (Gen.dats m) 0 (Gen.V0 m) [Gen.hostOps1] c main_v26 (ix2 b a)
      = Ideal.exp (Args.logStd m c (ix2 (0 : Fin 1) a)) := by
  have e : (Pipeline.afterTail₀ cfgs (Gen.dats m) 0 (Gen.V0 m) [Gen.hostOps1] c main_v26 : S16384x2.Idx → EReal)
      = broadcastInDim S16384x2 ![0, 1] bcast_S1x2_S16384x2_0_1 (Host.exp (F := Ideal) (φ := .f32) (Args.logStd m c)) := by
    unfold Pipeline.afterTail₀
    show StableHlo.after Gen.hostOps1 _ (Proc.devRef .tc main_v26) = _
    after_results
    rw [Pipeline.withArrays_of_ne _ c (Gen.V0 m c) _ main_arg17 (by exact (by decide : ∀ w, Pipeline.arrRef spec0 w ≠ main_arg17))]
    rw [show Gen.V0 m c (Proc.devRef .tc main_arg17) = m ((c : Thread nD τ).loc main_arg17) from Gen.V_main_arg17 m c]
  rw [e]
  rw [broadcastInDim_apply _ bcast_S1x2_S16384x2_0_1 _ (ix2 b a) (ix2 (0 : Fin 1) a) (fun d => match d with
    | ⟨0, _⟩ => by show 0 = if (1 : Nat) = 1 then 0 else b.val; rw [if_pos rfl]
    | ⟨1, _⟩ => by show a.val = if (2 : Nat) = 1 then 0 else a.val; rw [if_neg (by decide)])]
  rfl

end Cert.KernelIdeal.HostSide

end
-- ==== Proof.PayloadSpec.lean ====
/-
  What the kernel body leaves in its two output blocks, stated: when the nineteen parameter blocks hold the network's
  parameters (each matrix block TRANSPOSED: its first coordinate is the input feature), row `p` of the first output block is
  the two action means of the row whose state coordinates and neighbours' coordinates are row `p` of the three data blocks,
  and row `p` of the second output block is that row's value.
-/
import proofs.«128013_j39324720562723_2_alg».proof.Proof.Gen.KernelIdeal.Frame
import proofs.«128013_j39324720562723_2_alg».proof.Proof.Spec

noncomputable section

namespace Cert.KernelIdeal.Payload

open Idealize.ShloMosaic Idealize.ShloMosaic.ValueIdx Cert.KernelIdeal Cert.KernelIdeal.Gen Cert.NeighbourNet

/-- The nineteen parameter blocks hold the parameters `W`: the one-row blocks their vectors, the vector blocks their
    biases, and each matrix block the transpose of its layer's matrix. -/
structure BlockReads (W : Weights) (x3 x4 : Vec Ideal S1x128 .f32) (x5 : Vec Ideal S128 .f32)
    (x6 : Vec Ideal S128x128 .f32) (x7 : Vec Ideal S128 .f32) (x8 x9 : Vec Ideal S1x128 .f32) (x10 : Vec Ideal S1 .f32)
    (x11 : Vec Ideal S5x128 .f32) (x12 : Vec Ideal S128x128 .f32) (x13 : Vec Ideal S128 .f32) (x14 : Vec Ideal S128x256 .f32)
    (x15 : Vec Ideal S256 .f32) (x16 : Vec Ideal S256x1 .f32) (x17 : Vec Ideal S1 .f32) (x18 : Vec Ideal S128x256 .f32)
    (x19 : Vec Ideal S256 .f32) (x20 : Vec Ideal S256x2 .f32) (x21 : Vec Ideal S2 .f32) : Prop where
  we0 : ∀ h : Fin 128, x3 (ix2 (0 : Fin 1) h) = W.we0 h
  we1 : ∀ h : Fin 128, x4 (ix2 (0 : Fin 1) h) = W.we1 h
  be : ∀ h : Fin 128, x5 (ix1 h) = W.be h
  wh : ∀ k o : Fin 128, x6 (ix2 k o) = W.wh o k
  bh : ∀ o : Fin 128, x7 (ix1 o) = W.bh o
  wae : ∀ h : Fin 128, x8 (ix2 (0 : Fin 1) h) = W.wae h
  wam : ∀ h : Fin 128, x9 (ix2 (0 : Fin 1) h) = W.wam h
  ba : x10 (ix1 (0 : Fin 1)) = W.ba
  w2a : ∀ (k : Fin 5) (h : Fin 128), x11 (ix2 k h) = W.w2a h k
  w2b : ∀ k h : Fin 128, x12 (ix2 k h) = W.w2b h k
  b2 : ∀ h : Fin 128, x13 (ix1 h) = W.b2 h
  wc1 : ∀ (k : Fin 128) (j : Fin 256), x14 (ix2 k j) = W.wc1 j k
  bc1 : ∀ j : Fin 256, x15 (ix1 j) = W.bc1 j
  wc2 : ∀ j : Fin 256, x16 (ix2 j (0 : Fin 1)) = W.wc2 j
  bc2 : x17 (ix1 (0 : Fin 1)) = W.bc2
  wp1 : ∀ (k : Fin 128) (j : Fin 256), x18 (ix2 k j) = W.wp1 j k
  bp1 : ∀ j : Fin 256, x19 (ix1 j) = W.bp1 j
  wp2 : ∀ (j : Fin 256) (a : Fin 2), x20 (ix2 j a) = W.wp2 a j
  bp2 : ∀ a : Fin 2, x21 (ix1 a) = W.bp2 a

/-- The first output block holds the action means of its rows. -/
def MeansBlock : Prop :=
  ∀ (W : Weights) (x0 : Vec Ideal S256x5 .f32) (x1 x2 : Vec Ideal S256x64 .f32) (x3 x4 : Vec Ideal S1x128 .f32) (x5 : Vec Ideal S128 .f32)
    (x6 : Vec Ideal S128x128 .f32) (x7 : Vec Ideal S128 .f32) (x8 x9 : Vec Ideal S1x128 .f32) (x10 : Vec Ideal S1 .f32)
    (x11 : Vec Ideal S5x128 .f32) (x12 : Vec Ideal S128x128 .f32) (x13 : Vec Ideal S128 .f32) (x14 : Vec Ideal S128x256 .f32)
    (x15 : Vec Ideal S256 .f32) (x16 : Vec Ideal S256x1 .f32) (x17 : Vec Ideal S1 .f32) (x18 : Vec Ideal S128x256 .f32)
    (x19 : Vec Ideal S256 .f32) (x20 : Vec Ideal S256x2 .f32) (x21 : Vec Ideal S2 .f32),
    BlockReads W x3 x4 x5 x6 x7 x8 x9 x10 x11 x12 x13 x14 x15 x16 x17 x18 x19 x20 x21 → ∀ (p : Fin 256) (a : Fin 2),
      out0_22 x0 x1 x2 x3 x4 x5 x6 x7 x8 x9 x10 x11 x12 x13 x14 x15 x16 x17 x18 x19 x20 x21 (ix2 p a)
        = mean W (fun k => x0 (ix2 p k)) (fun n => x1 (ix2 p n)) (fun n => x2 (ix2 p n)) a

/-- The second output block holds the values of its rows. -/
def ValuesBlock : Prop :=
  ∀ (W : Weights) (x0 : Vec Ideal S256x5 .f32) (x1 x2 : Vec Ideal S256x64 .f32) (x3 x4 : Vec Ideal S1x128 .f32) (x5 : Vec Ideal S128 .f32)
    (x6 : Vec Ideal S128x128 .f32) (x7 : Vec Ideal S128 .f32) (x8 x9 : Vec Ideal S1x128 .f32) (x10 : Vec Ideal S1 .f32)
    (x11 : Vec Ideal S5x128 .f32) (x12 : Vec Ideal S128x128 .f32) (x13 : Vec Ideal S128 .f32) (x14 : Vec Ideal S128x256 .f32)
    (x15 : Vec Ideal S256 .f32) (x16 : Vec Ideal S256x1 .f32) (x17 : Vec Ideal S1 .f32) (x18 : Vec Ideal S128x256 .f32)
    (x19 : Vec Ideal S256 .f32) (x20 : Vec Ideal S256x2 .f32) (x21 : Vec Ideal S2 .f32),
    BlockReads W x3 x4 x5 x6 x7 x8 x9 x10 x11 x12 x13 x14 x15 x16 x17 x18 x19 x20 x21 → ∀ (p : Fin 256),
      out0_23 x0 x1 x2 x3 x4 x5 x6 x7 x8 x9 x10 x11 x12 x13 x14 x15 x16 x17 x18 x19 x20 x21 (ix2 p (0 : Fin 1))
        = value W (fun k => x0 (ix2 p k)) (fun n => x1 (ix2 p n)) (fun n => x2 (ix2 p n))

end Cert.KernelIdeal.Payload

end
-- ==== Proof.KernelValue.lean ====
/-
  From the blocks to the whole arrays. The region's grid has 64 points; at point t the three data windows and the two
  output windows hold rows 256 t … 256 t + 255 of their arrays, and the nineteen parameter windows hold their whole arrays.
  So what point t writes back is rows 256 t … of the array of per-row action means (of per-row values), the 64 blocks
  tile the 16384 rows, and the run ends with the two output arrays holding every row's means and value; the third
  result is the exponential of the two logarithms in every row.
-/
import proofs.«128013_j39324720562723_2_alg».proof.Proof.KernelArrays
import proofs.«128013_j39324720562723_2_alg».proof.Proof.PayloadSpec
import Idealize.ShloMosaic.Lib.Pipeline.Value
import Idealize.ShloMosaic.Lib.Tactic

set_option maxRecDepth 16384

noncomputable section

namespace Cert.KernelIdeal.Value2

open Idealize.ShloMosaic Idealize.ShloMosaic.TcCoe Idealize.SL.Sem
open Idealize.ShloMosaic.Pipeline (Dat)
open Cert.KernelIdeal Cert.KernelIdeal.Gen Cert.KernelIdeal.HostSide Cert.NeighbourNet ValueIdx

variable (m : (ℓ : Loc nD τ sig) → Buf (Elt Ideal) ℓ) (c : Dev nD)

/-! ## The blocks the body reads, as entries of the arrays -/

/-- The block index maps, decided over the 64 points: the data windows and the output windows move one block of 256 rows
    per point and stay at column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_22.index t (0 : Fin 2) = t.val ∧ win0_22.index t (1 : Fin 2) = 0
    ∧ win0_23.index t (0 : Fin 2) = t.val ∧ win0_23.index t (1 : Fin 2) = 0 :=
  (by decide +kernel : ∀ t : Fin grid0.N, _)

/-- Row p of the state block at point t is the state of row 256 t + p. -/
theorem blk_state (t : Fin cfg0.N) (p : Fin 256) (k : Fin 5) (r : Fin 16384) (hr : r.val = 256 * t.val + p.val) :
    (iblk m c 0 t : Vec Ideal S256x5 .f32) (ix2 p k) = stateRow (Args.X m c) r k := by
  refine Eq.trans ?_ (V_state m c r k)
  obtain ⟨e0, e1, -⟩ := idx_rows t
  unfold iblk
  rw [View.read_apply]
  show Gen.V m c main_v0 _ = Gen.V m c main_v0 _
  congr 1
  funext d
  apply Fin.ext
  match d with
  | ⟨0, _⟩ => show win0_0.index t (0 : Fin 2) * 256 + 1 * p.val = r.val; rw [e0, hr]; omega
  | ⟨1, _⟩ => show win0_0.index t (1 : Fin 2) * 5 + 1 * k.val = k.val; rw [e1]; omega

/-- Row p of the first neighbour block at point t: the neighbours' first coordinates of row 256 t + p. -/
theorem blk_nbx (t : Fin cfg0.N) (p : Fin 256) (k : Fin 64) (r : Fin 16384) (hr : r.val = 256 * t.val + p.val) :
    (iblk m c 1 t : Vec Ideal S256x64 .f32) (ix2 p k) = nbxRow (Args.X m c) r k := by
  refine Eq.trans ?_ (V_nbx m c r k)
  obtain ⟨-, -, e0, e1, -⟩ := idx_rows t
  unfold iblk
  rw [View.read_apply]
  show Gen.V m c main_v4 _ = Gen.V m c main_v4 _
  congr 1
  funext d
  apply Fin.ext
  match d with
  | ⟨0, _⟩ => show win0_1.index t (0 : Fin 2) * 256 + 1 * p.val = r.val; rw [e0, hr]; omega
  | ⟨1, _⟩ => show win0_1.index t (1 : Fin 2) * 64 + 1 * k.val = k.val; rw [e1]; omega

/-- Row p of the second neighbour block at point t: the neighbours' second coordinates of row 256 t + p. -/
theorem blk_nby (t : Fin cfg0.N) (p : Fin 256) (k : Fin 64) (r : Fin 16384) (hr : r.val = 256 * t.val + p.val) :
    (iblk m c 2 t : Vec Ideal S256x64 .f32) (ix2 p k) = nbyRow (Args.X m c) r k := by
  refine Eq.trans ?_ (V_nby m c r k)
  obtain ⟨-, -, -, -, e0, e1, -⟩ := idx_rows t
  unfold iblk
  rw [View.read_apply]
  show Gen.V m c main_v6 _ = Gen.V m c main_v6 _
  congr 1
  funext d
  apply Fin.ext
  match d with
  | ⟨0, _⟩ => show win0_2.index t (0 : Fin 2) * 256 + 1 * p.val = r.val; rw [e0, hr]; omega
  | ⟨1, _⟩ => show win0_2.index t (1 : Fin 2) * 64 + 1 * k.val = k.val; rw [e1]; omega

/-! The nineteen parameter windows hold their whole arrays at every point: block index 0 on every axis. -/

theorem idx_w3 : ∀ t : Fin cfg0.N, win0_3.index t (0 : Fin 2) = 0 ∧ win0_3.index t (1 : Fin 2) = 0 :=
  (by decide +kernel : ∀ t : Fin grid0.N, _)

theorem blk_we0 (t : Fin cfg0.N) (h : Fin 128) :
    (iblk m c 3 t : Vec Ideal S1x128 .f32) (ix2 (0 : Fin 1) h) = (Args.W m c).we0 h := by
  refine Eq.trans ?_ (V_we0 m c h)
  obtain ⟨e0, e1⟩ := idx_w3 t
  unfold iblk
  rw [View.read_apply]
  show Gen.V m c main_v9 _ = Gen.V m c main_v9 _
  congr 1
  funext d
  apply Fin.ext
  match d with
  | ⟨0, _⟩ => show win0_3.index t (0 : Fin 2) * 1 + 1 * 0 = 0; rw [e0]
  | ⟨1, _⟩ => show win0_3.index t (1 : Fin 2) * 128 + 1 * h.val = h.val; rw [e1]; omega

theorem idx_w4 : ∀ t : Fin cfg0.N, win0_4.index t (0 : Fin 2) = 0 ∧ win0_4.index t (1 : Fin 2) = 0 :=
  (by decide +kernel : ∀ t : Fin grid0.N, _)

theorem blk_we1 (t : Fin cfg0.N) (h : Fin 128) :
    (iblk m c 4 t : Vec Ideal S1x128 .f32) (ix2 (0 : Fin 1) h) = (Args.W m c).we1 h := by
  refine Eq.trans ?_ (V_we1 m c h)
  obtain ⟨e0, e1⟩ := idx_w4 t
  unfold iblk
  rw [View.read_apply]
  show Gen.V m c main_v12 _ = Gen.V m c main_v12 _
  congr 1
  funext d
  apply Fin.ext
  match d with
  | ⟨0, _⟩ => show win0_4.index t (0 : Fin 2) * 1 + 1 * 0 = 0; rw [e0]
  | ⟨1, _⟩ => show win0_4.index t (1 : Fin 2) * 128 + 1 * h.val = h.val; rw [e1]; omega

theorem idx_w5 : ∀ t : Fin cfg0.N, win0_5.index t (0 : Fin 1) = 0 :=
  (by decide +kernel : ∀ t : Fin grid0.N, _)

theorem blk_be (t : Fin cfg0.N) (h : Fin 128) :
    (iblk m c 5 t : Vec Ideal S128 .f32) (ix1 h) = (Args.W m c).be h := by
  refine Eq.trans ?_ (V_be m c h)
  have e0 := idx_w5 t
  unfold iblk
  rw [View.read_apply]
  show Gen.V m c main_arg2 _ = Gen.V m c main_arg2 _
  congr 1
  funext d
  apply Fin.ext
  match d with
  | ⟨0, _⟩ => show win0_5.index t (0 : Fin 1) * 128 + 1 * h.val = h.val; rw [e0]; omega

theorem idx_w6 : ∀ t : Fin cfg0.N, win0_6.index t (0 : Fin 2) = 0 ∧ win0_6.index t (1 : Fin 2) = 0 :=
  (by decide +kernel : ∀ t : Fin grid0.N, _)

theorem blk_wh (t : Fin cfg0.N) (k o : Fin 128) :
    (iblk m c 6 t : Vec Ideal S128x128 .f32) (ix2 k o) = (Args.W m c).wh o k := by
  refine Eq.trans ?_ (V_wh m c k o)
  obtain ⟨e0, e1⟩ := idx_w6 t
  unfold iblk
  rw [View.read_apply]
  show Gen.V m c main_v15 _ = Gen.V m c main_v15 _
  congr 1
  funext d
  apply Fin.ext
  match d with
  | ⟨0, _⟩ => show win0_6.index t (0 : Fin 2) * 128 + 1 * k.val = k.val; rw [e0]; omega
  | ⟨1, _⟩ => show win0_6.index t (1 : Fin 2) * 128 + 1 * o.val = o.val; rw [e1]; omega

theorem idx_w7 : ∀ t : Fin cfg0.N, win0_7.index t (0 : Fin 1) = 0 :=
  (by decide +kernel : ∀ t : Fin grid0.N, _)

theorem blk_bh (t : Fin cfg0.N) (o : Fin 128) :
    (iblk m c 7 t : Vec Ideal S128 .f32) (ix1 o) = (Args.W m c).bh o := by
  refine Eq.trans ?_ (V_bh m c o)
  have e0 := idx_w7 t
  unfold iblk
  rw [View.read_apply]
  show Gen.V m c main_arg4 _ = Gen.V m c main_arg4 _
  congr 1
  funext d
  apply Fin.ext
  match d with
  | ⟨0, _⟩ => show win0_7.index t (0 : Fin 1) * 128 + 1 * o.val = o.val; rw [e0]; omega

theorem idx_w8 : ∀ t : Fin cfg0.N, win0_8.index t (0 : Fin 2) = 0 ∧ win0_8.index t (1 : Fin 2) = 0 :=
  (by decide +kernel : ∀ t : Fin grid0.N, _)

theorem blk_wae (t : Fin cfg0.N) (h : Fin 128) :
    (iblk m c 8 t : Vec Ideal S1x128 .f32) (ix2 (0 : Fin 1) h) = (Args.W m c).wae h := by
  refine Eq.trans ?_ (V_wae m c h)
  obtain ⟨e0, e1⟩ := idx_w8 t
  unfold iblk
  rw [View.read_apply]
  show Gen.V m c main_v13 _ = Gen.V m c main_v13 _
  congr 1
  funext d
  apply Fin.ext
  match d with
  | ⟨0, _⟩ => show win0_8.index t (0 : Fin 2) * 1 + 1 * 0 = 0; rw [e0]
  | ⟨1, _⟩ => show win0_8.index t (1 : Fin 2) * 128 + 1 * h.val = h.val; rw [e1]; omega

theorem idx_w9 : ∀ t : Fin cfg0.N, win0_9.index t (0 : Fin 2) = 0 ∧ win0_9.index t (1 : Fin 2) = 0 :=
  (by decide +kernel : ∀ t : Fin grid0.N, _)

theorem blk_wam (t : Fin cfg0.N) (h : Fin 128) :
    (iblk m c 9 t : Vec Ideal S1x128 .f32) (ix2 (0 : Fin 1) h) = (Args.W m c).wam h := by
  refine Eq.trans ?_ (V_wam m c h)
  obtain ⟨e0, e1⟩ := idx_w9 t
  unfold iblk
  rw [View.read_apply]
  show Gen.V m c main_v14 _ = Gen.V m c main_v14 _
  congr 1
  funext d
  apply Fin.ext
  match d with
  | ⟨0, _⟩ => show win0_9.index t (0 : Fin 2) * 1 + 1 * 0 = 0; rw [e0]
  | ⟨1, _⟩ => show win0_9.index t (1 : Fin 2) * 128 + 1 * h.val = h.val; rw [e1]; omega

theorem idx_w10 : ∀ t : Fin cfg0.N, win0_10.index t (0 : Fin 1) = 0 :=
  (by decide +kernel : ∀ t : Fin grid0.N, _)

theorem blk_ba (t : Fin cfg0.N) :
    (iblk m c 10 t : Vec Ideal S1 .f32) (ix1 (0 : Fin 1)) = (Args.W m c).ba := by
  refine Eq.trans ?_ (V_ba m c)
  have e0 := idx_w10 t
  unfold iblk
  rw [View.read_apply]
  show Gen.V m c main_arg6 _ = Gen.V m c main_arg6 _
  congr 1
  funext d
  apply Fin.ext
  match d with
  | ⟨0, _⟩ => show win0_10.index t (0 : Fin 1) * 1 + 1 * 0 = 0; rw [e0]

theorem idx_w11 : ∀ t : Fin cfg0.N, win0_11.index t (0 : Fin 2) = 0 ∧ win0_11.index t (1 : Fin 2) = 0 :=
  (by decide +kernel : ∀ t : Fin grid0.N, _)

theorem blk_w2a (t : Fin cfg0.N) (k : Fin 5) (h : Fin 128) :
    (iblk m c 11 t : Vec Ideal S5x128 .f32) (ix2 k h) = (Args.W m c).w2a h k := by
  refine Eq.trans ?_ (V_w2a m c k h)
  obtain ⟨e0, e1⟩ := idx_w11 t
  unfold iblk
  rw [View.read_apply]
  show Gen.V m c main_v17 _ = Gen.V m c main_v17 _
  congr 1
  funext d
  apply Fin.ext
  match d with
  | ⟨0, _⟩ => show win0_11.index t (0 : Fin 2) * 5 + 1 * k.val = k.val; rw [e0]; omega
  | ⟨1, _⟩ => show win0_11.index t (1 : Fin 2) * 128 + 1 * h.val = h.val; rw [e1]; omega

theorem idx_w12 : ∀ t : Fin cfg0.N, win0_12.index t (0 : Fin 2) = 0 ∧ win0_12.index t (1 : Fin 2) = 0 :=
  (by decide +kernel : ∀ t : Fin grid0.N, _)

theorem blk_w2b (t : Fin cfg0.N) (k h : Fin 128) :
    (iblk m c 12 t : Vec Ideal S128x128 .f32) (ix2 k h) = (Args.W m c).w2b h k := by
  refine Eq.trans ?_ (V_w2b m c k h)
  obtain ⟨e0, e1⟩ := idx_w12 t
  unfold iblk
  rw [View.read_apply]
  show Gen.V m c main_v19 _ = Gen.V m c main_v19 _
  congr 1
  funext d
  apply Fin.ext
  match d with
  | ⟨0, _⟩ => show win0_12.index t (0 : Fin 2) * 128 + 1 * k.val = k.val; rw [e0]; omega
  | ⟨1, _⟩ => show win0_12.index t (1 : Fin 2) * 128 + 1 * h.val = h.val; rw [e1]; omega

theorem idx_w13 : ∀ t : Fin cfg0.N, win0_13.index t (0 : Fin 1) = 0 :=
  (by decide +kernel : ∀ t : Fin grid0.N, _)

theorem blk_b2 (t : Fin cfg0.N) (h : Fin 128) :
    (iblk m c 13 t : Vec Ideal S128 .f32) (ix1 h) = (Args.W m c).b2 h := by
  refine Eq.trans ?_ (V_b2 m c h)
  have e0 := idx_w13 t
  unfold iblk
  rw [View.read_apply]
  show Gen.V m c main_arg8 _ = Gen.V m c main_arg8 _
  congr 1
  funext d
  apply Fin.ext
  match d with
  | ⟨0, _⟩ => show win0_13.index t (0 : Fin 1) * 128 + 1 * h.val = h.val; rw [e0]; omega

theorem idx_w14 : ∀ t : Fin cfg0.N, win0_14.index t (0 : Fin 2) = 0 ∧ win0_14.index t (1 : Fin 2) = 0 :=
  (by decide +kernel : ∀ t : Fin grid0.N, _)

theorem blk_wc1 (t : Fin cfg0.N) (k : Fin 128) (j : Fin 256) :
    (iblk m c 14 t : Vec Ideal S128x256 .f32) (ix2 k j) = (Args.W m c).wc1 j k := by
  refine Eq.trans ?_ (V_wc1 m c k j)
  obtain ⟨e0, e1⟩ := idx_w14 t
  unfold iblk
  rw [View.read_apply]
  show Gen.V m c main_v20 _ = Gen.V m c main_v20 _
  congr 1
  funext d
  apply Fin.ext
  match d with
  | ⟨0, _⟩ => show win0_14.index t (0 : Fin 2) * 128 + 1 * k.val = k.val; rw [e0]; omega
  | ⟨1, _⟩ => show win0_14.index t (1 : Fin 2) * 256 + 1 * j.val = j.val; rw [e1]; omega

theorem idx_w15 : ∀ t : Fin cfg0.N, win0_15.index t (0 : Fin 1) = 0 :=
  (by decide +kernel : ∀ t : Fin grid0.N, _)

theorem blk_bc1 (t : Fin cfg0.N) (j : Fin 256) :
    (iblk m c 15 t : Vec Ideal S256 .f32) (ix1 j) = (Args.W m c).bc1 j := by
  refine Eq.trans ?_ (V_bc1 m c j)
  have e0 := idx_w15 t
  unfold iblk
  rw [View.read_apply]
  show Gen.V m c main_arg10 _ = Gen.V m c main_arg10 _
  congr 1
  funext d
  apply Fin.ext
  match d with
  | ⟨0, _⟩ => show win0_15.index t (0 : Fin 1) * 256 + 1 * j.val = j.val; rw [e0]; omega

theorem idx_w16 : ∀ t : Fin cfg0.N, win0_16.index t (0 : Fin 2) = 0 ∧ win0_16.index t (1 : Fin 2) = 0 :=
  (by decide +kernel : ∀ t : Fin grid0.N, _)

theorem blk_wc2 (t : Fin cfg0.N) (j : Fin 256) :
    (iblk m c 16 t : Vec Ideal S256x1 .f32) (ix2 j (0 : Fin 1)) = (Args.W m c).wc2 j := by
  refine Eq.trans ?_ (V_wc2 m c j)
  obtain ⟨e0, e1⟩ := idx_w16 t
  unfold iblk
  rw [View.read_apply]
  show Gen.V m c main_v21 _ = Gen.V m c main_v21 _
  congr 1
  funext d
  apply Fin.ext
  match d with
  | ⟨0, _⟩ => show win0_16.index t (0 : Fin 2) * 256 + 1 * j.val = j.val; rw [e0]; omega
  | ⟨1, _⟩ => show win0_16.index t (1 : Fin 2) * 1 + 1 * 0 = 0; rw [e1]

theorem idx_w17 : ∀ t : Fin cfg0.N, win0_17.index t (0 : Fin 1) = 0 :=
  (by decide +kernel : ∀ t : Fin grid0.N, _)

theorem blk_bc2 (t : Fin cfg0.N) :
    (iblk m c 17 t : Vec Ideal S1 .f32) (ix1 (0 : Fin 1)) = (Args.W m c).bc2 := by
  refine Eq.trans ?_ (V_bc2 m c)
  have e0 := idx_w17 t
  unfold iblk
  rw [View.read_apply]
  show Gen.V m c main_arg12 _ = Gen.V m c main_arg12 _
  congr 1
  funext d
  apply Fin.ext
  match d with
  | ⟨0, _⟩ => show win0_17.index t (0 : Fin 1) * 1 + 1 * 0 = 0; rw [e0]

theorem idx_w18 : ∀ t : Fin cfg0.N, win0_18.index t (0 : Fin 2) = 0 ∧ win0_18.index t (1 : Fin 2) = 0 :=
  (by decide +kernel : ∀ t : Fin grid0.N, _)

theorem blk_wp1 (t : Fin cfg0.N) (k : Fin 128) (j : Fin 256) :
    (iblk m c 18 t : Vec Ideal S128x256 .f32) (ix2 k j) = (Args.W m c).wp1 j k := by
  refine Eq.trans ?_ (V_wp1 m c k j)
  obtain ⟨e0, e1⟩ := idx_w18 t
  unfold iblk
  rw [View.read_apply]
  show Gen.V m c main_v22 _ = Gen.V m c main_v22 _
  congr 1
  funext d
  apply Fin.ext
  match d with
  | ⟨0, _⟩ => show win0_18.index t (0 : Fin 2) * 128 + 1 * k.val = k.val; rw [e0]; omega
  | ⟨1, _⟩ => show win0_18.index t (1 : Fin 2) * 256 + 1 * j.val = j.val; rw [e1]; omega

theorem idx_w19 : ∀ t : Fin cfg0.N, win0_19.index t (0 : Fin 1) = 0 :=
  (by decide +kernel : ∀ t : Fin grid0.N, _)

theorem blk_bp1 (t : Fin cfg0.N) (j : Fin 256) :
    (iblk m c 19 t : Vec Ideal S256 .f32) (ix1 j) = (Args.W m c).bp1 j := by
  refine Eq.trans ?_ (V_bp1 m c j)
  have e0 := idx_w19 t
  unfold iblk
  rw [View.read_apply]
  show Gen.V m c main_arg14 _ = Gen.V m c main_arg14 _
  congr 1
  funext d
  apply Fin.ext
  match d with
  | ⟨0, _⟩ => show win0_19.index t (0 : Fin 1) * 256 + 1 * j.val = j.val; rw [e0]; omega

theorem idx_w20 : ∀ t : Fin cfg0.N, win0_20.index t (0 : Fin 2) = 0 ∧ win0_20.index t (1 : Fin 2) = 0 :=
  (by decide +kernel : ∀ t : Fin grid0.N, _)

theorem blk_wp2 (t : Fin cfg0.N) (j : Fin 256) (a : Fin 2) :
    (iblk m c 20 t : Vec Ideal S256x2 .f32) (ix2 j a) = (Args.W m c).wp2 a j := by
  refine Eq.trans ?_ (V_wp2 m c j a)
  obtain ⟨e0, e1⟩ := idx_w20 t
  unfold iblk
  rw [View.read_apply]
  show Gen.V m c main_v23 _ = Gen.V m c main_v23 _
  congr 1
  funext d
  apply Fin.ext
  match d with
  | ⟨0, _⟩ => show win0_20.index t (0 : Fin 2) * 256 + 1 * j.val = j.val; rw [e0]; omega
  | ⟨1, _⟩ => show win0_20.index t (1 : Fin 2) * 2 + 1 * a.val = a.val; rw [e1]; omega

theorem idx_w21 : ∀ t : Fin cfg0.N, win0_21.index t (0 : Fin 1) = 0 :=
  (by decide +kernel : ∀ t : Fin grid0.N, _)

theorem blk_bp2 (t : Fin cfg0.N) (a : Fin 2) :
    (iblk m c 21 t : Vec Ideal S2 .f32) (ix1 a) = (Args.W m c).bp2 a := by
  refine Eq.trans ?_ (V_bp2 m c a)
  have e0 := idx_w21 t
  unfold iblk
  rw [View.read_apply]
  show Gen.V m c main_arg16 _ = Gen.V m c main_arg16 _
  congr 1
  funext d
  apply Fin.ext
  match d with
  | ⟨0, _⟩ => show win0_21.index t (0 : Fin 1) * 2 + 1 * a.val = a.val; rw [e0]; omega

/-- At every point the nineteen parameter blocks hold the network's parameters. -/
theorem blockReads (t : Fin cfg0.N) :
    Payload.BlockReads (Args.W m c) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) where
  we0 := blk_we0 m c t
  we1 := blk_we1 m c t
  be := blk_be m c t
  wh := blk_wh m c t
  bh := blk_bh m c t
  wae := blk_wae m c t
  wam := blk_wam m c t
  ba := blk_ba m c t
  w2a := blk_w2a m c t
  w2b := blk_w2b m c t
  b2 := blk_b2 m c t
  wc1 := blk_wc1 m c t
  bc1 := blk_bc1 m c t
  wc2 := blk_wc2 m c t
  bc2 := blk_bc2 m c t
  wp1 := blk_wp1 m c t
  bp1 := blk_bp1 m c t
  wp2 := blk_wp2 m c t
  bp2 := blk_bp2 m c t

/-! ## The three results as whole arrays -/

/-- The action means of every row. -/
def muArr : S16384x2.Idx → EReal := fun i =>
  mean (Args.W m c) (stateRow (Args.X m c) (i 0)) (nbxRow (Args.X m c) (i 0)) (nbyRow (Args.X m c) (i 0)) (i 1)

/-- The value of every row. -/
def valueArr : S16384x1.Idx → EReal := fun i =>
  value (Args.W m c) (stateRow (Args.X m c) (i 0)) (nbxRow (Args.X m c) (i 0)) (nbyRow (Args.X m c) (i 0))

/-- The two standard deviations, the same in every row. -/
def stdArr : S16384x2.Idx → EReal := fun i => Ideal.exp (Args.logStd m c (ix2 (0 : Fin 1) (i 1)))

/-! ## What a point writes back -/

/-- Entry j of what the body leaves in the first output block at point t is the action mean of row 256 t + j₀. -/
theorem means_point (hM : Payload.MeansBlock) (t : Fin cfg0.N) (j : S256x2.Idx) (i : S16384x2.Idx)
    (h0 : (i 0).val = 256 * t.val + (j 0).val) (h1 : (i 1).val = (j 1).val) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) j = muArr m c i := by
  refine Eq.trans (congrArg _ (eq_ix2 j)) ?_
  refine (hM (Args.W m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (blockReads m c t) (j 0) (j 1)).trans ?_
  have es : (fun k => (iblk m c 0 t : Vec Ideal S256x5 .f32) (ix2 (j 0) k)) = stateRow (Args.X m c) (i 0) :=
    funext fun k => blk_state m c t (j 0) k (i 0) h0
  have ex : (fun n => (iblk m c 1 t : Vec Ideal S256x64 .f32) (ix2 (j 0) n)) = nbxRow (Args.X m c) (i 0) :=
    funext fun n => blk_nbx m c t (j 0) n (i 0) h0
  have ey : (fun n => (iblk m c 2 t : Vec Ideal S256x64 .f32) (ix2 (j 0) n)) = nbyRow (Args.X m c) (i 0) :=
    funext fun n => blk_nby m c t (j 0) n (i 0) h0
  have e1 : j 1 = i 1 := Fin.ext h1.symm
  exact congr (congr (congr (congrArg (mean (Args.W m c)) es) ex) ey) e1

/-- Entry (p, 0) of what the body leaves in the second output block at point t is the value of row 256 t + p. -/
theorem values_point (hV : Payload.ValuesBlock) (t : Fin cfg0.N) (j : S256x1.Idx) (i : S16384x1.Idx)
    (h0 : (i 0).val = 256 * t.val + (j 0).val) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) j = valueArr m c i := by
  have hj : j = ix2 (j 0) (0 : Fin 1) := by
    funext a
    match a with
    | ⟨0, _⟩ => rfl
    | ⟨1, _⟩ => exact Fin.ext (by have h : (j 1).val < 1 := (j 1).isLt; show (j 1).val = 0; omega)
  refine Eq.trans (congrArg _ hj) ?_
  refine (hV (Args.W m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (blockReads m c t) (j 0)).trans ?_
  have es : (fun k => (iblk m c 0 t : Vec Ideal S256x5 .f32) (ix2 (j 0) k)) = stateRow (Args.X m c) (i 0) :=
    funext fun k => blk_state m c t (j 0) k (i 0) h0
  have ex : (fun n => (iblk m c 1 t : Vec Ideal S256x64 .f32) (ix2 (j 0) n)) = nbxRow (Args.X m c) (i 0) :=
    funext fun n => blk_nbx m c t (j 0) n (i 0) h0
  have ey : (fun n => (iblk m c 2 t : Vec Ideal S256x64 .f32) (ix2 (j 0) n)) = nbyRow (Args.X m c) (i 0) :=
    funext fun n => blk_nby m c t (j 0) n (i 0) h0
  exact congr (congr (congrArg (value (Args.W m c)) es) ex) ey

/-- What point t writes back to the array of means is block t of it. -/
theorem flushed22 (hM : Payload.MeansBlock) (t : Fin cfg0.N) :
    (dats m 0 c).flushed 22 t = ((cfg0.win 22).blk t).view.read (Elt Ideal) (muArr m c) := by
  show (cfg0.win 22).cut (grid0.coords t) ((dats m 0 c).after 22 t) = _
  rw [after0_22]
  obtain ⟨-, -, -, -, -, -, e0, e1, -⟩ := idx_rows t
  refine funext fun (j : S256x2.Idx) => ?_
  refine means_point m c hM t j (((cfg0.win 22).blk t).view.emb j) ?_ ?_
  · show win0_22.index t (0 : Fin 2) * 256 + 1 * (j 0).val = 256 * t.val + (j 0).val
    rw [e0]; omega
  · show win0_22.index t (1 : Fin 2) * 2 + 1 * (j 1).val = (j 1).val
    rw [e1]; omega

/-- What point t writes back to the array of values is block t of it. -/
theorem flushed23 (hV : Payload.ValuesBlock) (t : Fin cfg0.N) :
    (dats m 0 c).flushed 23 t = ((cfg0.win 23).blk t).view.read (Elt Ideal) (valueArr m c) := by
  show (cfg0.win 23).cut (grid0.coords t) ((dats m 0 c).after 23 t) = _
  rw [after0_23]
  obtain ⟨-, -, -, -, -, -, -, -, e0, e1⟩ := idx_rows t
  refine funext fun (j : S256x1.Idx) => ?_
  refine values_point m c hV t j (((cfg0.win 23).blk t).view.emb j) ?_
  show win0_23.index t (0 : Fin 2) * 256 + 1 * (j 0).val = 256 * t.val + (j 0).val
  rw [e0]; omega

/-! ## The 64 blocks tile the rows -/

/-- An index of the array is in point t's block iff each coordinate is in the block's range on its axis. -/
theorem mem_blk22 (t : Fin cfg0.N) (i : S16384x2.Idx) :
    i ∈ ((cfg0.win 22).blk t).view.set ↔ ∀ a : Fin 2, win0_22.index t a * S256x2.size a ≤ (i a).val ∧ (i a).val < win0_22.index t a * S256x2.size a + S256x2.size a := by
  show i ∈ ((View.whole main_v24_0).slice (win0_22.rect t)).set ↔ _
  rw [View.set_slice_whole, Rect.mem_set_unit]
  exact Iff.rfl

/-- Every row r lies in the block of point r / 256, which writes back. -/
theorem cover22 (i : S16384x2.Idx) :
    ∃ t : Fin cfg0.N, (cfg0.win 22).flush t = true ∧ i ∈ ((cfg0.win 22).blk t).view.set := by
  have hi0 : (i 0).val < 16384 := (i 0).isLt
  have hi1 : (i 1).val < 2 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, e0, e1, -⟩ := idx_rows t
  refine ⟨t, flush0_22 t, ?_⟩
  rw [mem_blk22]
  intro a
  match a with
  | ⟨0, _⟩ =>
    show win0_22.index t (0 : Fin 2) * 256 ≤ (i 0).val ∧ (i 0).val < win0_22.index t (0 : Fin 2) * 256 + 256
    rw [e0, ht]; omega
  | ⟨1, _⟩ =>
    show win0_22.index t (1 : Fin 2) * 2 ≤ (i 1).val ∧ (i 1).val < win0_22.index t (1 : Fin 2) * 2 + 2
    rw [e1]; omega

/-- An index of the array is in point t's block iff each coordinate is in the block's range on its axis. -/
theorem mem_blk23 (t : Fin cfg0.N) (i : S16384x1.Idx) :
    i ∈ ((cfg0.win 23).blk t).view.set ↔ ∀ a : Fin 2, win0_23.index t a * S256x1.size a ≤ (i a).val ∧ (i a).val < win0_23.index t a * S256x1.size a + S256x1.size a := by
  show i ∈ ((View.whole main_v24_1).slice (win0_23.rect t)).set ↔ _
  rw [View.set_slice_whole, Rect.mem_set_unit]
  exact Iff.rfl

/-- Every row r lies in the block of point r / 256, which writes back. -/
theorem cover23 (i : S16384x1.Idx) :
    ∃ t : Fin cfg0.N, (cfg0.win 23).flush t = true ∧ i ∈ ((cfg0.win 23).blk t).view.set := by
  have hi0 : (i 0).val < 16384 := (i 0).isLt
  have hi1 : (i 1).val < 1 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, -, -, e0, e1⟩ := idx_rows t
  refine ⟨t, flush0_23 t, ?_⟩
  rw [mem_blk23]
  intro a
  match a with
  | ⟨0, _⟩ =>
    show win0_23.index t (0 : Fin 2) * 256 ≤ (i 0).val ∧ (i 0).val < win0_23.index t (0 : Fin 2) * 256 + 256
    rw [e0, ht]; omega
  | ⟨1, _⟩ =>
    show win0_23.index t (1 : Fin 2) * 1 ≤ (i 1).val ∧ (i 1).val < win0_23.index t (1 : Fin 2) * 1 + 1
    rw [e1]; omega

/-- After the region the first output array holds every row's action means. -/
theorem final22 (hM : Payload.MeansBlock) : (dats m 0 c).arrAt 22 cfg0.N = muArr m c :=
  (dats m 0 c).arrAt_eq_of_cover 22 (muArr m c) (fun t _ => flushed22 m c hM t) (cover22)

/-- After the region the second output array holds every row's value. -/
theorem final23 (hV : Payload.ValuesBlock) : (dats m 0 c).arrAt 23 cfg0.N = valueArr m c :=
  (dats m 0 c).arrAt_eq_of_cover 23 (valueArr m c) (fun t _ => flushed23 m c hV t) (cover23)

/-- The array the two host operations after the region write. -/
theorem tail_eq :
    (Pipeline.afterTail₀ cfgs (Gen.dats m) 0 (Gen.V0 m) [Gen.hostOps1] c main_v26 : S16384x2.Idx → EReal) = stdArr m c := by
  funext i
  refine Eq.trans (congrArg _ (eq_ix2 i)) ?_
  exact tail_std m c (i 0) (i 1)

/-! ## The run -/

/-- The kernel program's run with its three results named: every weakly fair execution terminates with the action means,
    the standard deviations and the values of all rows in the three result arrays, and the arguments as launched. -/
theorem run_values (hM : Payload.MeansBlock) (hV : Payload.ValuesBlock) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24_0) = muArr m c
      ∧ r.2.mem ((c.tc : Thread nD τ).loc main_v26) = stdArr m c
      ∧ r.2.mem ((c.tc : Thread nD τ).loc main_v24_1) = valueArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 22).trans (final22 m c hM),
      ((h c).2 main_v26 (Pipeline.mem_restRefs_of main_v26 (by decide) (by decide))).trans (tail_eq m c),
      ((h c).1 23).trans (final23 m c hV),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 5).trans (((dats m 0 c).arrAt_in 5 rfl _).trans ((A_eq m c 5).trans (V_main_arg2 m c))),
      (((h c).2 main_arg3 (Pipeline.mem_restRefs_of main_arg3 (by decide) (by decide))).trans (W_main_arg3 m (dats m) c)),
      ((h c).1 7).trans (((dats m 0 c).arrAt_in 7 rfl _).trans ((A_eq m c 7).trans (V_main_arg4 m c))),
      (((h c).2 main_arg5 (Pipeline.mem_restRefs_of main_arg5 (by decide) (by decide))).trans (W_main_arg5 m (dats m) c)),
      ((h c).1 10).trans (((dats m 0 c).arrAt_in 10 rfl _).trans ((A_eq m c 10).trans (V_main_arg6 m c))),
      (((h c).2 main_arg7 (Pipeline.mem_restRefs_of main_arg7 (by decide) (by decide))).trans (W_main_arg7 m (dats m) c)),
      ((h c).1 13).trans (((dats m 0 c).arrAt_in 13 rfl _).trans ((A_eq m c 13).trans (V_main_arg8 m c))),
      (((h c).2 main_arg9 (Pipeline.mem_restRefs_of main_arg9 (by decide) (by decide))).trans (W_main_arg9 m (dats m) c)),
      ((h c).1 15).trans (((dats m 0 c).arrAt_in 15 rfl _).trans ((A_eq m c 15).trans (V_main_arg10 m c))),
      (((h c).2 main_arg11 (Pipeline.mem_restRefs_of main_arg11 (by decide) (by decide))).trans (W_main_arg11 m (dats m) c)),
      ((h c).1 17).trans (((dats m 0 c).arrAt_in 17 rfl _).trans ((A_eq m c 17).trans (V_main_arg12 m c))),
      (((h c).2 main_arg13 (Pipeline.mem_restRefs_of main_arg13 (by decide) (by decide))).trans (W_main_arg13 m (dats m) c)),
      ((h c).1 19).trans (((dats m 0 c).arrAt_in 19 rfl _).trans ((A_eq m c 19).trans (V_main_arg14 m c))),
      (((h c).2 main_arg15 (Pipeline.mem_restRefs_of main_arg15 (by decide) (by decide))).trans (W_main_arg15 m (dats m) c)),
      ((h c).1 21).trans (((dats m 0 c).arrAt_in 21 rfl _).trans ((A_eq m c 21).trans (V_main_arg16 m c))),
      (((h c).2 main_arg17 (Pipeline.mem_restRefs_of main_arg17 (by decide) (by decide))).trans (W_main_arg17 m (dats m) c))⟩) (run_main m ρ)

end Cert.KernelIdeal.Value2

end
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.Payload.lean ====
/-
  The kernel body's arithmetic on one block of 256 rows, read at coordinates. First the embedding of neighbour `n` of
  block row `p`, its mean over the neighbours, and its product with the score's linear form; then the attention stage: the
  neighbours' scores, their softmax weights, the hidden layer, and the weighted hidden features averaged over the
  neighbours; then the trunk layer and the two heads.
-/
import proofs.«128013_j39324720562723_2_alg».proof.Proof.Gen.KernelIdeal.Skeleton
import proofs.«128013_j39324720562723_2_alg».proof.Proof.Spec
import proofs.«128013_j39324720562723_2_alg».proof.Proof.LibRank3Layout
import proofs.«128013_j39324720562723_2_alg».proof.Proof.LibDenseRows

noncomputable section

namespace Cert.KernelIdeal.Payload

open Idealize.ShloMosaic Idealize.ShloMosaic.ValueIdx Cert.KernelIdeal Cert.KernelIdeal.Gen Cert.NeighbourNet Cert.Rank3Layout

variable (W : Weights)
variable (x1 x2 : Vec Ideal S256x64 .f32) (x3 x4 : Vec Ideal S1x128 .f32) (x5 : Vec Ideal S128 .f32)

/-- The embedding the body computes: at `(p, n, h)` it is feature `h` of the embedding of neighbour `n` of block row `p`,
    whose pair is `(x1 (p, n), x2 (p, n))`, for the embedding's two columns and bias the three parameter blocks hold. -/
theorem emb_apply (h3 : ∀ h, x3 (ix2 (0 : Fin 1) h) = W.we0 h) (h4 : ∀ h, x4 (ix2 (0 : Fin 1) h) = W.we1 h)
    (h5 : ∀ h, x5 (ix1 h) = W.be h) (p : Fin 256) (n : Fin 64) (h : Fin 128) :
    k0_pay3 x1 x2 x3 x4 x5 (ix3 p n h) = emb W (fun n => x1 (ix2 p n)) (fun n => x2 (ix2 p n)) n h := by
  unfold k0_pay3 emb
  dsimp only
  simp only [maximumf_apply, addf_apply, mulf_apply, broadcast_apply]
  rw [alongThird_apply, alongThird_apply, fibreVector_apply, fibreVector_apply, fibreVector_apply]
  rw [shapeCast_self, shapeCast_self, shapeCast_1a_a_apply, shapeCast_1a_a_apply, h3, h4, h5]
  rfl

/-- Summing a `[256, 64, 128]` array over its middle axis inserts the summation index between the two kept coordinates. -/
theorem lift_middle (p : Fin 256) (h : Fin 128) (n : Fin 64) :
    (reduces_S256x64x128_S256x128).lift (ix2 p h) n = ix3 p n h :=
  funext fun a => Fin.ext (by match a with | ⟨0, _⟩ => rfl | ⟨1, _⟩ => rfl | ⟨2, _⟩ => rfl)

/-- Summing a `[256, 64, 128]` array over its last axis appends the summation index to the two kept coordinates. -/
theorem lift_last (p : Fin 256) (n : Fin 64) (h : Fin 128) :
    (reduces_S256x64x128_S256x64).lift (ix2 p n) h = ix3 p n h :=
  funext fun a => Fin.ext (by match a with | ⟨0, _⟩ => rfl | ⟨1, _⟩ => rfl | ⟨2, _⟩ => rfl)

/-- The mean embedding the body computes: at `(p, h)` the sum over the 64 neighbours of block row `p`'s embeddings' feature
    `h`, divided by the word of 64. -/
theorem embMean_apply (h3 : ∀ h, x3 (ix2 (0 : Fin 1) h) = W.we0 h) (h4 : ∀ h, x4 (ix2 (0 : Fin 1) h) = W.we1 h)
    (h5 : ∀ h, x5 (ix1 h) = W.be h) (p : Fin 256) (h : Fin 128) :
    k0_pay4 x1 x2 x3 x4 x5 (ix2 p h) = embMean W (fun n => x1 (ix2 p n)) (fun n => x2 (ix2 p n)) h := by
  unfold k0_pay4 embMean
  dsimp only
  rw [divf_apply, broadcast_apply]
  refine congrArg (Ideal.div · _) ?_
  refine (Ideal.multiReduction_add_single _ _ _ _ _ (ix2 p h)).trans ?_
  refine Finset.sum_congr rfl fun n _ => ?_
  exact (congrArg (k0_pay3 x1 x2 x3 x4 x5) (lift_middle p h n)).trans (emb_apply W x1 x2 x3 x4 x5 h3 h4 h5 p n h)

variable (x8 : Vec Ideal S1x128 .f32)

/-- The embedding times the score's linear form on it: at `(p, n, h)`, feature `h` of the embedding times the form's
    coefficient `h`. -/
theorem embForm_apply (h3 : ∀ h, x3 (ix2 (0 : Fin 1) h) = W.we0 h) (h4 : ∀ h, x4 (ix2 (0 : Fin 1) h) = W.we1 h)
    (h5 : ∀ h, x5 (ix1 h) = W.be h) (h8 : ∀ h, x8 (ix2 (0 : Fin 1) h) = W.wae h) (p : Fin 256) (n : Fin 64) (h : Fin 128) :
    k0_pay7 x1 x2 x3 x4 x5 x8 (ix3 p n h)
      = emb W (fun n => x1 (ix2 p n)) (fun n => x2 (ix2 p n)) n h * W.wae h := by
  unfold k0_pay7
  rw [mulf_apply, fibreVector_apply, shapeCast_1a_a_apply, h8]
  exact congrArg (· * W.wae h) (emb_apply W x1 x2 x3 x4 x5 h3 h4 h5 p n h)

/-- The score's linear form on the mean embedding, read off its one-row block. -/
theorem meanForm_apply (x9 : Vec Ideal S1x128 .f32) (h9 : ∀ h, x9 (ix2 (0 : Fin 1) h) = W.wam h) (h : Fin 128) :
    k0_pay5 x9 (ix1 h) = W.wam h := by
  unfold k0_pay5
  rw [shapeCast_1a_a_apply, h9]

/-- The score's bias, the one entry of its block. -/
theorem scoreBias_eq (x10 : Vec Ideal S1 .f32) (h10 : x10 (ix1 (0 : Fin 1)) = W.ba) : k0_pay6 x10 = W.ba := by
  unfold k0_pay6 extractAt
  dsimp only
  rw [← h10]
  exact congrArg x10 (funext fun a => Fin.ext (by match a with | ⟨0, _⟩ => rfl))

/-! # The attention stage -/

/-! ## The stage's pieces as the body writes them -/

/-- The scores: the lane sum of the embedding times the score's form, plus the column of the mean embedding's form summed
    along the features, plus the bias, rectified. -/
def scoreVec (v29 : FVec Ideal S256x128 .f32) (v33 : FVec Ideal S128 .f32) (v35 : Ideal .f32)
    (v38 : FVec Ideal S256x64x128 .f32) : FVec Ideal S256x64 .f32 :=
  maximumf
    (addf
      (addf (multiReduction (F := Ideal) .add [2] S256x64 v38 0x00000000#32 reduces_S256x64x128_S256x64 (.inl rfl) rfl)
        (broadcastTo S256x64
          (shapeCast S256x1
            (multiReduction (F := Ideal) .add [1] S256
              (mulf v29 (broadcastTo S256x128 (shapeCast S1x128 v33 shapeCasts_S128_S1x128) broadcasts_S1x128_S256x128))
              0x00000000#32 reduces_S256x128_S256 (.inl rfl) rfl)
            shapeCasts_S256_S256x1)
          broadcasts_S256x1_S256x64))
      (broadcast S256x64 v35))
    (broadcast S256x64 (Scalar.ofBits (F := Ideal) .f32 0x00000000#32))

/-- The exponentials of the scores' distances below each row's largest score. -/
def expVec (sc : FVec Ideal S256x64 .f32) : FVec Ideal S256x64 .f32 :=
  exp (subf sc
    (broadcastTo S256x64
      (shapeCast S256x1 (multiReduction (F := Ideal) .maximumf [1] S256 sc 0xFF800000#32 reduces_S256x64_S256 (.inl rfl) rfl)
        shapeCasts_S256_S256x1)
      broadcasts_S256x1_S256x64))

/-- The softmax weights: each exponential divided by its row's sum of exponentials. -/
def attnVec (sc : FVec Ideal S256x64 .f32) : FVec Ideal S256x64 .f32 :=
  divf (expVec sc)
    (broadcastTo S256x64
      (shapeCast S256x1 (multiReduction (F := Ideal) .add [1] S256 (expVec sc) 0x00000000#32 reduces_S256x64_S256 (.inl rfl) rfl)
        shapeCasts_S256_S256x1)
      broadcasts_S256x1_S256x64)

/-- The hidden layer: the embeddings, flattened to `16384` rows, times the layer's matrix, unflattened, plus the bias,
    rectified. -/
def hiddenVec (v26 : FVec Ideal S256x64x128 .f32) (x6 : Vec Ideal S128x128 .f32) (x7 : Vec Ideal S128 .f32) :
    FVec Ideal S256x64x128 .f32 :=
  maximumf
    (addf
      (shapeCast S256x64x128
        (matmul dot_S16384x128_S128x128_S16384x128_1_0_0_1_n_n none
          (truncf .bf16 (shapeCast S16384x128 v26 shapeCasts_S256x64x128_S16384x128) bitsLt_bf16_f32)
          (truncf .bf16 (shapeCast S128x128 x6 shapeCasts_S128x128_S128x128) bitsLt_bf16_f32)
          (constant (F := Ideal) S16384x128 .f32 0x00000000#32))
        shapeCasts_S16384x128_S256x64x128)
      (broadcastTo S256x64x128 (shapeCast S1x1x128 x7 shapeCasts_S128_S1x1x128) broadcasts_S1x1x128_S256x64x128))
    (broadcast S256x64x128 (Scalar.ofBits (F := Ideal) .f32 0x00000000#32))

/-- The stage is these pieces put together: the weights laid along the features, times the hidden layer, summed over the
    neighbours and divided by the word of 64. -/
theorem pay8_eq (v26 : FVec Ideal S256x64x128 .f32) (v29 : FVec Ideal S256x128 .f32) (v33 : FVec Ideal S128 .f32)
    (v35 : Ideal .f32) (v38 : FVec Ideal S256x64x128 .f32) (x6 : Vec Ideal S128x128 .f32) (x7 : Vec Ideal S128 .f32) :
    k0_pay8 v26 v29 v33 v35 v38 x6 x7
      = divf
          (multiReduction (F := Ideal) .add [1] S256x128
            (mulf
              (broadcastTo S256x64x128 (shapeCast S256x64x1 (attnVec (scoreVec v29 v33 v35 v38)) shapeCasts_S256x64_S256x64x1)
                broadcasts_S256x64x1_S256x64x128)
              (hiddenVec v26 x6 x7))
            0x00000000#32 reduces_S256x64x128_S256x128 (.inl rfl) rfl)
          (broadcast S256x128 (Scalar.ofBits (F := Ideal) .f32 0x42800000#32)) := rfl

/-! ## The pieces read at coordinates -/

section Attention

variable (u v : Fin 64 → EReal) (p : Fin 256)

/-- Summing a `[256, 128]` matrix along its columns appends the summation index to the row. -/
theorem lift_cols128 (p : Fin 256) (h : Fin 128) : (reduces_S256x128_S256).lift (ix1 p) h = ix2 p h :=
  funext fun a => Fin.ext (by match a with | ⟨0, _⟩ => rfl | ⟨1, _⟩ => rfl)

/-- Reducing a `[256, 64]` matrix along its columns appends the reduction index to the row. -/
theorem lift_cols64 (p : Fin 256) (n : Fin 64) : (reduces_S256x64_S256).lift (ix1 p) n = ix2 p n :=
  funext fun a => Fin.ext (by match a with | ⟨0, _⟩ => rfl | ⟨1, _⟩ => rfl)

/-- The scores of block row `p`: when the inputs of the stage hold, on row `p`, the mean embedding, the embedding times
    the score's form, and the form on the mean embedding and the bias, entry `(p, n)` is neighbour `n`'s score. -/
theorem scoreVec_apply (v29 : FVec Ideal S256x128 .f32) (v33 : FVec Ideal S128 .f32) (v35 : Ideal .f32)
    (v38 : FVec Ideal S256x64x128 .f32) (h29 : ∀ h, v29 (ix2 p h) = embMean W u v h) (h33 : ∀ h, v33 (ix1 h) = W.wam h)
    (h35 : v35 = W.ba) (h38 : ∀ n h, v38 (ix3 p n h) = emb W u v n h * W.wae h) (n : Fin 64) :
    scoreVec v29 v33 v35 v38 (ix2 p n) = score W u v n := by
  unfold scoreVec score
  rw [maximumf_apply, addf_apply, addf_apply, broadcast_apply, broadcast_apply, columnVector_apply, h35]
  refine congrArg (max · _) (congrArg (· + W.ba) (congrArg₂ (· + ·) ?_ ?_))
  · refine (Ideal.multiReduction_add_single _ _ _ _ _ (ix2 p n)).trans (Finset.sum_congr rfl fun (h : Fin 128) _ => ?_)
    exact (congrArg v38 (lift_last p n h)).trans (h38 n h)
  · refine (Ideal.multiReduction_add_single _ _ _ _ _ (ix1 p)).trans (Finset.sum_congr rfl fun (h : Fin 128) _ => ?_)
    refine (congrArg (mulf v29 _) (lift_cols128 p h)).trans ?_
    exact congrArg₂ (· * ·) (h29 h) ((Cert.DenseRows.rowBias_cast_apply v33 _ _ p h).trans (h33 h))

/-- The exponentials of block row `p`: for scores `S` on that row, entry `(p, n)` is the exponential of `S n` minus the
    fold of `max` over the row from the word of minus infinity. -/
theorem expVec_apply (sc : FVec Ideal S256x64 .f32) (S : Fin 64 → EReal) (hsc : ∀ n, sc (ix2 p n) = S n) (n : Fin 64) :
    expVec sc (ix2 p n) = Ideal.exp (S n - (Finset.univ : Finset (Fin 64)).fold max negInfW S) := by
  unfold expVec
  show Ideal.exp (sc (ix2 p n) - _) = _
  rw [columnVector_apply, hsc]
  refine congrArg (fun z => Ideal.exp (S n - z)) ?_
  refine (Ideal.multiReduction_maximumf_single _ _ _ _ _ (ix1 p)).trans ?_
  have e : (sc ∘ (reduces_S256x64_S256).lift (ix1 p)) = S :=
    funext fun n' => (congrArg sc (lift_cols64 p n')).trans (hsc n')
  rw [e]
  rfl

/-- The softmax weights of block row `p`: each exponential over the row's sum of exponentials. -/
theorem attnVec_apply (sc : FVec Ideal S256x64 .f32) (S : Fin 64 → EReal) (hsc : ∀ n, sc (ix2 p n) = S n) (n : Fin 64) :
    attnVec sc (ix2 p n)
      = Ideal.div (Ideal.exp (S n - (Finset.univ : Finset (Fin 64)).fold max negInfW S))
          (∑ n' : Fin 64, Ideal.exp (S n' - (Finset.univ : Finset (Fin 64)).fold max negInfW S)) := by
  unfold attnVec
  rw [divf_apply, columnVector_apply, expVec_apply p sc S hsc n]
  refine congrArg (Ideal.div _ ·) ?_
  refine (Ideal.multiReduction_add_single _ _ _ _ _ (ix1 p)).trans (Finset.sum_congr rfl fun (n' : Fin 64) _ => ?_)
  exact (congrArg (expVec sc) (lift_cols64 p n')).trans (expVec_apply p sc S hsc n')

/-- The hidden layer's matrix product keeps the left operand's row. -/
theorem hiddenDot_lhs0 (j : S16384x128.Idx) (k : dot_S16384x128_S128x128_S16384x128_1_0_0_1_n_n.contr.Idx) :
    (dot_S16384x128_S128x128_S16384x128_1_0_0_1_n_n.lhsIdx j k (0 : Fin 2)).val = (j (0 : Fin 2)).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl

/-- … and the right operand's column. -/
theorem hiddenDot_rhs1 (j : S16384x128.Idx) (k : dot_S16384x128_S128x128_S16384x128_1_0_0_1_n_n.contr.Idx) :
    (dot_S16384x128_S128x128_S16384x128_1_0_0_1_n_n.rhsIdx j k (1 : Fin 2)).val = (j (1 : Fin 2)).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The hidden layer of block row `p`: the flattened array's row `64·p + n` is neighbour `n`'s embedding, so entry
    `(p, n, o)` is feature `o` of neighbour `n`'s hidden layer, the layer's block being the transpose of its matrix. -/
theorem hiddenVec_apply (v26 : FVec Ideal S256x64x128 .f32) (x6 : Vec Ideal S128x128 .f32) (x7 : Vec Ideal S128 .f32)
    (h26 : ∀ n k, v26 (ix3 p n k) = emb W u v n k) (h6 : ∀ k o, x6 (ix2 k o) = W.wh o k) (h7 : ∀ o, x7 (ix1 o) = W.bh o)
    (n : Fin 64) (o : Fin 128) : hiddenVec v26 x6 x7 (ix3 p n o) = NeighbourNet.hidden W u v n o := by
  unfold hiddenVec NeighbourNet.hidden
  rw [maximumf_apply, addf_apply, broadcast_apply, fibreVector_apply, h7]
  refine congrArg (max · _) (congrArg (· + W.bh o) ?_)
  refine (shapeCast_flat_abc_apply _ _ p n o
    (⟨p.val * 64 + n.val, by have := p.isLt; have := n.isLt; omega⟩ : Fin 16384) rfl).trans ?_
  refine (Cert.DenseRows.matmul_zero_plain_apply dot_S16384x128_S128x128_S16384x128_1_0_0_1_n_n rfl rfl rfl rfl
    hiddenDot_lhs0 hiddenDot_rhs1 _ _ _ o).trans (Finset.sum_congr rfl fun (k : Fin 128) _ => ?_)
  rw [truncf_apply, truncf_apply, shapeCast_abc_flat_apply _ _ p n k _ rfl, shapeCast_self, h26, h6]

/-- The averaged weighted hidden features of block row `p`. -/
theorem feature_apply (v26 : FVec Ideal S256x64x128 .f32) (v29 : FVec Ideal S256x128 .f32) (v33 : FVec Ideal S128 .f32)
    (v35 : Ideal .f32) (v38 : FVec Ideal S256x64x128 .f32) (x6 : Vec Ideal S128x128 .f32) (x7 : Vec Ideal S128 .f32)
    (h26 : ∀ n k, v26 (ix3 p n k) = emb W u v n k) (h29 : ∀ h, v29 (ix2 p h) = embMean W u v h)
    (h33 : ∀ h, v33 (ix1 h) = W.wam h) (h35 : v35 = W.ba) (h38 : ∀ n h, v38 (ix3 p n h) = emb W u v n h * W.wae h)
    (h6 : ∀ k o, x6 (ix2 k o) = W.wh o k) (h7 : ∀ o, x7 (ix1 o) = W.bh o) (h : Fin 128) :
    k0_pay8 v26 v29 v33 v35 v38 x6 x7 (ix2 p h) = feature W u v h := by
  rw [pay8_eq]
  unfold feature
  rw [divf_apply, broadcast_apply]
  refine congrArg (Ideal.div · _) ?_
  refine (Ideal.multiReduction_add_single _ _ _ _ _ (ix2 p h)).trans (Finset.sum_congr rfl fun (n : Fin 64) _ => ?_)
  refine (congrArg (mulf _ _) (lift_middle p h n)).trans ?_
  exact congrArg₂ (· * ·)
    ((alongThird_apply _ _ _ p n h).trans
      (attnVec_apply p _ (score W u v) (scoreVec_apply W u v p v29 v33 v35 v38 h29 h33 h35 h38) n))
    (hiddenVec_apply W u v p v26 x6 x7 h26 h6 h7 n h)

end Attention

/-! ## The reads that change nothing

A cast to the same shape is the identity, and so is a change of float format over the extended reals. -/

theorem stateBlock_read (x0 : Vec Ideal S256x5 .f32) (i : S256x5.Idx) : k0_pay2 x0 i = x0 i := by
  unfold k0_pay2; rw [shapeCast_self]

theorem w2aBlock_read (x11 : Vec Ideal S5x128 .f32) (i : S5x128.Idx) : k0_pay9 x11 i = x11 i := by
  unfold k0_pay9; rw [truncf_apply, shapeCast_self]

theorem w2bBlock_read (x12 : Vec Ideal S128x128 .f32) (i : S128x128.Idx) : k0_pay10 x12 i = x12 i := by
  unfold k0_pay10; rw [shapeCast_self]

theorem wp1Block_read (x18 : Vec Ideal S128x256 .f32) (i : S128x256.Idx) : k0_pay13 x18 i = x18 i := by
  unfold k0_pay13; rw [truncf_apply, shapeCast_self]

theorem wp2Block_read (x20 : Vec Ideal S256x2 .f32) (i : S256x2.Idx) : k0_pay14 x20 i = x20 i := by
  unfold k0_pay14; rw [truncf_apply, shapeCast_self]

end Cert.KernelIdeal.Payload

end
-- ==== Proof.PayloadHeads.lean ====
/-
  The kernel body's trunk layer and two heads on one block of 256 rows, read at coordinates.

  Every layer is a plain product of a block of rows with a parameter matrix, accumulated from zero, plus a bias vector
  laid along every row; the trunk and the heads' hidden layers are then rectified. Changes of number format are the
  identity on extended reals, so the narrowed operands of each product are the operands themselves. At (p, h) the trunk
  is the rectified sum of the state coordinates' part, the averaged features' part and the bias; the value is the value
  head's affine map of its rectified hidden layer on the trunk; an action mean is the action head's on the trunk.
-/
import proofs.«128013_j39324720562723_2_alg».proof.Proof.Gen.KernelIdeal.Skeleton
import proofs.«128013_j39324720562723_2_alg».proof.Proof.Spec
import proofs.«128013_j39324720562723_2_alg».proof.Proof.LibDenseRows

noncomputable section

namespace Cert.KernelIdeal.Payload

open Idealize.ShloMosaic Idealize.ShloMosaic.ValueIdx Cert.KernelIdeal Cert.KernelIdeal.Gen Cert.NeighbourNet
open scoped BigOperators

/-! ## The five products, each at (r, c) as a sum over the contracted coordinate -/

/-- The state coordinates' part of the trunk: 256 rows of 5 coordinates times a 5 by 128 matrix. -/
theorem contract_5_into_128 {φ₁ φ₂ : FTy} (A : FVec Ideal S256x5 φ₁) (B : FVec Ideal S5x128 φ₂) (r : Fin 256) (c : Fin 128) :
    matmul dot_S256x5_S5x128_S256x128_1_0_0_1_n_n none A B (constant (F := Ideal) S256x128 .f32 0x00000000#32) (ix2 r c)
      = ∑ k : Fin 5, A (ix2 r k) * B (ix2 k c) :=
  Cert.DenseRows.matmul_zero_plain_apply dot_S256x5_S5x128_S256x128_1_0_0_1_n_n rfl rfl rfl rfl
    (fun j k => by
      unfold DotDims.lhsIdx
      rw [dif_neg (show ¬(0 : Fin S256x5.rank) ∈ dot_S256x5_S5x128_S256x128_1_0_0_1_n_n.lhsBatch by decide),
        dif_pos (show (0 : Fin S256x5.rank) ∈ dot_S256x5_S5x128_S256x128_1_0_0_1_n_n.lhsNonContracting by decide)]
      rfl)
    (fun j k => by
      unfold DotDims.rhsIdx
      rw [dif_neg (show ¬(1 : Fin S5x128.rank) ∈ dot_S256x5_S5x128_S256x128_1_0_0_1_n_n.rhsBatch by decide),
        dif_pos (show (1 : Fin S5x128.rank) ∈ dot_S256x5_S5x128_S256x128_1_0_0_1_n_n.rhsNonContracting by decide)]
      rfl)
    A B r c

/-- The averaged features' part of the trunk: 256 rows of 128 features times a 128 by 128 matrix. -/
theorem contract_128_into_128 {φ₁ φ₂ : FTy} (A : FVec Ideal S256x128 φ₁) (B : FVec Ideal S128x128 φ₂) (r : Fin 256) (c : Fin 128) :
    matmul dot_S256x128_S128x128_S256x128_1_0_0_1_n_n none A B (constant (F := Ideal) S256x128 .f32 0x00000000#32) (ix2 r c)
      = ∑ k : Fin 128, A (ix2 r k) * B (ix2 k c) :=
  Cert.DenseRows.matmul_zero_plain_apply dot_S256x128_S128x128_S256x128_1_0_0_1_n_n rfl rfl rfl rfl
    (fun j k => by
      unfold DotDims.lhsIdx
      rw [dif_neg (show ¬(0 : Fin S256x128.rank) ∈ dot_S256x128_S128x128_S256x128_1_0_0_1_n_n.lhsBatch by decide),
        dif_pos (show (0 : Fin S256x128.rank) ∈ dot_S256x128_S128x128_S256x128_1_0_0_1_n_n.lhsNonContracting by decide)]
      rfl)
    (fun j k => by
      unfold DotDims.rhsIdx
      rw [dif_neg (show ¬(1 : Fin S128x128.rank) ∈ dot_S256x128_S128x128_S256x128_1_0_0_1_n_n.rhsBatch by decide),
        dif_pos (show (1 : Fin S128x128.rank) ∈ dot_S256x128_S128x128_S256x128_1_0_0_1_n_n.rhsNonContracting by decide)]
      rfl)
    A B r c

/-- A head's hidden layer: 256 trunk rows of 128 features times a 128 by 256 matrix. -/
theorem contract_128_into_256 {φ₁ φ₂ : FTy} (A : FVec Ideal S256x128 φ₁) (B : FVec Ideal S128x256 φ₂) (r : Fin 256) (c : Fin 256) :
    matmul dot_S256x128_S128x256_S256x256_1_0_0_1_n_n none A B (constant (F := Ideal) S256x256 .f32 0x00000000#32) (ix2 r c)
      = ∑ k : Fin 128, A (ix2 r k) * B (ix2 k c) :=
  Cert.DenseRows.matmul_zero_plain_apply dot_S256x128_S128x256_S256x256_1_0_0_1_n_n rfl rfl rfl rfl
    (fun j k => by
      unfold DotDims.lhsIdx
      rw [dif_neg (show ¬(0 : Fin S256x128.rank) ∈ dot_S256x128_S128x256_S256x256_1_0_0_1_n_n.lhsBatch by decide),
        dif_pos (show (0 : Fin S256x128.rank) ∈ dot_S256x128_S128x256_S256x256_1_0_0_1_n_n.lhsNonContracting by decide)]
      rfl)
    (fun j k => by
      unfold DotDims.rhsIdx
      rw [dif_neg (show ¬(1 : Fin S128x256.rank) ∈ dot_S256x128_S128x256_S256x256_1_0_0_1_n_n.rhsBatch by decide),
        dif_pos (show (1 : Fin S128x256.rank) ∈ dot_S256x128_S128x256_S256x256_1_0_0_1_n_n.rhsNonContracting by decide)]
      rfl)
    A B r c

/-- The value head's output: 256 hidden rows of 256 units times a 256 by 1 matrix. -/
theorem contract_256_into_1 {φ₁ φ₂ : FTy} (A : FVec Ideal S256x256 φ₁) (B : FVec Ideal S256x1 φ₂) (r : Fin 256) (c : Fin 1) :
    matmul dot_S256x256_S256x1_S256x1_1_0_0_1_n_n none A B (constant (F := Ideal) S256x1 .f32 0x00000000#32) (ix2 r c)
      = ∑ k : Fin 256, A (ix2 r k) * B (ix2 k c) :=
  Cert.DenseRows.matmul_zero_plain_apply dot_S256x256_S256x1_S256x1_1_0_0_1_n_n rfl rfl rfl rfl
    (fun j k => by
      unfold DotDims.lhsIdx
      rw [dif_neg (show ¬(0 : Fin S256x256.rank) ∈ dot_S256x256_S256x1_S256x1_1_0_0_1_n_n.lhsBatch by decide),
        dif_pos (show (0 : Fin S256x256.rank) ∈ dot_S256x256_S256x1_S256x1_1_0_0_1_n_n.lhsNonContracting by decide)]
      rfl)
    (fun j k => by
      unfold DotDims.rhsIdx
      rw [dif_neg (show ¬(1 : Fin S256x1.rank) ∈ dot_S256x256_S256x1_S256x1_1_0_0_1_n_n.rhsBatch by decide),
        dif_pos (show (1 : Fin S256x1.rank) ∈ dot_S256x256_S256x1_S256x1_1_0_0_1_n_n.rhsNonContracting by decide)]
      rfl)
    A B r c

/-- The action head's output: 256 hidden rows of 256 units times a 256 by 2 matrix. -/
theorem contract_256_into_2 {φ₁ φ₂ : FTy} (A : FVec Ideal S256x256 φ₁) (B : FVec Ideal S256x2 φ₂) (r : Fin 256) (c : Fin 2) :
    matmul dot_S256x256_S256x2_S256x2_1_0_0_1_n_n none A B (constant (F := Ideal) S256x2 .f32 0x00000000#32) (ix2 r c)
      = ∑ k : Fin 256, A (ix2 r k) * B (ix2 k c) :=
  Cert.DenseRows.matmul_zero_plain_apply dot_S256x256_S256x2_S256x2_1_0_0_1_n_n rfl rfl rfl rfl
    (fun j k => by
      unfold DotDims.lhsIdx
      rw [dif_neg (show ¬(0 : Fin S256x256.rank) ∈ dot_S256x256_S256x2_S256x2_1_0_0_1_n_n.lhsBatch by decide),
        dif_pos (show (0 : Fin S256x256.rank) ∈ dot_S256x256_S256x2_S256x2_1_0_0_1_n_n.lhsNonContracting by decide)]
      rfl)
    (fun j k => by
      unfold DotDims.rhsIdx
      rw [dif_neg (show ¬(1 : Fin S256x2.rank) ∈ dot_S256x256_S256x2_S256x2_1_0_0_1_n_n.rhsBatch by decide),
        dif_pos (show (1 : Fin S256x2.rank) ∈ dot_S256x256_S256x2_S256x2_1_0_0_1_n_n.rhsNonContracting by decide)]
      rfl)
    A B r c

/-! ## The trunk layer -/

/-- Feature h of block row p's trunk: the rectified sum of the state coordinates' part, the averaged features' part and
    the bias, for the row's state coordinates s, its averaged features f and the parameters the blocks hold. -/
theorem trunk_apply (W : Weights) (s : Fin 5 → EReal) (f : Fin 128 → EReal) (v1 : FVec Ideal S256x5 .f32)
    (v78 : FVec Ideal S256x128 .f32) (v81 : FVec Ideal S5x128 .bf16) (v83 : FVec Ideal S128x128 .f32)
    (x13 : Vec Ideal S128 .f32) (p : Fin 256)
    (h1 : ∀ k, v1 (ix2 p k) = s k) (h78 : ∀ k, v78 (ix2 p k) = f k)
    (h81 : ∀ (k : Fin 5) (h : Fin 128), v81 (ix2 k h) = W.w2a h k)
    (h83 : ∀ k h : Fin 128, v83 (ix2 k h) = W.w2b h k) (h13 : ∀ h, x13 (ix1 h) = W.b2 h) (h : Fin 128) :
    k0_pay11 v1 v78 v81 v83 x13 (ix2 p h) = trunkOf W s f h := by
  unfold k0_pay11 trunkOf
  rw [truncf_apply, maximumf_apply, addf_apply, addf_apply, broadcast_apply]
  refine congrArg₂ max (congrArg₂ (· + ·) (congrArg₂ (· + ·) ?_ ?_) ?_) rfl
  · refine (contract_5_into_128 _ _ p h).trans (Finset.sum_congr rfl fun k _ => ?_)
    rw [truncf_apply, h1, h81]
  · refine (contract_128_into_128 _ _ p h).trans (Finset.sum_congr rfl fun k _ => ?_)
    rw [truncf_apply, truncf_apply, h78, h83]
  · exact (Cert.DenseRows.rowBias_cast_apply x13 _ _ p h).trans (h13 h)

/-! ## The value head -/

/-- Block row p's value: the value head's affine map of its rectified hidden layer on the row's trunk. -/
theorem value_apply (W : Weights) (s : Fin 5 → EReal) (f : Fin 128 → EReal) (v1 : FVec Ideal S256x5 .f32)
    (v78 : FVec Ideal S256x128 .f32) (v81 : FVec Ideal S5x128 .bf16) (v83 : FVec Ideal S128x128 .f32)
    (x13 : Vec Ideal S128 .f32) (p : Fin 256)
    (h1 : ∀ k, v1 (ix2 p k) = s k) (h78 : ∀ k, v78 (ix2 p k) = f k)
    (h81 : ∀ (k : Fin 5) (h : Fin 128), v81 (ix2 k h) = W.w2a h k)
    (h83 : ∀ k h : Fin 128, v83 (ix2 k h) = W.w2b h k) (h13 : ∀ h, x13 (ix1 h) = W.b2 h)
    (x14 : Vec Ideal S128x256 .f32) (x15 : Vec Ideal S256 .f32) (x16 : Vec Ideal S256x1 .f32) (x17 : Vec Ideal S1 .f32)
    (h14 : ∀ (k : Fin 128) (j : Fin 256), x14 (ix2 k j) = W.wc1 j k) (h15 : ∀ j, x15 (ix1 j) = W.bc1 j)
    (h16 : ∀ j, x16 (ix2 j (0 : Fin 1)) = W.wc2 j) (h17 : x17 (ix1 (0 : Fin 1)) = W.bc2) :
    k0_pay12 v1 v78 v81 v83 x13 x14 x15 x16 x17 (ix2 p (0 : Fin 1)) = valueOf W (trunkOf W s f) := by
  unfold k0_pay12 valueOf
  rw [addf_apply]
  refine congrArg₂ (· + ·) ?_ ?_
  · refine (contract_256_into_1 _ _ p 0).trans (Finset.sum_congr rfl fun j _ => ?_)
    rw [truncf_apply, truncf_apply, shapeCast_self, shapeCast_self, h16, maximumf_apply, addf_apply, broadcast_apply]
    unfold criticHiddenOf
    refine congrArg (· * W.wc2 j) (congrArg₂ max (congrArg₂ (· + ·) ?_ ?_) rfl)
    · refine (contract_128_into_256 _ _ p j).trans (Finset.sum_congr rfl fun k _ => ?_)
      rw [truncf_apply, h14, trunk_apply W s f v1 v78 v81 v83 x13 p h1 h78 h81 h83 h13 k]
    · exact (Cert.DenseRows.rowBias_cast_apply x15 _ _ p j).trans (h15 j)
  · exact (Cert.DenseRows.rowBias_cast_apply x17 _ _ p 0).trans h17

/-! ## The action head -/

/-- Action mean a of block row p: the action head's affine map of its rectified hidden layer on the row's trunk r. -/
theorem mean_apply (W : Weights) (r : Fin 128 → EReal) (v96 : FVec Ideal S256x128 .bf16) (v118 : FVec Ideal S128x256 .bf16)
    (x19 : Vec Ideal S256 .f32) (v122 : FVec Ideal S256x2 .bf16) (x21 : Vec Ideal S2 .f32) (p : Fin 256)
    (h96 : ∀ k, v96 (ix2 p k) = r k) (h118 : ∀ (k : Fin 128) (j : Fin 256), v118 (ix2 k j) = W.wp1 j k)
    (h19 : ∀ j, x19 (ix1 j) = W.bp1 j) (h122 : ∀ (j : Fin 256) (a : Fin 2), v122 (ix2 j a) = W.wp2 a j)
    (h21 : ∀ a, x21 (ix1 a) = W.bp2 a) (a : Fin 2) :
    k0_pay1 v96 v118 x19 v122 x21 (constant (F := Ideal) S256x256 .f32 0x00000000#32) (ix2 p a) = meanOf W r a := by
  unfold k0_pay1 meanOf
  rw [addf_apply]
  refine congrArg₂ (· + ·) ?_ ?_
  · refine (contract_256_into_2 _ _ p a).trans (Finset.sum_congr rfl fun j _ => ?_)
    rw [truncf_apply, h122, maximumf_apply, addf_apply, broadcast_apply]
    unfold actorHiddenOf
    refine congrArg (· * W.wp2 a j) (congrArg₂ max (congrArg₂ (· + ·) ?_ ?_) rfl)
    · refine (contract_128_into_256 _ _ p j).trans (Finset.sum_congr rfl fun k _ => ?_)
      rw [h96, h118]
    · exact (Cert.DenseRows.rowBias_cast_apply x19 _ _ p j).trans (h19 j)
  · exact (Cert.DenseRows.rowBias_cast_apply x21 _ _ p a).trans (h21 a)

/-! ## The reads that change nothing -/

/-- The state coordinates' block, cast to its own shape. -/
theorem pay2_eq (x0 : Vec Ideal S256x5 .f32) : k0_pay2 x0 = x0 := by
  unfold k0_pay2; exact shapeCast_self _ _

/-- The trunk's state-coordinate matrix, cast to its own shape and narrowed. -/
theorem pay9_apply (x11 : Vec Ideal S5x128 .f32) (i : S5x128.Idx) : k0_pay9 x11 i = x11 i := by
  unfold k0_pay9; rw [truncf_apply, shapeCast_self]

/-- The trunk's feature matrix, cast to its own shape. -/
theorem pay10_eq (x12 : Vec Ideal S128x128 .f32) : k0_pay10 x12 = x12 := by
  unfold k0_pay10; exact shapeCast_self _ _

/-- The action head's hidden matrix, cast to its own shape and narrowed. -/
theorem pay13_apply (x18 : Vec Ideal S128x256 .f32) (i : S128x256.Idx) : k0_pay13 x18 i = x18 i := by
  unfold k0_pay13; rw [truncf_apply, shapeCast_self]

/-- The action head's output matrix, cast to its own shape and narrowed. -/
theorem pay14_apply (x20 : Vec Ideal S256x2 .f32) (i : S256x2.Idx) : k0_pay14 x20 i = x20 i := by
  unfold k0_pay14; rw [truncf_apply, shapeCast_self]

end Cert.KernelIdeal.Payload

end
-- ==== Proof.PayloadBlocks.lean ====
/-
  The kernel body's two output blocks: with the parameter blocks holding the network's parameters, row `p` of the first
  is the action means, and of the second the value, of the row whose data is row `p` of the three data blocks. Each output
  block is written by one store over the whole block, so what the block holds is the stored value.
-/
import proofs.«128013_j39324720562723_2_alg».proof.Proof.Payload
import proofs.«128013_j39324720562723_2_alg».proof.Proof.PayloadHeads
import proofs.«128013_j39324720562723_2_alg».proof.Proof.PayloadSpec

noncomputable section

namespace Cert.KernelIdeal.Payload

open Idealize.ShloMosaic Idealize.ShloMosaic.ValueIdx Cert.KernelIdeal Cert.KernelIdeal.Gen Cert.NeighbourNet

/-- A rectangle's offsets over a matrix block are zero. -/
theorem off2_zero : (![0, 0] : Fin 2 → ℕ) = fun _ => 0 := funext fun a => by fin_cases a <;> rfl
/-- A rectangle's offset over a vector block is zero. -/
theorem off1_zero : (![0] : Fin 1 → ℕ) = fun _ => 0 := funext fun a => by fin_cases a; rfl

section
variable (W : Weights) (x0 : Vec Ideal S256x5 .f32) (x1 x2 : Vec Ideal S256x64 .f32) (x3 x4 : Vec Ideal S1x128 .f32) (x5 : Vec Ideal S128 .f32)
    (x6 : Vec Ideal S128x128 .f32) (x7 : Vec Ideal S128 .f32) (x8 x9 : Vec Ideal S1x128 .f32) (x10 : Vec Ideal S1 .f32)
    (x11 : Vec Ideal S5x128 .f32) (x12 : Vec Ideal S128x128 .f32) (x13 : Vec Ideal S128 .f32) (x14 : Vec Ideal S128x256 .f32)
    (x15 : Vec Ideal S256 .f32) (x16 : Vec Ideal S256x1 .f32) (x17 : Vec Ideal S1 .f32) (x18 : Vec Ideal S128x256 .f32)
    (x19 : Vec Ideal S256 .f32) (x20 : Vec Ideal S256x2 .f32) (x21 : Vec Ideal S2 .f32)
variable (hW : BlockReads W x3 x4 x5 x6 x7 x8 x9 x10 x11 x12 x13 x14 x15 x16 x17 x18 x19 x20 x21) (p : Fin 256)
include hW

/-- The averaged features the body feeds its trunk layer, on block row `p`. -/
theorem featureBlock (k : Fin 128) :
    k0_pay8 (k0_pay3 x1 x2 x3 x4 x5) (k0_pay4 x1 x2 x3 x4 x5) (k0_pay5 x9) (k0_pay6 x10) (k0_pay7 x1 x2 x3 x4 x5 x8) x6 x7 (ix2 p k)
      = feature W (fun n => x1 (ix2 p n)) (fun n => x2 (ix2 p n)) k :=
  feature_apply W (fun n => x1 (ix2 p n)) (fun n => x2 (ix2 p n)) p _ _ _ _ _ x6 x7
    (fun n k => emb_apply W x1 x2 x3 x4 x5 hW.we0 hW.we1 hW.be p n k)
    (fun h => embMean_apply W x1 x2 x3 x4 x5 hW.we0 hW.we1 hW.be p h)
    (fun h => meanForm_apply W x9 hW.wam h) (scoreBias_eq W x10 hW.ba)
    (fun n h => embForm_apply W x1 x2 x3 x4 x5 x8 hW.we0 hW.we1 hW.be hW.wae p n h) hW.wh hW.bh k

/-- The trunk the body feeds its two heads, on block row `p`. -/
theorem trunkBlock (h : Fin 128) :
    k0_pay11 (k0_pay2 x0)
        (k0_pay8 (k0_pay3 x1 x2 x3 x4 x5) (k0_pay4 x1 x2 x3 x4 x5) (k0_pay5 x9) (k0_pay6 x10) (k0_pay7 x1 x2 x3 x4 x5 x8) x6 x7)
        (k0_pay9 x11) (k0_pay10 x12) x13 (ix2 p h)
      = trunk W (fun k => x0 (ix2 p k)) (fun n => x1 (ix2 p n)) (fun n => x2 (ix2 p n)) h :=
  trunk_apply W (fun k => x0 (ix2 p k)) (feature W (fun n => x1 (ix2 p n)) (fun n => x2 (ix2 p n))) _ _ _ _ x13 p
    (fun k => stateBlock_read x0 _)
    (fun k => featureBlock W x1 x2 x3 x4 x5 x6 x7 x8 x9 x10 x11 x12 x13 x14 x15 x16 x17 x18 x19 x20 x21 hW p k)
    (fun k h => (w2aBlock_read x11 _).trans (hW.w2a k h)) (fun k h => (w2bBlock_read x12 _).trans (hW.w2b k h)) hW.b2 h

end

/-- The first output block holds the action means of its rows. -/
theorem meansBlock : MeansBlock := by
  intro W x0 x1 x2 x3 x4 x5 x6 x7 x8 x9 x10 x11 x12 x13 x14 x15 x16 x17 x18 x19 x20 x21 hW p a
  unfold out0_22
  rw [View.canon_unit_zero off2_zero]
  simp only [View.ld_unit_zero (S := S256x5) off2_zero,
    View.ld_unit_zero (S := S256x64) off2_zero,
    View.ld_unit_zero (S := S1x128) off2_zero,
    View.ld_unit_zero (S := S128x128) off2_zero,
    View.ld_unit_zero (S := S5x128) off2_zero,
    View.ld_unit_zero (S := S128x256) off2_zero,
    View.ld_unit_zero (S := S256x1) off2_zero,
    View.ld_unit_zero (S := S256x2) off2_zero,
    View.ld_unit_zero (S := S128) off1_zero,
    View.ld_unit_zero (S := S1) off1_zero,
    View.ld_unit_zero (S := S256) off1_zero,
    View.ld_unit_zero (S := S2) off1_zero]
  exact mean_apply W _ _ _ x19 _ x21 p
    (fun k => trunkBlock W x0 x1 x2 x3 x4 x5 x6 x7 x8 x9 x10 x11 x12 x13 x14 x15 x16 x17 x18 x19 x20 x21 hW p k)
    (fun k j => (wp1Block_read x18 _).trans (hW.wp1 k j)) hW.bp1
    (fun j a => (wp2Block_read x20 _).trans (hW.wp2 j a)) hW.bp2 a

/-- The second output block holds the values of its rows. -/
theorem valuesBlock : ValuesBlock := by
  intro W x0 x1 x2 x3 x4 x5 x6 x7 x8 x9 x10 x11 x12 x13 x14 x15 x16 x17 x18 x19 x20 x21 hW p
  unfold out0_23
  rw [View.canon_unit_zero off2_zero]
  simp only [View.ld_unit_zero (S := S256x5) off2_zero,
    View.ld_unit_zero (S := S256x64) off2_zero,
    View.ld_unit_zero (S := S1x128) off2_zero,
    View.ld_unit_zero (S := S128x128) off2_zero,
    View.ld_unit_zero (S := S5x128) off2_zero,
    View.ld_unit_zero (S := S128x256) off2_zero,
    View.ld_unit_zero (S := S256x1) off2_zero,
    View.ld_unit_zero (S := S256x2) off2_zero,
    View.ld_unit_zero (S := S128) off1_zero,
    View.ld_unit_zero (S := S1) off1_zero,
    View.ld_unit_zero (S := S256) off1_zero,
    View.ld_unit_zero (S := S2) off1_zero]
  exact value_apply W (fun k => x0 (ix2 p k)) (feature W (fun n => x1 (ix2 p n)) (fun n => x2 (ix2 p n))) _ _ _ _ x13 p
    (fun k => stateBlock_read x0 _)
    (fun k => featureBlock W x1 x2 x3 x4 x5 x6 x7 x8 x9 x10 x11 x12 x13 x14 x15 x16 x17 x18 x19 x20 x21 hW p k)
    (fun k h => (w2aBlock_read x11 _).trans (hW.w2a k h)) (fun k h => (w2bBlock_read x12 _).trans (hW.w2b k h)) hW.b2
    x14 x15 x16 x17 hW.wc1 hW.bc1 hW.wc2 hW.bc2

end Cert.KernelIdeal.Payload

end
-- ==== Proof.RefAttention.lean ====
/-
  The reference's attention stage, read one element at a time.

  For batch row b the reference embeds the 64 neighbours' pairs into 128 features, averages the embeddings over the
  neighbours, applies the hidden layer to every embedding, scores every neighbour from its embedding and the mean
  embedding, turns the scores into softmax weights (the largest score subtracted before the exponential), and averages
  the weighted hidden features over the neighbours. Each stage below is read at explicit coordinates and identified with
  the corresponding function of the specification; the last theorem is the averaged feature h of row b.

  Index arithmetic: element (b, n, d) of the neighbours' pairs is column 5 + 2 n + d of row b of the input, because the
  128 columns after the five state coordinates are split row-major into 64 pairs. A reduction from the zero word adds
  zero; the maximum folded from the minus-infinity word is at least that word, so taking the maximum with a splat of
  the same word changes nothing.
-/
import proofs.«128013_j39324720562723_2_alg».proof.Proof.RefReadP
import proofs.«128013_j39324720562723_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.TcCoe
open Idealize.SL.Sem Idealize.ShloMosaic.StableHlo Idealize.ShloMosaic.ValueIdx Cert.NeighbourNet
open scoped BigOperators

variable (x0 : (⟨S16384x133, .f32⟩ : BufTy).Contents (Elt Ideal)) (x1 : (⟨S128x2, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S1x256, .f32⟩ : BufTy).Contents (Elt Ideal))
  (x6 : (⟨S1, .f32⟩ : BufTy).Contents (Elt Ideal))

/-! ## The neighbours' pairs -/

/-- Element (b, n, 0) of the reshaped neighbours' block is column 5 + 2 n of row b. -/
theorem pair_fst (b : Fin 16384) (n : Fin 64) (h : Fin 128) :
    val_main_v2 (F := Ideal) x0 (lidx_main_v3 (ix3 b n h) (0 : Fin 2)) = nbxRow x0 b n := by
  rw [val_main_v2_apply, val_main_v1_apply]
  unfold nbxRow
  refine congrArg x0 (funext fun a => Fin.ext ?_)
  have hb := b.isLt; have hn := n.isLt
  match a with
  | ⟨0, _⟩ => show ((b.val * 64 + n.val) * 2 + 0) / 128 = b.val; omega
  | ⟨1, _⟩ => show 5 + ((b.val * 64 + n.val) * 2 + 0) % 128 = 5 + 2 * n.val; omega

/-- Element (b, n, 1) of the reshaped neighbours' block is column 5 + 2 n + 1 of row b. -/
theorem pair_snd (b : Fin 16384) (n : Fin 64) (h : Fin 128) :
    val_main_v2 (F := Ideal) x0 (lidx_main_v3 (ix3 b n h) (1 : Fin 2)) = nbyRow x0 b n := by
  rw [val_main_v2_apply, val_main_v1_apply]
  unfold nbyRow
  refine congrArg x0 (funext fun a => Fin.ext ?_)
  have hb := b.isLt; have hn := n.isLt
  match a with
  | ⟨0, _⟩ => show ((b.val * 64 + n.val) * 2 + 1) / 128 = b.val; omega
  | ⟨1, _⟩ => show 5 + ((b.val * 64 + n.val) * 2 + 1) % 128 = 5 + (2 * n.val + 1); omega

/-! ## The embedding and its mean -/

/-- The parameters the seven arrays of this stage determine; the remaining arrays only fill the other fields. -/
abbrev wts (x7 : (⟨2, ![128, 133]⟩ : Shape).Idx → EReal) (x8 : (⟨1, ![128]⟩ : Shape).Idx → EReal)
    (x9 : (⟨2, ![256, 128]⟩ : Shape).Idx → EReal) (x10 : (⟨1, ![256]⟩ : Shape).Idx → EReal)
    (x11 : (⟨2, ![1, 256]⟩ : Shape).Idx → EReal) (x12 : (⟨1, ![1]⟩ : Shape).Idx → EReal)
    (x13 : (⟨2, ![256, 128]⟩ : Shape).Idx → EReal) (x14 : (⟨1, ![256]⟩ : Shape).Idx → EReal)
    (x15 : (⟨2, ![2, 256]⟩ : Shape).Idx → EReal) (x16 : (⟨1, ![2]⟩ : Shape).Idx → EReal) : Weights :=
  ofArrays x1 x2 x3 x4 x5 x6 x7 x8 x9 x10 x11 x12 x13 x14 x15 x16

variable (x7 : (⟨2, ![128, 133]⟩ : Shape).Idx → EReal) (x8 : (⟨1, ![128]⟩ : Shape).Idx → EReal)
    (x9 : (⟨2, ![256, 128]⟩ : Shape).Idx → EReal) (x10 : (⟨1, ![256]⟩ : Shape).Idx → EReal)
    (x11 : (⟨2, ![1, 256]⟩ : Shape).Idx → EReal) (x12 : (⟨1, ![1]⟩ : Shape).Idx → EReal)
    (x13 : (⟨2, ![256, 128]⟩ : Shape).Idx → EReal) (x14 : (⟨1, ![256]⟩ : Shape).Idx → EReal)
    (x15 : (⟨2, ![2, 256]⟩ : Shape).Idx → EReal) (x16 : (⟨1, ![2]⟩ : Shape).Idx → EReal)

local notation "W" => wts x1 x2 x3 x4 x5 x6 x7 x8 x9 x10 x11 x12 x13 x14 x15 x16
local notation "u" => nbxRow x0
local notation "v" => nbyRow x0

/-- Feature h of neighbour n's embedding in row b: the pair's affine image, rectified. -/
theorem emb_eq (b : Fin 16384) (n : Fin 64) (h : Fin 128) :
    val_main_v7 (F := Ideal) x0 x1 x2 (ix3 b n h) = NeighbourNet.emb W (u b) (v b) n h := by
  rw [val_main_v7_apply, val_main_v6_apply, val_main_v3_apply, Fin.sum_univ_two, pair_fst, pair_snd,
    val_main_v5_apply, val_main_v4_apply, val_main_call0_v0_apply, val_main_call0_cst_apply]
  simp only [Ideal.maximumf_def, Ideal.addf_def, Ideal.ofBits_def]
  have e0 : ridx_main_v3 (ix3 b n h) (0 : Fin 2) = ix2 h (0 : Fin 2) :=
    funext fun a => by match a with | ⟨0, _⟩ => rfl | ⟨1, _⟩ => rfl
  have e1 : ridx_main_v3 (ix3 b n h) (1 : Fin 2) = ix2 h (1 : Fin 2) :=
    funext fun a => by match a with | ⟨0, _⟩ => rfl | ⟨1, _⟩ => rfl
  have e2 : idx_main_v4 (idx_main_v5 (ix3 b n h)) = ix1 h := funext fun a => by match a with | ⟨0, _⟩ => rfl
  rw [e0, e1, e2]
  rfl

/-- Feature h of row b's mean embedding: the sum over the neighbours from the zero word, divided by the word of 64. -/
theorem embMean_eq (b : Fin 16384) (o : Fin 1) (h : Fin 128) :
    val_main_v11 (F := Ideal) x0 x1 x2 (ix3 b o h) = NeighbourNet.embMean W (u b) (v b) h := by
  rw [val_main_v11_apply, val_main_v9_apply, val_main_v8_apply, val_main_v10_apply, val_main_cst_apply,
    val_main_cst_0_apply]
  simp only [Ideal.hostDivf_def, Ideal.ofBits_def, Ideal.ofBits_zero_f32, zero_add]
  unfold NeighbourNet.embMean
  refine congrArg (fun s => Ideal.div s nbCount) (Finset.sum_congr rfl fun k _ => ?_)
  rw [← emb_eq x0 x1 x2 x3 x4 x5 x6 x7 x8 x9 x10 x11 x12 x13 x14 x15 x16 b k h]
  exact congrArg _ (funext fun a => by match a with | ⟨0, _⟩ => rfl | ⟨1, _⟩ => rfl | ⟨2, _⟩ => rfl)

/-! ## The hidden layer -/

/-- Feature o of neighbour n's hidden layer in row b. -/
theorem hidden_eq (b : Fin 16384) (n : Fin 64) (o : Fin 128) :
    val_main_v16 (F := Ideal) x0 x1 x2 x3 x4 (ix3 b n o) = NeighbourNet.hidden W (u b) (v b) n o := by
  rw [val_main_v16_apply, val_main_v15_apply, val_main_v12_apply, val_main_v14_apply, val_main_v13_apply,
    val_main_call1_v0_apply, val_main_call1_cst_apply]
  have hl : ∀ k : Fin 128, lidx_main_v12 (ix3 b n o) k = ix3 b n k := fun k => funext fun a => by match a with | ⟨0, _⟩ => rfl | ⟨1, _⟩ => rfl | ⟨2, _⟩ => rfl
  have hr : ∀ k : Fin 128, ridx_main_v12 (ix3 b n o) k = ix2 o k := fun k => funext fun a => by match a with | ⟨0, _⟩ => rfl | ⟨1, _⟩ => rfl
  have hb : idx_main_v13 (idx_main_v14 (ix3 b n o)) = ix1 o := funext fun a => by match a with | ⟨0, _⟩ => rfl
  have hs : ∀ k : Fin 128, val_main_v7 (F := Ideal) x0 x1 x2 (lidx_main_v12 (ix3 b n o) k) * x3 (ridx_main_v12 (ix3 b n o) k)
      = emb W (u b) (v b) n k * (W).wh o k := fun k => by
    rw [hl k, hr k, emb_eq x0 x1 x2 x3 x4 x5 x6 x7 x8 x9 x10 x11 x12 x13 x14 x15 x16 b n k] <;> rfl
  rw [Finset.sum_congr rfl (fun k _ => hs k), hb]
  rfl

/-! ## The scores -/

/-- Neighbour n's score in row b: the form on its embedding, the form on the mean embedding, the bias, rectified. -/
theorem score_eq (b : Fin 16384) (n : Fin 64) (o : Fin 1) :
    val_main_v26 (F := Ideal) x0 x1 x2 x5 x6 (ix3 b n o) = NeighbourNet.score W (u b) (v b) n := by
  obtain rfl : o = 0 := Subsingleton.elim _ _
  rw [val_main_v26_apply, val_main_v25_apply, val_main_v22_apply, val_main_v19_apply, val_main_v21_apply,
    val_main_v20_apply, val_main_v24_apply, val_main_v23_apply, val_main_call2_v0_apply, val_main_call2_cst_apply]
  have hl1 : ∀ k : Fin 128, lidx_main_v19 (ix3 b n (0 : Fin 1)) k = ix3 b n k := fun k => funext fun a => by match a with | ⟨0, _⟩ => rfl | ⟨1, _⟩ => rfl | ⟨2, _⟩ => rfl
  have hr1 : ∀ k : Fin 128, idx_main_v17 (ridx_main_v19 (ix3 b n (0 : Fin 1)) k)
      = ix2 (0 : Fin 1) (⟨k.val, by have := k.isLt; omega⟩ : Fin 256) := fun k => funext fun a => by match a with | ⟨0, _⟩ => rfl | ⟨1, _⟩ => rfl
  have hl2 : ∀ k : Fin 128, lidx_main_v20 (idx_main_v21 (ix3 b n (0 : Fin 1))) k = ix3 b (0 : Fin 1) k :=
    fun k => funext fun a => by match a with | ⟨0, _⟩ => rfl | ⟨1, _⟩ => rfl | ⟨2, _⟩ => rfl
  have hr2 : ∀ k : Fin 128, idx_main_v18 (ridx_main_v20 (idx_main_v21 (ix3 b n (0 : Fin 1))) k)
      = ix2 (0 : Fin 1) (⟨128 + k.val, by have := k.isLt; omega⟩ : Fin 256) := fun k => funext fun a => by match a with | ⟨0, _⟩ => rfl | ⟨1, _⟩ => rfl
  have hb : idx_main_v23 (idx_main_v24 (ix3 b n (0 : Fin 1))) = ix1 (0 : Fin 1) := funext fun a => by match a with | ⟨0, _⟩ => rfl
  have hs1 : ∀ k : Fin 128, val_main_v7 (F := Ideal) x0 x1 x2 (lidx_main_v19 (ix3 b n (0 : Fin 1)) k)
        * val_main_v17 (F := Ideal) x5 (ridx_main_v19 (ix3 b n (0 : Fin 1)) k)
      = emb W (u b) (v b) n k * (W).wae k := fun k => by
    rw [val_main_v17_apply, hl1 k, hr1 k, emb_eq x0 x1 x2 x3 x4 x5 x6 x7 x8 x9 x10 x11 x12 x13 x14 x15 x16 b n k] <;> rfl
  have hs2 : ∀ k : Fin 128, val_main_v11 (F := Ideal) x0 x1 x2 (lidx_main_v20 (idx_main_v21 (ix3 b n (0 : Fin 1))) k)
        * val_main_v18 (F := Ideal) x5 (ridx_main_v20 (idx_main_v21 (ix3 b n (0 : Fin 1))) k)
      = embMean W (u b) (v b) k * (W).wam k := fun k => by
    rw [val_main_v18_apply, hl2 k, hr2 k, embMean_eq x0 x1 x2 x3 x4 x5 x6 x7 x8 x9 x10 x11 x12 x13 x14 x15 x16 b 0 k] <;> rfl
  rw [Finset.sum_congr rfl (fun k _ => hs1 k), Finset.sum_congr rfl (fun k _ => hs2 k), hb]
  rfl

/-- Row b's largest score: the fold of the maximum from the minus-infinity word over the neighbours; the further maximum
    with a splat of the same word changes nothing, a fold of the maximum being at least the value it starts from. -/
theorem scoreMax_eq (b : Fin 16384) (o : Fin 1) :
    val_main_v29 (F := Ideal) x0 x1 x2 x5 x6 (ix2 b o) = NeighbourNet.scoreMax W (u b) (v b) := by
  have hR : S16384x64x1.Reduces [1] S16384x1 := by decide
  have hf : (val_main_v26 (F := Ideal) x0 x1 x2 x5 x6 ∘ hR.lift (ix2 b o)) = NeighbourNet.score W (u b) (v b) :=
    funext fun (k : Fin 64) => by
      have e : hR.lift (ix2 b o) k = ix3 b k o := funext fun a => Fin.ext (by match a with | ⟨0, _⟩ => rfl | ⟨1, _⟩ => rfl | ⟨2, _⟩ => rfl)
      exact (congrArg (val_main_v26 (F := Ideal) x0 x1 x2 x5 x6) e).trans (score_eq x0 x1 x2 x3 x4 x5 x6 x7 x8 x9 x10 x11 x12 x13 x14 x15 x16 b k o)
  have h27 : val_main_v27 (F := Ideal) x0 x1 x2 x5 x6 (ix2 b o) = NeighbourNet.scoreMax W (u b) (v b) := by
    unfold val_main_v27
    rw [Host.reduce_eq_fold_single FloatOps.maximumf _ _ reducesTo_S16384x64x1_S16384x1_d1 hR h_S_ (ix2 b o), hf]
    rfl
  rw [val_main_v29_apply, val_main_v28_apply, val_main_cst_2_apply, h27]
  show max negInfW (NeighbourNet.scoreMax W (u b) (v b)) = _
  unfold NeighbourNet.scoreMax
  exact max_eq_right ((Finset.le_fold_max _).mpr (Or.inl le_rfl))

/-! ## The softmax weights -/

/-- The exponential of neighbour n's score less the largest score of row b. -/
theorem expScore_eq (b : Fin 16384) (n : Fin 64) (o : Fin 1) :
    val_main_v33 (F := Ideal) x0 x1 x2 x5 x6 (ix3 b n o) = NeighbourNet.expScore W (u b) (v b) n := by
  have e : idx_main_v30 (idx_main_v31 (ix3 b n o)) = ix2 b (0 : Fin 1) := funext fun a => by match a with | ⟨0, _⟩ => rfl | ⟨1, _⟩ => rfl
  rw [val_main_v33_apply, val_main_v32_apply, val_main_v31_apply, val_main_v30_apply,
    score_eq x0 x1 x2 x3 x4 x5 x6 x7 x8 x9 x10 x11 x12 x13 x14 x15 x16 b n o, e, scoreMax_eq x0 x1 x2 x3 x4 x5 x6 x7 x8 x9 x10 x11 x12 x13 x14 x15 x16 b 0]
  rfl

/-- Neighbour n's softmax weight in row b: its exponential over the sum of the exponentials from the zero word. -/
theorem attn_eq (b : Fin 16384) (n : Fin 64) (o : Fin 1) :
    val_main_v37 (F := Ideal) x0 x1 x2 x5 x6 (ix3 b n o) = NeighbourNet.attn W (u b) (v b) n := by
  have hk : ∀ k : Fin 64, val_main_v33 (F := Ideal) x0 x1 x2 x5 x6
      (idx_main_v34 (idx_main_v35 (idx_main_v36 (ix3 b n o))) k) = NeighbourNet.expScore W (u b) (v b) k := fun k => by
    have e : idx_main_v34 (idx_main_v35 (idx_main_v36 (ix3 b n o))) k = ix3 b k (0 : Fin 1) := funext fun a => by match a with | ⟨0, _⟩ => rfl | ⟨1, _⟩ => rfl | ⟨2, _⟩ => rfl
    rw [e, expScore_eq x0 x1 x2 x3 x4 x5 x6 x7 x8 x9 x10 x11 x12 x13 x14 x15 x16 b k 0]
  rw [val_main_v37_apply, val_main_v36_apply, val_main_v35_apply, val_main_v34_apply, val_main_cst_3_apply,
    expScore_eq x0 x1 x2 x3 x4 x5 x6 x7 x8 x9 x10 x11 x12 x13 x14 x15 x16 b n o, Finset.sum_congr rfl (fun k _ => hk k)]
  simp only [Ideal.hostDivf_def, Ideal.ofBits_def, Ideal.ofBits_zero_f32, zero_add]
  rfl

/-! ## The averaged weighted hidden features -/

/-- Feature h of row b: the weighted hidden features summed over the neighbours from the zero word, divided by the
    word of 64. -/
theorem feature_eq (b : Fin 16384) (h : Fin 128) :
    val_main_v42 (F := Ideal) x0 x1 x2 x3 x4 x5 x6 (ix2 b h)
      = NeighbourNet.feature (ofArrays x1 x2 x3 x4 x5 x6 x7 x8 x9 x10 x11 x12 x13 x14 x15 x16) (nbxRow x0 b) (nbyRow x0 b) h := by
  have hk : ∀ k : Fin 64, val_main_v39 (F := Ideal) x0 x1 x2 x3 x4 x5 x6 (idx_main_v40 (ix2 b h) k)
      = NeighbourNet.attn W (u b) (v b) k * NeighbourNet.hidden W (u b) (v b) k h := fun k => by
    have e1 : idx_main_v40 (ix2 b h) k = ix3 b k h := funext fun a => by match a with | ⟨0, _⟩ => rfl | ⟨1, _⟩ => rfl | ⟨2, _⟩ => rfl
    have e2 : idx_main_v38 (ix3 b k h) = ix3 b k (0 : Fin 1) := funext fun a => by match a with | ⟨0, _⟩ => rfl | ⟨1, _⟩ => rfl | ⟨2, _⟩ => rfl
    rw [e1, val_main_v39_apply, val_main_v38_apply, e2, attn_eq x0 x1 x2 x3 x4 x5 x6 x7 x8 x9 x10 x11 x12 x13 x14 x15 x16 b k 0, hidden_eq x0 x1 x2 x3 x4 x5 x6 x7 x8 x9 x10 x11 x12 x13 x14 x15 x16 b k h] <;> rfl
  rw [val_main_v42_apply, val_main_v40_apply, val_main_v41_apply, val_main_cst_4_apply, val_main_cst_5_apply,
    Finset.sum_congr rfl (fun k _ => hk k)]
  simp only [Ideal.hostDivf_def, Ideal.ofBits_def, Ideal.ofBits_zero_f32, zero_add]
  rfl

end Cert.ReferenceIdeal.RefValue

end
-- ==== Proof.RefHeads.lean ====
/-
  The reference's trunk layer, its two heads and the standard deviations, read at coordinates.

  The trunk is one rectified affine layer over a row's five state coordinates followed by its 128 averaged features: a
  contraction over 133 columns, split as 5 + 128. Each head is a rectified affine layer of width 256 followed by an affine
  map. Every layer's matrix is stored output feature first and transposed before the contraction, and every bias vector is
  laid along the batch rows. The standard deviations are the exponentials of a `[1, 2]` parameter row laid along every batch
  row.

  The layers are first read at a coordinate over arbitrary operands; the reference's stages are then instances.
-/
import proofs.«128013_j39324720562723_2_alg».proof.Proof.RefReadP
import proofs.«128013_j39324720562723_2_alg».proof.Proof.Spec
import proofs.«128013_j39324720562723_2_alg».proof.Proof.LibDenseRows
import Idealize.ShloMosaic.Lib.ValueIdx
import Idealize.ShloMosaic.Lib.Pipeline.Value
import Idealize.ShloMosaic.PureOps.Ideal
import Idealize.ShloMosaic.PureOps.Ideal.Laws

noncomputable section

namespace Cert.ReferenceIdeal.RefHeads

open Idealize.ShloMosaic Idealize.ShloMosaic.ValueIdx
open scoped BigOperators

/-! ## Indices from coordinates -/

/-- Two indices of a two-dimensional shape with the same coordinates are equal. -/
theorem idx2_ext {n0 n1 : ℕ} (i j : (⟨2, ![n0, n1]⟩ : Shape).Idx) (h0 : (i 0).val = (j 0).val) (h1 : (i 1).val = (j 1).val) :
    i = j :=
  funext fun a => Fin.ext (by
    match a with
    | ⟨0, _⟩ => exact h0
    | ⟨1, _⟩ => exact h1)

/-! ## One affine layer at a coordinate

  A layer's matrix is stored output feature first, `[N, K]`; the program transposes it to `[K, N]`, contracts the operand's
  columns with it, and adds the bias vector laid along every row. At `(r, c)` this is the sum over `k` of the operand's row
  `r` times the matrix's row `c`, plus the bias at `c`. -/

/-- A matrix `[N, K]` transposed to `[K, N]` reads, at `(k, c)`, the matrix at `(c, k)`. -/
theorem transpose_at {α : Type} {N K : ℕ} (Wt : (⟨2, ![N, K]⟩ : Shape).Idx → α)
    (ht : (⟨2, ![N, K]⟩ : Shape).Transposes [1, 0] ⟨2, ![K, N]⟩) (k : Fin K) (c : Fin N) :
    transpose ⟨2, ![K, N]⟩ [1, 0] Wt ht (ix2 k c) = Wt (ix2 c k) :=
  transpose_apply [1, 0] Wt ht (ix2 k c) (ix2 c k) (fun b => match b with
    | ⟨0, _⟩ => rfl
    | ⟨1, _⟩ => rfl)

/-- The contraction with the transposed matrix plus the bias, at `(r, c)`, when the operand's row `r` is `g`. -/
theorem affine_row {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ .f32) (Wt : FVec Ideal ⟨2, ![N, K]⟩ .f32)
    (ht : (⟨2, ![N, K]⟩ : Shape).Transposes [1, 0] ⟨2, ![K, N]⟩)
    (bias : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (r : Fin M) (g : Fin K → EReal) (hg : ∀ k : Fin K, A (ix2 r k) = g k) (c : Fin N) :
    addf (Host.dotGeneral D none A (transpose ⟨2, ![K, N]⟩ [1, 0] Wt ht))
        (broadcastInDim ⟨2, ![M, N]⟩ ![0, 1] h2 (broadcastInDim ⟨2, ![1, N]⟩ ![1] h1 bias)) (ix2 r c)
      = (∑ k : Fin K, g k * Wt (ix2 c k)) + bias (ix1 c) := by
  rw [addf_apply, Cert.DenseRows.dotGeneral_plain_apply D hl hr hrank hsize hl0 hr1, Cert.DenseRows.rowBias_inDim_apply]
  refine congrArg (· + bias (ix1 c)) (Finset.sum_congr rfl fun k _ => ?_)
  rw [hg k, transpose_at]

/-- The same followed by the rectifier: the maximum with the zero word laid over the whole array. -/
theorem affine_relu_row {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ .f32) (Wt : FVec Ideal ⟨2, ![N, K]⟩ .f32)
    (ht : (⟨2, ![N, K]⟩ : Shape).Transposes [1, 0] ⟨2, ![K, N]⟩)
    (bias : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (r : Fin M) (g : Fin K → EReal) (hg : ∀ k : Fin K, A (ix2 r k) = g k) (c : Fin N) :
    maximumf (addf (Host.dotGeneral D none A (transpose ⟨2, ![K, N]⟩ [1, 0] Wt ht))
          (broadcastInDim ⟨2, ![M, N]⟩ ![0, 1] h2 (broadcastInDim ⟨2, ![1, N]⟩ ![1] h1 bias)))
        (broadcastInDim ⟨2, ![M, N]⟩ ![] h0 (constant (F := Ideal) ⟨0, ![]⟩ .f32 0x00000000#32)) (ix2 r c)
      = max ((∑ k : Fin K, g k * Wt (ix2 c k)) + bias (ix1 c)) (Ideal.ofBits .f32 0x00000000#32) := by
  rw [maximumf_apply, affine_row D hl hr hrank hsize hl0 hr1 A Wt ht bias h1 h2 r g hg c]
  refine congrArg (max _) ?_
  exact (broadcastInDim_apply ![] h0 _ (ix2 r c) ix0 (fun a => a.elim0)).trans (constant_apply _ _)

/-! ## The trunk's contraction over 133 columns, split as 5 + 128 -/

/-- A sum over 133 columns is the sum over the first five plus the sum over the other 128. -/
theorem sum_split_5_128 (g : Fin 133 → EReal) :
    ∑ k : Fin 133, g k = (∑ k : Fin 5, g ⟨k.val, by omega⟩) + ∑ k : Fin 128, g ⟨5 + k.val, by omega⟩ :=
  Fin.sum_univ_add (a := 5) (b := 128) g

/-- The row `r` of two blocks `[M, 5]` and `[M, 128]` side by side is the first block's row followed by the second's. -/
theorem concat_row {M : ℕ} (xl : FVec Ideal ⟨2, ![M, 5]⟩ .f32) (y : FVec Ideal ⟨2, ![M, 128]⟩ .f32)
    (hc : Shape.Concatenates [⟨2, ![M, 5]⟩, ⟨2, ![M, 128]⟩] ⟨2, ![M, 133]⟩ (1 : Fin 2))
    (r : Fin M) (s : Fin 5 → EReal) (f : Fin 128 → EReal)
    (hs : ∀ k : Fin 5, xl (ix2 r k) = s k) (hf : ∀ k : Fin 128, y (ix2 r k) = f k) (k : Fin 133) :
    concatenate ⟨2, ![M, 133]⟩ (1 : Fin 2) [⟨⟨2, ![M, 5]⟩, xl⟩, ⟨⟨2, ![M, 128]⟩, y⟩] hc (ix2 r k)
      = if h : k.val < 5 then s ⟨k.val, h⟩ else f ⟨k.val - 5, by have := k.isLt; omega⟩ := by
  by_cases h : k.val < 5
  · rw [dif_pos h, Cert.DenseRows.concat_cols_left xl y hc r k h]; exact hs _
  · rw [dif_neg h, Cert.DenseRows.concat_cols_right xl y hc r k (by omega) (by have := k.isLt; omega)]; exact hf _

/-- The rectified affine layer at `(r, c)` in terms of the operand's own row. -/
theorem affine_relu_at {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ .f32) (Wt : FVec Ideal ⟨2, ![N, K]⟩ .f32)
    (ht : (⟨2, ![N, K]⟩ : Shape).Transposes [1, 0] ⟨2, ![K, N]⟩)
    (bias : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral D none A (transpose ⟨2, ![K, N]⟩ [1, 0] Wt ht))
          (broadcastInDim ⟨2, ![M, N]⟩ ![0, 1] h2 (broadcastInDim ⟨2, ![1, N]⟩ ![1] h1 bias)))
        (broadcastInDim ⟨2, ![M, N]⟩ ![] h0 (constant (F := Ideal) ⟨0, ![]⟩ .f32 0x00000000#32)) (ix2 r c)
      = max ((∑ k : Fin K, A (ix2 r k) * Wt (ix2 c k)) + bias (ix1 c)) (Ideal.ofBits .f32 0x00000000#32) :=
  affine_relu_row D hl hr hrank hsize hl0 hr1 A Wt ht bias h1 h2 h0 r (fun k => A (ix2 r k)) (fun _ => rfl) c

/-- The trunk layer at `(r, c)`: the operand is the state block `[M, 5]` and the feature block `[M, 128]` side by side,
    so the contraction over the 133 columns is the state coordinates' sum over the matrix's first five columns plus the
    features' sum over its other 128. -/
theorem trunk_row {M : ℕ} (D : DotDims ⟨2, ![M, 133]⟩ ⟨2, ![133, 128]⟩ ⟨2, ![M, 128]⟩)
    (hl : D.lhsContracting = [(1 : Fin 2)]) (hr : D.rhsContracting = [(0 : Fin 2)])
    (hrank : D.contr.rank = 1) (hsize : D.contr.size ⟨0, by omega⟩ = 133)
    (hl0 : ∀ j k, (D.lhsIdx j k (0 : Fin 2)).val = (j (0 : Fin 2)).val)
    (hr1 : ∀ j k, (D.rhsIdx j k (1 : Fin 2)).val = (j (1 : Fin 2)).val)
    (xl : FVec Ideal ⟨2, ![M, 5]⟩ .f32) (y : FVec Ideal ⟨2, ![M, 128]⟩ .f32)
    (hc : Shape.Concatenates [⟨2, ![M, 5]⟩, ⟨2, ![M, 128]⟩] ⟨2, ![M, 133]⟩ (1 : Fin 2))
    (W2 : FVec Ideal ⟨2, ![128, 133]⟩ .f32) (ht : (⟨2, ![128, 133]⟩ : Shape).Transposes [1, 0] ⟨2, ![133, 128]⟩)
    (b2 : FVec Ideal ⟨1, ![128]⟩ .f32) (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ ![])
    (r : Fin M) (s : Fin 5 → EReal) (f : Fin 128 → EReal)
    (hs : ∀ k : Fin 5, xl (ix2 r k) = s k) (hf : ∀ k : Fin 128, y (ix2 r k) = f k) (c : Fin 128) :
    maximumf (addf (Host.dotGeneral D none
              (concatenate ⟨2, ![M, 133]⟩ (1 : Fin 2) [⟨⟨2, ![M, 5]⟩, xl⟩, ⟨⟨2, ![M, 128]⟩, y⟩] hc)
              (transpose ⟨2, ![133, 128]⟩ [1, 0] W2 ht))
          (broadcastInDim ⟨2, ![M, 128]⟩ ![0, 1] h2 (broadcastInDim ⟨2, ![1, 128]⟩ ![1] h1 b2)))
        (broadcastInDim ⟨2, ![M, 128]⟩ ![] h0 (constant (F := Ideal) ⟨0, ![]⟩ .f32 0x00000000#32)) (ix2 r c)
      = max (((∑ k : Fin 5, s k * W2 (ix2 c (⟨k.val, by have := k.isLt; omega⟩ : Fin 133)))
              + (∑ k : Fin 128, f k * W2 (ix2 c (⟨5 + k.val, by have := k.isLt; omega⟩ : Fin 133)))) + b2 (ix1 c))
          (Ideal.ofBits .f32 0x00000000#32) := by
  rw [affine_relu_at D hl hr hrank hsize hl0 hr1 _ W2 ht b2 h1 h2 h0 r c, sum_split_5_128]
  refine congrArg (fun t => max (t + b2 (ix1 c)) _)
    (congrArg₂ (· + ·) (Finset.sum_congr rfl fun k _ => ?_) (Finset.sum_congr rfl fun k _ => ?_))
  · exact congrArg (· * _) ((Cert.DenseRows.concat_cols_left xl y hc r ⟨k.val, _⟩ k.isLt).trans (hs k))
  · exact congrArg (· * _)
      ((Cert.DenseRows.concat_cols_right xl y hc r ⟨5 + k.val, _⟩ (Nat.le_add_right 5 k.val)
          (by show 5 + k.val - 5 < 128; have := k.isLt; omega)).trans
        ((congrArg (fun j => y (ix2 r j)) (Fin.ext (by show 5 + k.val - 5 = k.val; omega))).trans (hf k)))

/-! ## The reference's stages -/

section Stages

open Cert.ReferenceIdeal Cert.ReferenceIdeal.Gen Cert.ReferenceIdeal.ReadP

/-- The exponential of the `[1, 2]` parameter row, laid along every batch row. -/
theorem std_eq (x17 : (⟨S1x2, .f32⟩ : BufTy).Contents (Elt Ideal)) (b : Fin 16384) (a : Fin 2) :
    val_main_v73 (F := Ideal) x17 (ix2 b a) = Ideal.exp (x17 (ix2 (0 : Fin 1) a)) := by
  rw [val_main_v73_apply, val_main_v72_apply, Ideal.hostUnary_exp_def]
  exact congrArg (fun j => Ideal.exp (x17 j)) (idx2_ext _ _ rfl rfl)

/-- The trunk of row `b`: the rectified affine layer on the row's five state coordinates and its 128 averaged features. -/
theorem trunk_eq (x0 : (⟨S16384x133, .f32⟩ : BufTy).Contents (Elt Ideal)) (x1 : (⟨S128x2, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S1x256, .f32⟩ : BufTy).Contents (Elt Ideal)) (x6 : (⟨S1, .f32⟩ : BufTy).Contents (Elt Ideal)) (x7 : (⟨S128x133, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal)) (x13 : (⟨S256x128, .f32⟩ : BufTy).Contents (Elt Ideal)) (x14 : (⟨S256, .f32⟩ : BufTy).Contents (Elt Ideal)) (x15 : (⟨S2x256, .f32⟩ : BufTy).Contents (Elt Ideal)) (x16 : (⟨S2, .f32⟩ : BufTy).Contents (Elt Ideal)) (b : Fin 16384) (f : Fin 128 → EReal)
    (hf : ∀ k : Fin 128, val_main_v42 (F := Ideal) x0 x1 x2 x3 x4 x5 x6 (ix2 b k) = f k) (h : Fin 128) :
    val_main_v49 (F := Ideal) x0 x1 x2 x3 x4 x5 x6 x7 x8 (ix2 b h)
      = Cert.NeighbourNet.trunkOf (Cert.NeighbourNet.ofArrays x1 x2 x3 x4 x5 x6 x7 x8 x9 x10 x11 x12 x13 x14 x15 x16) (Cert.NeighbourNet.stateRow x0 b) f h :=
  trunk_row dot_S16384x133_S133x128_S16384x128_1_0_0_1_n_n rfl rfl rfl rfl lhs_main_v45_0 rhs_main_v45_1
    (val_main_v0 (F := Ideal) x0) (val_main_v42 (F := Ideal) x0 x1 x2 x3 x4 x5 x6) Facts₀.concatenates_S16384x5_S16384x128_S16384x133_d1
    x7 Facts₀.transposes_S128x133_S133x128_1_0 x8 Facts₀.bcast_S128_S1x128_1 Facts₀.bcast_S1x128_S16384x128_0_1 Facts₀.bcast_S_S16384x128
    b (Cert.NeighbourNet.stateRow x0 b) f
    (fun k => (val_main_v0_apply x0 _).trans (congrArg x0 (idx2_ext _ _ rfl rfl))) hf h

/-- The value head's hidden layer on row `b`, when the row's trunk vector is `r`. -/
theorem critic_hidden_eq (x0 : (⟨S16384x133, .f32⟩ : BufTy).Contents (Elt Ideal)) (x1 : (⟨S128x2, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S1x256, .f32⟩ : BufTy).Contents (Elt Ideal)) (x6 : (⟨S1, .f32⟩ : BufTy).Contents (Elt Ideal)) (x7 : (⟨S128x133, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal)) (x13 : (⟨S256x128, .f32⟩ : BufTy).Contents (Elt Ideal)) (x14 : (⟨S256, .f32⟩ : BufTy).Contents (Elt Ideal)) (x15 : (⟨S2x256, .f32⟩ : BufTy).Contents (Elt Ideal)) (x16 : (⟨S2, .f32⟩ : BufTy).Contents (Elt Ideal)) (b : Fin 16384) (r : Fin 128 → EReal)
    (hr : ∀ k : Fin 128, val_main_v49 (F := Ideal) x0 x1 x2 x3 x4 x5 x6 x7 x8 (ix2 b k) = r k) (j : Fin 256) :
    val_main_v55 (F := Ideal) x0 x1 x2 x3 x4 x5 x6 x7 x8 x9 x10 (ix2 b j) = Cert.NeighbourNet.criticHiddenOf (Cert.NeighbourNet.ofArrays x1 x2 x3 x4 x5 x6 x7 x8 x9 x10 x11 x12 x13 x14 x15 x16) r j :=
  affine_relu_row dot_S16384x128_S128x256_S16384x256_1_0_0_1_n_n rfl rfl rfl rfl lhs_main_v51_0 rhs_main_v51_1
    (val_main_v49 (F := Ideal) x0 x1 x2 x3 x4 x5 x6 x7 x8) x9 Facts₀.transposes_S256x128_S128x256_1_0 x10 Facts₀.bcast_S256_S1x256_1
    Facts₀.bcast_S1x256_S16384x256_0_1 Facts₀.bcast_S_S16384x256 b r hr j

/-- The value head on row `b`, when the row's trunk vector is `r`. -/
theorem value_of_trunk (x0 : (⟨S16384x133, .f32⟩ : BufTy).Contents (Elt Ideal)) (x1 : (⟨S128x2, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S1x256, .f32⟩ : BufTy).Contents (Elt Ideal)) (x6 : (⟨S1, .f32⟩ : BufTy).Contents (Elt Ideal)) (x7 : (⟨S128x133, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal)) (x13 : (⟨S256x128, .f32⟩ : BufTy).Contents (Elt Ideal)) (x14 : (⟨S256, .f32⟩ : BufTy).Contents (Elt Ideal)) (x15 : (⟨S2x256, .f32⟩ : BufTy).Contents (Elt Ideal)) (x16 : (⟨S2, .f32⟩ : BufTy).Contents (Elt Ideal)) (b : Fin 16384) (r : Fin 128 → EReal)
    (hr : ∀ k : Fin 128, val_main_v49 (F := Ideal) x0 x1 x2 x3 x4 x5 x6 x7 x8 (ix2 b k) = r k) :
    val_main_v60 (F := Ideal) x0 x1 x2 x3 x4 x5 x6 x7 x8 x9 x10 x11 x12 (ix2 b (0 : Fin 1)) = Cert.NeighbourNet.valueOf (Cert.NeighbourNet.ofArrays x1 x2 x3 x4 x5 x6 x7 x8 x9 x10 x11 x12 x13 x14 x15 x16) r :=
  affine_row dot_S16384x256_S256x1_S16384x1_1_0_0_1_n_n rfl rfl rfl rfl lhs_main_v57_0 rhs_main_v57_1
    (val_main_v55 (F := Ideal) x0 x1 x2 x3 x4 x5 x6 x7 x8 x9 x10) x11 Facts₀.transposes_S1x256_S256x1_1_0 x12 Facts₀.bcast_S1_S1x1_1
    Facts₀.bcast_S1x1_S16384x1_0_1 b (Cert.NeighbourNet.criticHiddenOf (Cert.NeighbourNet.ofArrays x1 x2 x3 x4 x5 x6 x7 x8 x9 x10 x11 x12 x13 x14 x15 x16) r)
    (critic_hidden_eq x0 x1 x2 x3 x4 x5 x6 x7 x8 x9 x10 x11 x12 x13 x14 x15 x16 b r hr) (0 : Fin 1)

/-- The action head's hidden layer on row `b`, when the row's trunk vector is `r`. -/
theorem actor_hidden_eq (x0 : (⟨S16384x133, .f32⟩ : BufTy).Contents (Elt Ideal)) (x1 : (⟨S128x2, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S1x256, .f32⟩ : BufTy).Contents (Elt Ideal)) (x6 : (⟨S1, .f32⟩ : BufTy).Contents (Elt Ideal)) (x7 : (⟨S128x133, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal)) (x13 : (⟨S256x128, .f32⟩ : BufTy).Contents (Elt Ideal)) (x14 : (⟨S256, .f32⟩ : BufTy).Contents (Elt Ideal)) (x15 : (⟨S2x256, .f32⟩ : BufTy).Contents (Elt Ideal)) (x16 : (⟨S2, .f32⟩ : BufTy).Contents (Elt Ideal)) (b : Fin 16384) (r : Fin 128 → EReal)
    (hr : ∀ k : Fin 128, val_main_v49 (F := Ideal) x0 x1 x2 x3 x4 x5 x6 x7 x8 (ix2 b k) = r k) (j : Fin 256) :
    val_main_v66 (F := Ideal) x0 x1 x2 x3 x4 x5 x6 x7 x8 x13 x14 (ix2 b j) = Cert.NeighbourNet.actorHiddenOf (Cert.NeighbourNet.ofArrays x1 x2 x3 x4 x5 x6 x7 x8 x9 x10 x11 x12 x13 x14 x15 x16) r j :=
  affine_relu_row dot_S16384x128_S128x256_S16384x256_1_0_0_1_n_n rfl rfl rfl rfl lhs_main_v62_0 rhs_main_v62_1
    (val_main_v49 (F := Ideal) x0 x1 x2 x3 x4 x5 x6 x7 x8) x13 Facts₀.transposes_S256x128_S128x256_1_0 x14 Facts₀.bcast_S256_S1x256_1
    Facts₀.bcast_S1x256_S16384x256_0_1 Facts₀.bcast_S_S16384x256 b r hr j

/-- Action mean `a` on row `b`, when the row's trunk vector is `r`. -/
theorem mean_of_trunk (x0 : (⟨S16384x133, .f32⟩ : BufTy).Contents (Elt Ideal)) (x1 : (⟨S128x2, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S1x256, .f32⟩ : BufTy).Contents (Elt Ideal)) (x6 : (⟨S1, .f32⟩ : BufTy).Contents (Elt Ideal)) (x7 : (⟨S128x133, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal)) (x13 : (⟨S256x128, .f32⟩ : BufTy).Contents (Elt Ideal)) (x14 : (⟨S256, .f32⟩ : BufTy).Contents (Elt Ideal)) (x15 : (⟨S2x256, .f32⟩ : BufTy).Contents (Elt Ideal)) (x16 : (⟨S2, .f32⟩ : BufTy).Contents (Elt Ideal)) (b : Fin 16384) (r : Fin 128 → EReal)
    (hr : ∀ k : Fin 128, val_main_v49 (F := Ideal) x0 x1 x2 x3 x4 x5 x6 x7 x8 (ix2 b k) = r k) (a : Fin 2) :
    val_main_v71 (F := Ideal) x0 x1 x2 x3 x4 x5 x6 x7 x8 x13 x14 x15 x16 (ix2 b a) = Cert.NeighbourNet.meanOf (Cert.NeighbourNet.ofArrays x1 x2 x3 x4 x5 x6 x7 x8 x9 x10 x11 x12 x13 x14 x15 x16) r a :=
  affine_row dot_S16384x256_S256x2_S16384x2_1_0_0_1_n_n rfl rfl rfl rfl lhs_main_v68_0 rhs_main_v68_1
    (val_main_v66 (F := Ideal) x0 x1 x2 x3 x4 x5 x6 x7 x8 x13 x14) x15 Facts₀.transposes_S2x256_S256x2_1_0 x16 Facts₀.bcast_S2_S1x2_1
    Facts₀.bcast_S1x2_S16384x2_0_1 b (Cert.NeighbourNet.actorHiddenOf (Cert.NeighbourNet.ofArrays x1 x2 x3 x4 x5 x6 x7 x8 x9 x10 x11 x12 x13 x14 x15 x16) r)
    (actor_hidden_eq x0 x1 x2 x3 x4 x5 x6 x7 x8 x9 x10 x11 x12 x13 x14 x15 x16 b r hr) a

/-! ## The two heads of a row whose averaged features are `f` -/

/-- Action mean `a` of row `b`. -/
theorem mean_eq (x0 : (⟨S16384x133, .f32⟩ : BufTy).Contents (Elt Ideal)) (x1 : (⟨S128x2, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S1x256, .f32⟩ : BufTy).Contents (Elt Ideal)) (x6 : (⟨S1, .f32⟩ : BufTy).Contents (Elt Ideal)) (x7 : (⟨S128x133, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal)) (x13 : (⟨S256x128, .f32⟩ : BufTy).Contents (Elt Ideal)) (x14 : (⟨S256, .f32⟩ : BufTy).Contents (Elt Ideal)) (x15 : (⟨S2x256, .f32⟩ : BufTy).Contents (Elt Ideal)) (x16 : (⟨S2, .f32⟩ : BufTy).Contents (Elt Ideal)) (b : Fin 16384) (f : Fin 128 → EReal)
    (hf : ∀ k : Fin 128, Cert.ReferenceIdeal.ReadP.val_main_v42 (F := Ideal) x0 x1 x2 x3 x4 x5 x6 (ValueIdx.ix2 b k) = f k) (a : Fin 2) :
    Cert.ReferenceIdeal.ReadP.val_main_v71 (F := Ideal) x0 x1 x2 x3 x4 x5 x6 x7 x8 x13 x14 x15 x16 (ValueIdx.ix2 b a)
      = Cert.NeighbourNet.meanOf (Cert.NeighbourNet.ofArrays x1 x2 x3 x4 x5 x6 x7 x8 x9 x10 x11 x12 x13 x14 x15 x16)
          (Cert.NeighbourNet.trunkOf (Cert.NeighbourNet.ofArrays x1 x2 x3 x4 x5 x6 x7 x8 x9 x10 x11 x12 x13 x14 x15 x16) (Cert.NeighbourNet.stateRow x0 b) f) a :=
  mean_of_trunk x0 x1 x2 x3 x4 x5 x6 x7 x8 x9 x10 x11 x12 x13 x14 x15 x16 b _ (fun k => trunk_eq x0 x1 x2 x3 x4 x5 x6 x7 x8 x9 x10 x11 x12 x13 x14 x15 x16 b f hf k) a

/-- The value of row `b`. -/
theorem value_eq (x0 : (⟨S16384x133, .f32⟩ : BufTy).Contents (Elt Ideal)) (x1 : (⟨S128x2, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S1x256, .f32⟩ : BufTy).Contents (Elt Ideal)) (x6 : (⟨S1, .f32⟩ : BufTy).Contents (Elt Ideal)) (x7 : (⟨S128x133, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal)) (x13 : (⟨S256x128, .f32⟩ : BufTy).Contents (Elt Ideal)) (x14 : (⟨S256, .f32⟩ : BufTy).Contents (Elt Ideal)) (x15 : (⟨S2x256, .f32⟩ : BufTy).Contents (Elt Ideal)) (x16 : (⟨S2, .f32⟩ : BufTy).Contents (Elt Ideal)) (b : Fin 16384) (f : Fin 128 → EReal)
    (hf : ∀ k : Fin 128, Cert.ReferenceIdeal.ReadP.val_main_v42 (F := Ideal) x0 x1 x2 x3 x4 x5 x6 (ValueIdx.ix2 b k) = f k) :
    Cert.ReferenceIdeal.ReadP.val_main_v60 (F := Ideal) x0 x1 x2 x3 x4 x5 x6 x7 x8 x9 x10 x11 x12 (ValueIdx.ix2 b (0 : Fin 1))
      = Cert.NeighbourNet.valueOf (Cert.NeighbourNet.ofArrays x1 x2 x3 x4 x5 x6 x7 x8 x9 x10 x11 x12 x13 x14 x15 x16)
          (Cert.NeighbourNet.trunkOf (Cert.NeighbourNet.ofArrays x1 x2 x3 x4 x5 x6 x7 x8 x9 x10 x11 x12 x13 x14 x15 x16) (Cert.NeighbourNet.stateRow x0 b) f) :=
  value_of_trunk x0 x1 x2 x3 x4 x5 x6 x7 x8 x9 x10 x11 x12 x13 x14 x15 x16 b _ (fun k => trunk_eq x0 x1 x2 x3 x4 x5 x6 x7 x8 x9 x10 x11 x12 x13 x14 x15 x16 b f hf k)

end Stages

end Cert.ReferenceIdeal.RefHeads

end
-- ==== Proof.RefResult.lean ====
/-
  The reference's three results as functions of the arguments its memory holds.

  Row b of the first result holds the two action means of the network on row b of the input, row b of the third its value,
  and every row of the second the exponentials of the two standard-deviation parameters. The run of the reference leaves
  each result at the composed term of its operations; read at an index, that term is the attention stage's averaged
  features fed through the trunk layer and a head, which is the specification's function of the row.
-/
import proofs.«128013_j39324720562723_2_alg».proof.Proof.RefAttention
import proofs.«128013_j39324720562723_2_alg».proof.Proof.RefHeads
import proofs.«128013_j39324720562723_2_alg».proof.Proof.Spec

noncomputable section

namespace Cert.ReferenceIdeal.RefResult

open Cert.ReferenceIdeal Cert.ReferenceIdeal.Gen Idealize.ShloMosaic Idealize.ShloMosaic.TcCoe Idealize.SL.Sem
open Idealize.ShloMosaic.StableHlo Idealize.ShloMosaic.ValueIdx Cert.NeighbourNet

/-! ## The arguments a memory holds -/

/-- Argument 0 as the memory holds it: the input rows. -/
abbrev arg0 (m : (ℓ : Loc nD τ sig) → Buf (Elt Ideal) ℓ) (c : Dev nD) : (⟨S16384x133, .f32⟩ : BufTy).Contents (Elt Ideal) :=
  m ((c.tc : Thread nD τ).loc main_arg0)
/-- Argument 1 as the memory holds it: the embedding's matrix. -/
abbrev arg1 (m : (ℓ : Loc nD τ sig) → Buf (Elt Ideal) ℓ) (c : Dev nD) : (⟨S128x2, .f32⟩ : BufTy).Contents (Elt Ideal) :=
  m ((c.tc : Thread nD τ).loc main_arg1)
/-- Argument 2 as the memory holds it: the embedding's bias. -/
abbrev arg2 (m : (ℓ : Loc nD τ sig) → Buf (Elt Ideal) ℓ) (c : Dev nD) : (⟨S128, .f32⟩ : BufTy).Contents (Elt Ideal) :=
  m ((c.tc : Thread nD τ).loc main_arg2)
/-- Argument 3 as the memory holds it: the hidden layer's matrix. -/
abbrev arg3 (m : (ℓ : Loc nD τ sig) → Buf (Elt Ideal) ℓ) (c : Dev nD) : (⟨S128x128, .f32⟩ : BufTy).Contents (Elt Ideal) :=
  m ((c.tc : Thread nD τ).loc main_arg3)
/-- Argument 4 as the memory holds it: the hidden layer's bias. -/
abbrev arg4 (m : (ℓ : Loc nD τ sig) → Buf (Elt Ideal) ℓ) (c : Dev nD) : (⟨S128, .f32⟩ : BufTy).Contents (Elt Ideal) :=
  m ((c.tc : Thread nD τ).loc main_arg4)
/-- Argument 5 as the memory holds it: the score's one-row matrix. -/
abbrev arg5 (m : (ℓ : Loc nD τ sig) → Buf (Elt Ideal) ℓ) (c : Dev nD) : (⟨S1x256, .f32⟩ : BufTy).Contents (Elt Ideal) :=
  m ((c.tc : Thread nD τ).loc main_arg5)
/-- Argument 6 as the memory holds it: the score's bias. -/
abbrev arg6 (m : (ℓ : Loc nD τ sig) → Buf (Elt Ideal) ℓ) (c : Dev nD) : (⟨S1, .f32⟩ : BufTy).Contents (Elt Ideal) :=
  m ((c.tc : Thread nD τ).loc main_arg6)
/-- Argument 7 as the memory holds it: the trunk's matrix. -/
abbrev arg7 (m : (ℓ : Loc nD τ sig) → Buf (Elt Ideal) ℓ) (c : Dev nD) : (⟨S128x133, .f32⟩ : BufTy).Contents (Elt Ideal) :=
  m ((c.tc : Thread nD τ).loc main_arg7)
/-- Argument 8 as the memory holds it: the trunk's bias. -/
abbrev arg8 (m : (ℓ : Loc nD τ sig) → Buf (Elt Ideal) ℓ) (c : Dev nD) : (⟨S128, .f32⟩ : BufTy).Contents (Elt Ideal) :=
  m ((c.tc : Thread nD τ).loc main_arg8)
/-- Argument 9 as the memory holds it: the value head's hidden matrix. -/
abbrev arg9 (m : (ℓ : Loc nD τ sig) → Buf (Elt Ideal) ℓ) (c : Dev nD) : (⟨S256x128, .f32⟩ : BufTy).Contents (Elt Ideal) :=
  m ((c.tc : Thread nD τ).loc main_arg9)
/-- Argument 10 as the memory holds it: the value head's hidden bias. -/
abbrev arg10 (m : (ℓ : Loc nD τ sig) → Buf (Elt Ideal) ℓ) (c : Dev nD) : (⟨S256, .f32⟩ : BufTy).Contents (Elt Ideal) :=
  m ((c.tc : Thread nD τ).loc main_arg10)
/-- Argument 11 as the memory holds it: the value head's output row. -/
abbrev arg11 (m : (ℓ : Loc nD τ sig) → Buf (Elt Ideal) ℓ) (c : Dev nD) : (⟨S1x256, .f32⟩ : BufTy).Contents (Elt Ideal) :=
  m ((c.tc : Thread nD τ).loc main_arg11)
/-- Argument 12 as the memory holds it: the value head's output bias. -/
abbrev arg12 (m : (ℓ : Loc nD τ sig) → Buf (Elt Ideal) ℓ) (c : Dev nD) : (⟨S1, .f32⟩ : BufTy).Contents (Elt Ideal) :=
  m ((c.tc : Thread nD τ).loc main_arg12)
/-- Argument 13 as the memory holds it: the action head's hidden matrix. -/
abbrev arg13 (m : (ℓ : Loc nD τ sig) → Buf (Elt Ideal) ℓ) (c : Dev nD) : (⟨S256x128, .f32⟩ : BufTy).Contents (Elt Ideal) :=
  m ((c.tc : Thread nD τ).loc main_arg13)
/-- Argument 14 as the memory holds it: the action head's hidden bias. -/
abbrev arg14 (m : (ℓ : Loc nD τ sig) → Buf (Elt Ideal) ℓ) (c : Dev nD) : (⟨S256, .f32⟩ : BufTy).Contents (Elt Ideal) :=
  m ((c.tc : Thread nD τ).loc main_arg14)
/-- Argument 15 as the memory holds it: the action head's output matrix. -/
abbrev arg15 (m : (ℓ : Loc nD τ sig) → Buf (Elt Ideal) ℓ) (c : Dev nD) : (⟨S2x256, .f32⟩ : BufTy).Contents (Elt Ideal) :=
  m ((c.tc : Thread nD τ).loc main_arg15)
/-- Argument 16 as the memory holds it: the action head's output bias. -/
abbrev arg16 (m : (ℓ : Loc nD τ sig) → Buf (Elt Ideal) ℓ) (c : Dev nD) : (⟨S2, .f32⟩ : BufTy).Contents (Elt Ideal) :=
  m ((c.tc : Thread nD τ).loc main_arg16)
/-- Argument 17 as the memory holds it: the row of logarithms of the standard deviations. -/
abbrev arg17 (m : (ℓ : Loc nD τ sig) → Buf (Elt Ideal) ℓ) (c : Dev nD) : (⟨S1x2, .f32⟩ : BufTy).Contents (Elt Ideal) :=
  m ((c.tc : Thread nD τ).loc main_arg17)

/-- The network's parameters as the memory holds them. -/
abbrev weightsOf (m : (ℓ : Loc nD τ sig) → Buf (Elt Ideal) ℓ) (c : Dev nD) : Weights :=
  ofArrays (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)

/-! ## The three results -/

/-- The action means: entry (b, a) is action mean a of the network on row b. -/
def muArr (m : (ℓ : Loc nD τ sig) → Buf (Elt Ideal) ℓ) (c : Dev nD) : S16384x2.Idx → EReal :=
  fun i => mean (weightsOf m c) (stateRow (arg0 m c) (i 0)) (nbxRow (arg0 m c) (i 0)) (nbyRow (arg0 m c) (i 0)) (i 1)

/-- The values: entry (b, 0) is the value of the network on row b. -/
def valueArr (m : (ℓ : Loc nD τ sig) → Buf (Elt Ideal) ℓ) (c : Dev nD) : S16384x1.Idx → EReal :=
  fun i => value (weightsOf m c) (stateRow (arg0 m c) (i 0)) (nbxRow (arg0 m c) (i 0)) (nbyRow (arg0 m c) (i 0))

/-- The standard deviations: entry (b, a) is the exponential of parameter a, whatever the row. -/
def stdArr (m : (ℓ : Loc nD τ sig) → Buf (Elt Ideal) ℓ) (c : Dev nD) : S16384x2.Idx → EReal :=
  fun i => Ideal.exp (arg17 m c (ix2 (0 : Fin 1) (i 1)))

/-- The averaged weighted hidden features of row b, the trunk layer's second operand. -/
theorem features_eq (m : (ℓ : Loc nD τ sig) → Buf (Elt Ideal) ℓ) (c : Dev nD) (b : Fin 16384) (k : Fin 128) :
    Cert.ReferenceIdeal.ReadP.val_main_v42 (F := Ideal) (arg0 m c) (arg1 m c) (arg2 m c) (arg3 m c) (arg4 m c) (arg5 m c) (arg6 m c) (ix2 b k)
      = feature (weightsOf m c) (nbxRow (arg0 m c) b) (nbyRow (arg0 m c) b) k :=
  Cert.ReferenceIdeal.RefValue.feature_eq (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) b k

/-- The first result's composed term is the array of action means. -/
theorem res_mean (m : (ℓ : Loc nD τ sig) → Buf (Elt Ideal) ℓ) (c : Dev nD) :
    Cert.ReferenceIdeal.ValueP.res_main_v71 m c = muArr m c := by
  rw [Cert.ReferenceIdeal.ReadP.val_main_v71_eq m c]
  funext i
  obtain ⟨b, a, rfl⟩ : ∃ (b : Fin 16384) (a : Fin 2), i = ix2 b a := ⟨i 0, i 1, eq_ix2 i⟩
  exact Cert.ReferenceIdeal.RefHeads.mean_eq (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) b
    (feature (weightsOf m c) (nbxRow (arg0 m c) b) (nbyRow (arg0 m c) b)) (features_eq m c b) a

/-- The third result's composed term is the array of values. -/
theorem res_value (m : (ℓ : Loc nD τ sig) → Buf (Elt Ideal) ℓ) (c : Dev nD) :
    Cert.ReferenceIdeal.ValueP.res_main_v60 m c = valueArr m c := by
  rw [Cert.ReferenceIdeal.ReadP.val_main_v60_eq m c]
  funext i
  obtain ⟨b, o, rfl⟩ : ∃ (b : Fin 16384) (o : Fin 1), i = ix2 b o := ⟨i 0, i 1, eq_ix2 i⟩
  obtain rfl : o = 0 := Subsingleton.elim _ _
  exact Cert.ReferenceIdeal.RefHeads.value_eq (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) b
    (feature (weightsOf m c) (nbxRow (arg0 m c) b) (nbyRow (arg0 m c) b)) (features_eq m c b)

/-- The second result's term, the exponential of the parameter row laid along every batch row, is the array of standard
    deviations. -/
theorem std_arr (m : (ℓ : Loc nD τ sig) → Buf (Elt Ideal) ℓ) (c : Dev nD) :
    broadcastInDim S16384x2 ![0, 1] bcast_S1x2_S16384x2_0_1 (Host.exp (F := Ideal) (s := S1x2) (φ := .f32) (arg17 m c))
      = stdArr m c := by
  rw [Cert.ReferenceIdeal.ReadP.val_main_v73_eq (F := Ideal) (arg17 m c)]
  funext i
  obtain ⟨b, a, rfl⟩ : ∃ (b : Fin 16384) (a : Fin 2), i = ix2 b a := ⟨i 0, i 1, eq_ix2 i⟩
  exact Cert.ReferenceIdeal.RefHeads.std_eq (arg17 m c) b a

/-! ## The run -/

/-- Every weakly fair execution of the reference from a memory with zero counters terminates with the three results at
    the arrays above and the eighteen arguments unchanged. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v71) = muArr m c
      ∧ r.2.mem ((c.tc : Thread nD τ).loc main_v73) = stdArr m c
      ∧ r.2.mem ((c.tc : Thread nD τ).loc main_v60) = valueArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run (defs (F := Ideal)) _ _).mono
    (fun r h c => ⟨(h c).1.trans (res_mean m c), (h c).2.1.trans (std_arr m c), (h c).2.2.1.trans (res_value m c),
      (h c).2.2.2⟩)
    (Cert.ReferenceIdeal.ValueP.run (F := Ideal) m ρ)

end Cert.ReferenceIdeal.RefResult

end
-- ==== Proof.lean ====
/-
  The kernel and its reference compute one function of their arguments over the extended reals.

  Both programs take 16384 rows of five state coordinates and 64 neighbours' pairs, and the parameters of a small network:
  every neighbour is embedded into 128 features, scored against the mean embedding, weighted by a softmax over the
  neighbours, and the weighted hidden features, averaged, go with the state coordinates through a trunk layer and two
  heads, giving two action means and a value per row; a third result is the exponential of two parameters, the same on
  every row (Proof/Spec.lean states the function, one row at a time).

  The kernel works on 64 blocks of 256 rows: its body's arithmetic on a block is read at coordinates in Proof/Payload.lean
  and Proof/PayloadHeads.lean and assembled in Proof/PayloadBlocks.lean; the arrays its windows stage, which host
  operations cut, reshape and transpose out of the arguments, are read in Proof/KernelArrays.lean; and Proof/KernelValue.lean
  passes from the blocks to the whole result arrays and states the kernel's run. The reference's operations are read one
  at a time in Proof/RefAttention.lean and Proof/RefHeads.lean and its run is stated in Proof/RefResult.lean. The two sides
  differ only in how sums are arranged — the embedding's two products against a sum over two terms, the trunk's two matrix
  products against one product over the concatenated 133 columns, the transposed parameter blocks against transposes taken
  on the fly — so the only laws used are that addition of extended reals is commutative and associative, and that a fold
  of the maximum from a value is at least that value; no finiteness of the inputs is needed, and the precondition is not
  opened. The idealization rewrote nothing in the kernel, so that it preserves the kernel is immediate.
-/
import proofs.«128013_j39324720562723_2_alg».proof.Defs
import proofs.«128013_j39324720562723_2_alg».proof.Proof.Gen.Kernel
import proofs.«128013_j39324720562723_2_alg».proof.Proof.Gen.Kernel.Frame
import proofs.«128013_j39324720562723_2_alg».proof.Proof.Gen.KernelIdeal
import proofs.«128013_j39324720562723_2_alg».proof.Proof.Gen.KernelIdeal.Frame
import proofs.«128013_j39324720562723_2_alg».proof.Proof.Gen.ReferenceIdeal
import proofs.«128013_j39324720562723_2_alg».proof.Proof.Gen.Pre_finite_inputs
import proofs.«128013_j39324720562723_2_alg».proof.Proof.KernelValue
import proofs.«128013_j39324720562723_2_alg».proof.Proof.PayloadBlocks
import proofs.«128013_j39324720562723_2_alg».proof.Proof.RefResult
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the three results dropped. -/
theorem frame_referenceIdeal : Cert.frame_ReferenceIdeal := fun m ρ _ =>
  (θ_run Cert.ReferenceIdeal.defs _ _).mono (fun _ h c => (h c).2.2.2) (Cert.ReferenceIdeal.RefResult.run_values m ρ)

/-- From memories that agree on the eighteen arguments the two programs end with equal results: each side's three arrays
    are the specification's functions of its own arguments, and the arguments are the same. -/
theorem algebraic : Cert.algebraic_KernelIdeal_ReferenceIdeal := by
  intro m ρ m' ρ' _ hagree
  refine ⟨fun c => Cert.KernelIdeal.Value2.muArr m c, fun c => Cert.KernelIdeal.Value2.stdArr m c,
    fun c => Cert.KernelIdeal.Value2.valueArr m c,
    Cert.KernelIdeal.Value2.run_values m Cert.KernelIdeal.Payload.meansBlock Cert.KernelIdeal.Payload.valuesBlock ρ, ?_⟩
  refine (θ_run Cert.ReferenceIdeal.defs _ _).mono (fun r h c => ?_) (Cert.ReferenceIdeal.RefResult.run_values m' ρ')
  obtain ⟨h0, h1, h2, h3, h4, h5, h6, h7, h8, h9, h10, h11, h12, h13, h14, h15, h16, h17⟩ := hagree c
  have hX : Cert.ReferenceIdeal.RefResult.arg0 m' c = Cert.KernelIdeal.Args.X m c := h0
  have hS : Cert.ReferenceIdeal.RefResult.arg17 m' c = Cert.KernelIdeal.Args.logStd m c := h17
  have hW : Cert.ReferenceIdeal.RefResult.weightsOf m' c = Cert.KernelIdeal.Args.W m c := by
    unfold Cert.ReferenceIdeal.RefResult.weightsOf Cert.KernelIdeal.Args.W
    unfold Cert.ReferenceIdeal.RefResult.arg1 Cert.ReferenceIdeal.RefResult.arg2 Cert.ReferenceIdeal.RefResult.arg3 Cert.ReferenceIdeal.RefResult.arg4 Cert.ReferenceIdeal.RefResult.arg5 Cert.ReferenceIdeal.RefResult.arg6 Cert.ReferenceIdeal.RefResult.arg7 Cert.ReferenceIdeal.RefResult.arg8 Cert.ReferenceIdeal.RefResult.arg9 Cert.ReferenceIdeal.RefResult.arg10 Cert.ReferenceIdeal.RefResult.arg11 Cert.ReferenceIdeal.RefResult.arg12 Cert.ReferenceIdeal.RefResult.arg13 Cert.ReferenceIdeal.RefResult.arg14 Cert.ReferenceIdeal.RefResult.arg15 Cert.ReferenceIdeal.RefResult.arg16
    rw [h1, h2, h3, h4, h5, h6, h7, h8, h9, h10, h11, h12, h13, h14, h15, h16]
  refine ⟨(h c).1.trans ?_, (h c).2.1.trans ?_, (h c).2.2.1.trans ?_, (h c).2.2.2⟩
  · unfold Cert.ReferenceIdeal.RefResult.muArr Cert.KernelIdeal.Value2.muArr
    rw [hW, hX]
  · unfold Cert.ReferenceIdeal.RefResult.stdArr Cert.KernelIdeal.Value2.stdArr
    rw [hS]
  · unfold Cert.ReferenceIdeal.RefResult.valueArr Cert.KernelIdeal.Value2.valueArr
    rw [hW, hX]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
